-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel

variable [Facts]

def fn {F : FTy → Type} [FloatOps F] (main_arg0 : FVec F S2x4096x4096 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  main_v3
-- ==== Kernel.lean ====
abbrev S2x4096x4096 : Shape := ⟨3, ![2, 4096, 4096]⟩
abbrev S2x2 : Shape := ⟨2, ![2, 2]⟩
abbrev S8192x64x64 : Shape := ⟨3, ![8192, 64, 64]⟩
abbrev S2x1x2x1 : Shape := ⟨4, ![2, 1, 2, 1]⟩
abbrev S1x2x1x2 : Shape := ⟨4, ![1, 2, 1, 2]⟩
abbrev S2x2x2x2 : Shape := ⟨4, ![2, 2, 2, 2]⟩
abbrev S4x4 : Shape := ⟨2, ![4, 4]⟩
abbrev S4x1x4x1 : Shape := ⟨4, ![4, 1, 4, 1]⟩
abbrev S4x2x4x2 : Shape := ⟨4, ![4, 2, 4, 2]⟩
abbrev S8x8 : Shape := ⟨2, ![8, 8]⟩
abbrev S8x1x8x1 : Shape := ⟨4, ![8, 1, 8, 1]⟩
abbrev S8x2x8x2 : Shape := ⟨4, ![8, 2, 8, 2]⟩
abbrev S16x16 : Shape := ⟨2, ![16, 16]⟩
abbrev S16x1x16x1 : Shape := ⟨4, ![16, 1, 16, 1]⟩
abbrev S16x2x16x2 : Shape := ⟨4, ![16, 2, 16, 2]⟩
abbrev S32x32 : Shape := ⟨2, ![32, 32]⟩
abbrev S32x1x32x1 : Shape := ⟨4, ![32, 1, 32, 1]⟩
abbrev S32x2x32x2 : Shape := ⟨4, ![32, 2, 32, 2]⟩
abbrev S64x64 : Shape := ⟨2, ![64, 64]⟩
abbrev S256x64x64 : Shape := ⟨3, ![256, 64, 64]⟩
abbrev S16384x64 : Shape := ⟨2, ![16384, 64]⟩

abbrev nBuf : Space → Nat
  | .hbm => 35
  | .vmem => 5
  | .smem => 0
  | _ => 0

abbrev bufTy : (tb : Table) → Fin (tcTables nBuf tb) → BufTy
  | .hbm, ⟨0, _⟩ => ⟨S2x4096x4096, .f32⟩
  | .hbm, ⟨1, _⟩ => ⟨S2x2, .f32⟩
  | .hbm, ⟨2, _⟩ => ⟨S8192x64x64, .f32⟩
  | .hbm, ⟨3, _⟩ => ⟨S2x1x2x1, .f32⟩
  | .hbm, ⟨4, _⟩ => ⟨S1x2x1x2, .f32⟩
  | .hbm, ⟨5, _⟩ => ⟨S2x2x2x2, .f32⟩
  | .hbm, ⟨6, _⟩ => ⟨S2x2x2x2, .f32⟩
  | .hbm, ⟨7, _⟩ => ⟨S2x2x2x2, .f32⟩
  | .hbm, ⟨8, _⟩ => ⟨S4x4, .f32⟩
  | .hbm, ⟨9, _⟩ => ⟨S4x1x4x1, .f32⟩
  | .hbm, ⟨10, _⟩ => ⟨S1x2x1x2, .f32⟩
  | .hbm, ⟨11, _⟩ => ⟨S4x2x4x2, .f32⟩
  | .hbm, ⟨12, _⟩ => ⟨S4x2x4x2, .f32⟩
  | .hbm, ⟨13, _⟩ => ⟨S4x2x4x2, .f32⟩
  | .hbm, ⟨14, _⟩ => ⟨S8x8, .f32⟩
  | .hbm, ⟨15, _⟩ => ⟨S8x1x8x1, .f32⟩
  | .hbm, ⟨16, _⟩ => ⟨S1x2x1x2, .f32⟩
  | .hbm, ⟨17, _⟩ => ⟨S8x2x8x2, .f32⟩
  | .hbm, ⟨18, _⟩ => ⟨S8x2x8x2, .f32⟩
  | .hbm, ⟨19, _⟩ => ⟨S8x2x8x2, .f32⟩
  | .hbm, ⟨20, _⟩ => ⟨S16x16, .f32⟩
  | .hbm, ⟨21, _⟩ => ⟨S16x1x16x1, .f32⟩
  | .hbm, ⟨22, _⟩ => ⟨S1x2x1x2, .f32⟩
  | .hbm, ⟨23, _⟩ => ⟨S16x2x16x2, .f32⟩
  | .hbm, ⟨24, _⟩ => ⟨S16x2x16x2, .f32⟩
  | .hbm, ⟨25, _⟩ => ⟨S16x2x16x2, .f32⟩
  | .hbm, ⟨26, _⟩ => ⟨S32x32, .f32⟩
  | .hbm, ⟨27, _⟩ => ⟨S32x1x32x1, .f32⟩
  | .hbm, ⟨28, _⟩ => ⟨S1x2x1x2, .f32⟩
  | .hbm, ⟨29, _⟩ => ⟨S32x2x32x2, .f32⟩
  | .hbm, ⟨30, _⟩ => ⟨S32x2x32x2, .f32⟩
  | .hbm, ⟨31, _⟩ => ⟨S32x2x32x2, .f32⟩
  | .hbm, ⟨32, _⟩ => ⟨S64x64, .f32⟩
  | .hbm, ⟨33, _⟩ => ⟨S8192x64x64, .f32⟩
  | .hbm, ⟨34, _⟩ => ⟨S2x4096x4096, .f32⟩
  | .local _ .vmem, ⟨0, _⟩ => ⟨S256x64x64, .f32⟩
  | .local _ .vmem, ⟨1, _⟩ => ⟨S256x64x64, .f32⟩
  | .local _ .vmem, ⟨2, _⟩ => ⟨S64x64, .f32⟩
  | .local _ .vmem, ⟨3, _⟩ => ⟨S256x64x64, .f32⟩
  | .local _ .vmem, ⟨4, _⟩ => ⟨S256x64x64, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v1 : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_v2 : Ref sig .tc := ⟨.hbm, 14, rfl⟩
abbrev main_call2_v0 : Ref sig .tc := ⟨.hbm, 15, rfl⟩
abbrev main_call2_v1 : Ref sig .tc := ⟨.hbm, 16, rfl⟩
abbrev main_call2_v2 : Ref sig .tc := ⟨.hbm, 17, rfl⟩
abbrev main_call2_v3 : Ref sig .tc := ⟨.hbm, 18, rfl⟩
abbrev main_call2_v4 : Ref sig .tc := ⟨.hbm, 19, rfl⟩
abbrev main_v3 : Ref sig .tc := ⟨.hbm, 20, rfl⟩
abbrev main_call3_v0 : Ref sig .tc := ⟨.hbm, 21, rfl⟩
abbrev main_call3_v1 : Ref sig .tc := ⟨.hbm, 22, rfl⟩
abbrev main_call3_v2 : Ref sig .tc := ⟨.hbm, 23, rfl⟩
abbrev main_call3_v3 : Ref sig .tc := ⟨.hbm, 24, rfl⟩
abbrev main_call3_v4 : Ref sig .tc := ⟨.hbm, 25, rfl⟩
abbrev main_v4 : Ref sig .tc := ⟨.hbm, 26, rfl⟩
abbrev main_call4_v0 : Ref sig .tc := ⟨.hbm, 27, rfl⟩
abbrev main_call4_v1 : Ref sig .tc := ⟨.hbm, 28, rfl⟩
abbrev main_call4_v2 : Ref sig .tc := ⟨.hbm, 29, rfl⟩
abbrev main_call4_v3 : Ref sig .tc := ⟨.hbm, 30, rfl⟩
abbrev main_call4_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S2x4096x4096_S8192x64x64 : S2x4096x4096.ShapeCasts S8192x64x64
  bcast_S2x2_S2x1x2x1_0_2 : S2x2.BroadcastsInDim S2x1x2x1 (![0, 2] : Fin 2 → Fin S2x1x2x1.rank)
  bcast_S2x2_S1x2x1x2_1_3 : S2x2.BroadcastsInDim S1x2x1x2 (![1, 3] : Fin 2 → Fin S1x2x1x2.rank)
  bcast_S2x1x2x1_S2x2x2x2_0_1_2_3 : S2x1x2x1.BroadcastsInDim S2x2x2x2 (![0, 1, 2, 3] : Fin 4 → Fin S2x2x2x2.rank)
  bcast_S1x2x1x2_S2x2x2x2_0_1_2_3 : S1x2x1x2.BroadcastsInDim S2x2x2x2 (![0, 1, 2, 3] : Fin 4 → Fin S2x2x2x2.rank)
  shapeCasts_S2x2x2x2_S4x4 : S2x2x2x2.ShapeCasts S4x4
  bcast_S4x4_S4x1x4x1_0_2 : S4x4.BroadcastsInDim S4x1x4x1 (![0, 2] : Fin 2 → Fin S4x1x4x1.rank)
  bcast_S4x1x4x1_S4x2x4x2_0_1_2_3 : S4x1x4x1.BroadcastsInDim S4x2x4x2 (![0, 1, 2, 3] : Fin 4 → Fin S4x2x4x2.rank)
  bcast_S1x2x1x2_S4x2x4x2_0_1_2_3 : S1x2x1x2.BroadcastsInDim S4x2x4x2 (![0, 1, 2, 3] : Fin 4 → Fin S4x2x4x2.rank)
  shapeCasts_S4x2x4x2_S8x8 : S4x2x4x2.ShapeCasts S8x8
  bcast_S8x8_S8x1x8x1_0_2 : S8x8.BroadcastsInDim S8x1x8x1 (![0, 2] : Fin 2 → Fin S8x1x8x1.rank)
  bcast_S8x1x8x1_S8x2x8x2_0_1_2_3 : S8x1x8x1.BroadcastsInDim S8x2x8x2 (![0, 1, 2, 3] : Fin 4 → Fin S8x2x8x2.rank)
  bcast_S1x2x1x2_S8x2x8x2_0_1_2_3 : S1x2x1x2.BroadcastsInDim S8x2x8x2 (![0, 1, 2, 3] : Fin 4 → Fin S8x2x8x2.rank)
  shapeCasts_S8x2x8x2_S16x16 : S8x2x8x2.ShapeCasts S16x16
  bcast_S16x16_S16x1x16x1_0_2 : S16x16.BroadcastsInDim S16x1x16x1 (![0, 2] : Fin 2 → Fin S16x1x16x1.rank)
  bcast_S16x1x16x1_S16x2x16x2_0_1_2_3 : S16x1x16x1.BroadcastsInDim S16x2x16x2 (![0, 1, 2, 3] : Fin 4 → Fin S16x2x16x2.rank)
  bcast_S1x2x1x2_S16x2x16x2_0_1_2_3 : S1x2x1x2.BroadcastsInDim S16x2x16x2 (![0, 1, 2, 3] : Fin 4 → Fin S16x2x16x2.rank)
  shapeCasts_S16x2x16x2_S32x32 : S16x2x16x2.ShapeCasts S32x32
  bcast_S32x32_S32x1x32x1_0_2 : S32x32.BroadcastsInDim S32x1x32x1 (![0, 2] : Fin 2 → Fin S32x1x32x1.rank)
  bcast_S32x1x32x1_S32x2x32x2_0_1_2_3 : S32x1x32x1.BroadcastsInDim S32x2x32x2 (![0, 1, 2, 3] : Fin 4 → Fin S32x2x32x2.rank)
  bcast_S1x2x1x2_S32x2x32x2_0_1_2_3 : S1x2x1x2.BroadcastsInDim S32x2x32x2 (![0, 1, 2, 3] : Fin 4 → Fin S32x2x32x2.rank)
  shapeCasts_S32x2x32x2_S64x64 : S32x2x32x2.ShapeCasts S64x64
  inb_S256x64x64_S256x64x64_0_0_0 : ∀ a, (![0, 0, 0] : Fin 3 → Nat) a + S256x64x64.size a ≤ S256x64x64.size a
  h_S256x64x64 : 0 < S256x64x64.numel
  shapeCasts_S256x64x64_S256x64x64 : S256x64x64.ShapeCasts S256x64x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S256x64x64_S16384x64 : S256x64x64.ShapeCasts S16384x64
  shapeCasts_S16384x64_S256x64x64 : S16384x64.ShapeCasts S256x64x64
  transposes_S256x64x64_p0_2_1_S256x64x64 : S256x64x64.Transposes [0, 2, 1] S256x64x64
  shapeCasts_S8192x64x64_S2x4096x4096 : S8192x64x64.ShapeCasts S2x4096x4096
  dot_S16384x64_S64x64_S16384x64_1_0_0_1_n_n_wf : DotDims.WF S16384x64 S64x64 S16384x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64x64.size a ≤ S8192x64x64.size a
  hwx0_0 : ∀ i : grid0.Coords, EltTy.bits .f32 = 32 ∨ (Rect.block (s := S8192x64x64) S256x64x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64x64.size a ≤ S8192x64x64.size a
  hwx0_2 : ∀ i : grid0.Coords, EltTy.bits .f32 = 32 ∨ (Rect.block (s := S8192x64x64) S256x64x64.size (cc0_transform_2 i) (hinb0_2 i)).WholeWords (EltTy.packing .f32)

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf

abbrev win0_0 : Pipeline.Window sig grid0 :=
  Pipeline.Window.ofSpec (Memref.whole main_v0) S256x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x4096x4096 : Shape := ⟨3, ![2, 4096, 4096]⟩
abbrev S8192x4096 : Shape := ⟨2, ![8192, 4096]⟩
abbrev S8192x2048x2x1 : Shape := ⟨4, ![8192, 2048, 2, 1]⟩
abbrev S8192x2048x1x1 : Shape := ⟨4, ![8192, 2048, 1, 1]⟩
abbrev S8192x2048x1 : Shape := ⟨3, ![8192, 2048, 1]⟩
abbrev S8192x1024x2x2 : Shape := ⟨4, ![8192, 1024, 2, 2]⟩
abbrev S8192x1024x1x2 : Shape := ⟨4, ![8192, 1024, 1, 2]⟩
abbrev S8192x1024x2 : Shape := ⟨3, ![8192, 1024, 2]⟩
abbrev S8192x512x2x4 : Shape := ⟨4, ![8192, 512, 2, 4]⟩
abbrev S8192x512x1x4 : Shape := ⟨4, ![8192, 512, 1, 4]⟩
abbrev S8192x512x4 : Shape := ⟨3, ![8192, 512, 4]⟩
abbrev S8192x256x2x8 : Shape := ⟨4, ![8192, 256, 2, 8]⟩
abbrev S8192x256x1x8 : Shape := ⟨4, ![8192, 256, 1, 8]⟩
abbrev S8192x256x8 : Shape := ⟨3, ![8192, 256, 8]⟩
abbrev S8192x128x2x16 : Shape := ⟨4, ![8192, 128, 2, 16]⟩
abbrev S8192x128x1x16 : Shape := ⟨4, ![8192, 128, 1, 16]⟩
abbrev S8192x128x16 : Shape := ⟨3, ![8192, 128, 16]⟩
abbrev S8192x64x2x32 : Shape := ⟨4, ![8192, 64, 2, 32]⟩
abbrev S8192x64x1x32 : Shape := ⟨4, ![8192, 64, 1, 32]⟩
abbrev S8192x64x32 : Shape := ⟨3, ![8192, 64, 32]⟩
abbrev S8192x32x2x64 : Shape := ⟨4, ![8192, 32, 2, 64]⟩
abbrev S8192x32x1x64 : Shape := ⟨4, ![8192, 32, 1, 64]⟩
abbrev S8192x32x64 : Shape := ⟨3, ![8192, 32, 64]⟩
abbrev S8192x16x2x128 : Shape := ⟨4, ![8192, 16, 2, 128]⟩
abbrev S8192x16x1x128 : Shape := ⟨4, ![8192, 16, 1, 128]⟩
abbrev S8192x16x128 : Shape := ⟨3, ![8192, 16, 128]⟩
abbrev S8192x8x2x256 : Shape := ⟨4, ![8192, 8, 2, 256]⟩
abbrev S8192x8x1x256 : Shape := ⟨4, ![8192, 8, 1, 256]⟩
abbrev S8192x8x256 : Shape := ⟨3, ![8192, 8, 256]⟩
abbrev S8192x4x2x512 : Shape := ⟨4, ![8192, 4, 2, 512]⟩
abbrev S8192x4x1x512 : Shape := ⟨4, ![8192, 4, 1, 512]⟩
abbrev S8192x4x512 : Shape := ⟨3, ![8192, 4, 512]⟩
abbrev S8192x2x2x1024 : Shape := ⟨4, ![8192, 2, 2, 1024]⟩
abbrev S8192x2x1x1024 : Shape := ⟨4, ![8192, 2, 1, 1024]⟩
abbrev S8192x2x1024 : Shape := ⟨3, ![8192, 2, 1024]⟩
abbrev S8192x1x2x2048 : Shape := ⟨4, ![8192, 1, 2, 2048]⟩
abbrev S8192x1x1x2048 : Shape := ⟨4, ![8192, 1, 1, 2048]⟩
abbrev S8192x1x2048 : Shape := ⟨3, ![8192, 1, 2048]⟩
abbrev S_ : Shape := ⟨0, ![]⟩

abbrev nBuf : Space → Nat
  | .hbm => 126
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S8192x4096, .f32⟩
  | .hbm, ⟨2, _⟩ => ⟨S8192x2048x2x1, .f32⟩
  | .hbm, ⟨3, _⟩ => ⟨S8192x2048x1x1, .f32⟩
  | .hbm, ⟨4, _⟩ => ⟨S8192x2048x1, .f32⟩
  | .hbm, ⟨5, _⟩ => ⟨S8192x2048x1x1, .f32⟩
  | .hbm, ⟨6, _⟩ => ⟨S8192x2048x1, .f32⟩
  | .hbm, ⟨7, _⟩ => ⟨S8192x2048x1, .f32⟩
  | .hbm, ⟨8, _⟩ => ⟨S8192x2048x1, .f32⟩
  | .hbm, ⟨9, _⟩ => ⟨S8192x2048x1x1, .f32⟩
  | .hbm, ⟨10, _⟩ => ⟨S8192x2048x1x1, .f32⟩
  | .hbm, ⟨11, _⟩ => ⟨S8192x2048x2x1, .f32⟩
  | .hbm, ⟨12, _⟩ => ⟨S8192x1024x2x2, .f32⟩
  | .hbm, ⟨13, _⟩ => ⟨S8192x1024x1x2, .f32⟩
  | .hbm, ⟨14, _⟩ => ⟨S8192x1024x2, .f32⟩
  | .hbm, ⟨15, _⟩ => ⟨S8192x1024x1x2, .f32⟩
  | .hbm, ⟨16, _⟩ => ⟨S8192x1024x2, .f32⟩
  | .hbm, ⟨17, _⟩ => ⟨S8192x1024x2, .f32⟩
  | .hbm, ⟨18, _⟩ => ⟨S8192x1024x2, .f32⟩
  | .hbm, ⟨19, _⟩ => ⟨S8192x1024x1x2, .f32⟩
  | .hbm, ⟨20, _⟩ => ⟨S8192x1024x1x2, .f32⟩
  | .hbm, ⟨21, _⟩ => ⟨S8192x1024x2x2, .f32⟩
  | .hbm, ⟨22, _⟩ => ⟨S8192x512x2x4, .f32⟩
  | .hbm, ⟨23, _⟩ => ⟨S8192x512x1x4, .f32⟩
  | .hbm, ⟨24, _⟩ => ⟨S8192x512x4, .f32⟩
  | .hbm, ⟨25, _⟩ => ⟨S8192x512x1x4, .f32⟩
  | .hbm, ⟨26, _⟩ => ⟨S8192x512x4, .f32⟩
  | .hbm, ⟨27, _⟩ => ⟨S8192x512x4, .f32⟩
  | .hbm, ⟨28, _⟩ => ⟨S8192x512x4, .f32⟩
  | .hbm, ⟨29, _⟩ => ⟨S8192x512x1x4, .f32⟩
  | .hbm, ⟨30, _⟩ => ⟨S8192x512x1x4, .f32⟩
  | .hbm, ⟨31, _⟩ => ⟨S8192x512x2x4, .f32⟩
  | .hbm, ⟨32, _⟩ => ⟨S8192x256x2x8, .f32⟩
  | .hbm, ⟨33, _⟩ => ⟨S8192x256x1x8, .f32⟩
  | .hbm, ⟨34, _⟩ => ⟨S8192x256x8, .f32⟩
  | .hbm, ⟨35, _⟩ => ⟨S8192x256x1x8, .f32⟩
  | .hbm, ⟨36, _⟩ => ⟨S8192x256x8, .f32⟩
  | .hbm, ⟨37, _⟩ => ⟨S8192x256x8, .f32⟩
  | .hbm, ⟨38, _⟩ => ⟨S8192x256x8, .f32⟩
  | .hbm, ⟨39, _⟩ => ⟨S8192x256x1x8, .f32⟩
  | .hbm, ⟨40, _⟩ => ⟨S8192x256x1x8, .f32⟩
  | .hbm, ⟨41, _⟩ => ⟨S8192x256x2x8, .f32⟩
  | .hbm, ⟨42, _⟩ => ⟨S8192x128x2x16, .f32⟩
  | .hbm, ⟨43, _⟩ => ⟨S8192x128x1x16, .f32⟩
  | .hbm, ⟨44, _⟩ => ⟨S8192x128x16, .f32⟩
  | .hbm, ⟨45, _⟩ => ⟨S8192x128x1x16, .f32⟩
  | .hbm, ⟨46, _⟩ => ⟨S8192x128x16, .f32⟩
  | .hbm, ⟨47, _⟩ => ⟨S8192x128x16, .f32⟩
  | .hbm, ⟨48, _⟩ => ⟨S8192x128x16, .f32⟩
  | .hbm, ⟨49, _⟩ => ⟨S8192x128x1x16, .f32⟩
  | .hbm, ⟨50, _⟩ => ⟨S8192x128x1x16, .f32⟩
  | .hbm, ⟨51, _⟩ => ⟨S8192x128x2x16, .f32⟩
  | .hbm, ⟨52, _⟩ => ⟨S8192x64x2x32, .f32⟩
  | .hbm, ⟨53, _⟩ => ⟨S8192x64x1x32, .f32⟩
  | .hbm, ⟨54, _⟩ => ⟨S8192x64x32, .f32⟩
  | .hbm, ⟨55, _⟩ => ⟨S8192x64x1x32, .f32⟩
  | .hbm, ⟨56, _⟩ => ⟨S8192x64x32, .f32⟩
  | .hbm, ⟨57, _⟩ => ⟨S8192x64x32, .f32⟩
  | .hbm, ⟨58, _⟩ => ⟨S8192x64x32, .f32⟩
  | .hbm, ⟨59, _⟩ => ⟨S8192x64x1x32, .f32⟩
  | .hbm, ⟨60, _⟩ => ⟨S8192x64x1x32, .f32⟩
  | .hbm, ⟨61, _⟩ => ⟨S8192x64x2x32, .f32⟩
  | .hbm, ⟨62, _⟩ => ⟨S8192x32x2x64, .f32⟩
  | .hbm, ⟨63, _⟩ => ⟨S8192x32x1x64, .f32⟩
  | .hbm, ⟨64, _⟩ => ⟨S8192x32x64, .f32⟩
  | .hbm, ⟨65, _⟩ => ⟨S8192x32x1x64, .f32⟩
  | .hbm, ⟨66, _⟩ => ⟨S8192x32x64, .f32⟩
  | .hbm, ⟨67, _⟩ => ⟨S8192x32x64, .f32⟩
  | .hbm, ⟨68, _⟩ => ⟨S8192x32x64, .f32⟩
  | .hbm, ⟨69, _⟩ => ⟨S8192x32x1x64, .f32⟩
  | .hbm, ⟨70, _⟩ => ⟨S8192x32x1x64, .f32⟩
  | .hbm, ⟨71, _⟩ => ⟨S8192x32x2x64, .f32⟩
  | .hbm, ⟨72, _⟩ => ⟨S8192x16x2x128, .f32⟩
  | .hbm, ⟨73, _⟩ => ⟨S8192x16x1x128, .f32⟩
  | .hbm, ⟨74, _⟩ => ⟨S8192x16x128, .f32⟩
  | .hbm, ⟨75, _⟩ => ⟨S8192x16x1x128, .f32⟩
  | .hbm, ⟨76, _⟩ => ⟨S8192x16x128, .f32⟩
  | .hbm, ⟨77, _⟩ => ⟨S8192x16x128, .f32⟩
  | .hbm, ⟨78, _⟩ => ⟨S8192x16x128, .f32⟩
  | .hbm, ⟨79, _⟩ => ⟨S8192x16x1x128, .f32⟩
  | .hbm, ⟨80, _⟩ => ⟨S8192x16x1x128, .f32⟩
  | .hbm, ⟨81, _⟩ => ⟨S8192x16x2x128, .f32⟩
  | .hbm, ⟨82, _⟩ => ⟨S8192x8x2x256, .f32⟩
  | .hbm, ⟨83, _⟩ => ⟨S8192x8x1x256, .f32⟩
  | .hbm, ⟨84, _⟩ => ⟨S8192x8x256, .f32⟩
  | .hbm, ⟨85, _⟩ => ⟨S8192x8x1x256, .f32⟩
  | .hbm, ⟨86, _⟩ => ⟨S8192x8x256, .f32⟩
  | .hbm, ⟨87, _⟩ => ⟨S8192x8x256, .f32⟩
  | .hbm, ⟨88, _⟩ => ⟨S8192x8x256, .f32⟩
  | .hbm, ⟨89, _⟩ => ⟨S8192x8x1x256, .f32⟩
  | .hbm, ⟨90, _⟩ => ⟨S8192x8x1x256, .f32⟩
  | .hbm, ⟨91, _⟩ => ⟨S8192x8x2x256, .f32⟩
  | .hbm, ⟨92, _⟩ => ⟨S8192x4x2x512, .f32⟩
  | .hbm, ⟨93, _⟩ => ⟨S8192x4x1x512, .f32⟩
  | .hbm, ⟨94, _⟩ => ⟨S8192x4x512, .f32⟩
  | .hbm, ⟨95, _⟩ => ⟨S8192x4x1x512, .f32⟩
  | .hbm, ⟨96, _⟩ => ⟨S8192x4x512, .f32⟩
  | .hbm, ⟨97, _⟩ => ⟨S8192x4x512, .f32⟩
  | .hbm, ⟨98, _⟩ => ⟨S8192x4x512, .f32⟩
  | .hbm, ⟨99, _⟩ => ⟨S8192x4x1x512, .f32⟩
  | .hbm, ⟨100, _⟩ => ⟨S8192x4x1x512, .f32⟩
  | .hbm, ⟨101, _⟩ => ⟨S8192x4x2x512, .f32⟩
  | .hbm, ⟨102, _⟩ => ⟨S8192x2x2x1024, .f32⟩
  | .hbm, ⟨103, _⟩ => ⟨S8192x2x1x1024, .f32⟩
  | .hbm, ⟨104, _⟩ => ⟨S8192x2x1024, .f32⟩
  | .hbm, ⟨105, _⟩ => ⟨S8192x2x1x1024, .f32⟩
  | .hbm, ⟨106, _⟩ => ⟨S8192x2x1024, .f32⟩
  | .hbm, ⟨107, _⟩ => ⟨S8192x2x1024, .f32⟩
  | .hbm, ⟨108, _⟩ => ⟨S8192x2x1024, .f32⟩
  | .hbm, ⟨109, _⟩ => ⟨S8192x2x1x1024, .f32⟩
  | .hbm, ⟨110, _⟩ => ⟨S8192x2x1x1024, .f32⟩
  | .hbm, ⟨111, _⟩ => ⟨S8192x2x2x1024, .f32⟩
  | .hbm, ⟨112, _⟩ => ⟨S8192x1x2x2048, .f32⟩
  | .hbm, ⟨113, _⟩ => ⟨S8192x1x1x2048, .f32⟩
  | .hbm, ⟨114, _⟩ => ⟨S8192x1x2048, .f32⟩
  | .hbm, ⟨115, _⟩ => ⟨S8192x1x1x2048, .f32⟩
  | .hbm, ⟨116, _⟩ => ⟨S8192x1x2048, .f32⟩
  | .hbm, ⟨117, _⟩ => ⟨S8192x1x2048, .f32⟩
  | .hbm, ⟨118, _⟩ => ⟨S8192x1x2048, .f32⟩
  | .hbm, ⟨119, _⟩ => ⟨S8192x1x1x2048, .f32⟩
  | .hbm, ⟨120, _⟩ => ⟨S8192x1x1x2048, .f32⟩
  | .hbm, ⟨121, _⟩ => ⟨S8192x1x2x2048, .f32⟩
  | .hbm, ⟨122, _⟩ => ⟨S2x4096x4096, .f32⟩
  | .hbm, ⟨123, _⟩ => ⟨S_, .f32⟩
  | .hbm, ⟨124, _⟩ => ⟨S2x4096x4096, .f32⟩
  | .hbm, ⟨125, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩
abbrev main_v47 : Ref sig .tc := ⟨.hbm, 48, rfl⟩
abbrev main_v48 : Ref sig .tc := ⟨.hbm, 49, rfl⟩
abbrev main_v49 : Ref sig .tc := ⟨.hbm, 50, rfl⟩
abbrev main_v50 : Ref sig .tc := ⟨.hbm, 51, rfl⟩
abbrev main_v51 : Ref sig .tc := ⟨.hbm, 52, rfl⟩
abbrev main_v52 : Ref sig .tc := ⟨.hbm, 53, rfl⟩
abbrev main_v53 : Ref sig .tc := ⟨.hbm, 54, rfl⟩
abbrev main_v54 : Ref sig .tc := ⟨.hbm, 55, rfl⟩
abbrev main_v55 : Ref sig .tc := ⟨.hbm, 56, rfl⟩
abbrev main_v56 : Ref sig .tc := ⟨.hbm, 57, rfl⟩
abbrev main_v57 : Ref sig .tc := ⟨.hbm, 58, rfl⟩
abbrev main_v58 : Ref sig .tc := ⟨.hbm, 59, rfl⟩
abbrev main_v59 : Ref sig .tc := ⟨.hbm, 60, rfl⟩
abbrev main_v60 : Ref sig .tc := ⟨.hbm, 61, rfl⟩
abbrev main_v61 : Ref sig .tc := ⟨.hbm, 62, rfl⟩
abbrev main_v62 : Ref sig .tc := ⟨.hbm, 63, rfl⟩
abbrev main_v63 : Ref sig .tc := ⟨.hbm, 64, rfl⟩
abbrev main_v64 : Ref sig .tc := ⟨.hbm, 65, rfl⟩
abbrev main_v65 : Ref sig .tc := ⟨.hbm, 66, rfl⟩
abbrev main_v66 : Ref sig .tc := ⟨.hbm, 67, rfl⟩
abbrev main_v67 : Ref sig .tc := ⟨.hbm, 68, rfl⟩
abbrev main_v68 : Ref sig .tc := ⟨.hbm, 69, rfl⟩
abbrev main_v69 : Ref sig .tc := ⟨.hbm, 70, rfl⟩
abbrev main_v70 : Ref sig .tc := ⟨.hbm, 71, rfl⟩
abbrev main_v71 : Ref sig .tc := ⟨.hbm, 72, rfl⟩
abbrev main_v72 : Ref sig .tc := ⟨.hbm, 73, rfl⟩
abbrev main_v73 : Ref sig .tc := ⟨.hbm, 74, rfl⟩
abbrev main_v74 : Ref sig .tc := ⟨.hbm, 75, rfl⟩
abbrev main_v75 : Ref sig .tc := ⟨.hbm, 76, rfl⟩
abbrev main_v76 : Ref sig .tc := ⟨.hbm, 77, rfl⟩
abbrev main_v77 : Ref sig .tc := ⟨.hbm, 78, rfl⟩
abbrev main_v78 : Ref sig .tc := ⟨.hbm, 79, rfl⟩
abbrev main_v79 : Ref sig .tc := ⟨.hbm, 80, rfl⟩
abbrev main_v80 : Ref sig .tc := ⟨.hbm, 81, rfl⟩
abbrev main_v81 : Ref sig .tc := ⟨.hbm, 82, rfl⟩
abbrev main_v82 : Ref sig .tc := ⟨.hbm, 83, rfl⟩
abbrev main_v83 : Ref sig .tc := ⟨.hbm, 84, rfl⟩
abbrev main_v84 : Ref sig .tc := ⟨.hbm, 85, rfl⟩
abbrev main_v85 : Ref sig .tc := ⟨.hbm, 86, rfl⟩
abbrev main_v86 : Ref sig .tc := ⟨.hbm, 87, rfl⟩
abbrev main_v87 : Ref sig .tc := ⟨.hbm, 88, rfl⟩
abbrev main_v88 : Ref sig .tc := ⟨.hbm, 89, rfl⟩
abbrev main_v89 : Ref sig .tc := ⟨.hbm, 90, rfl⟩
abbrev main_v90 : Ref sig .tc := ⟨.hbm, 91, rfl⟩
abbrev main_v91 : Ref sig .tc := ⟨.hbm, 92, rfl⟩
abbrev main_v92 : Ref sig .tc := ⟨.hbm, 93, rfl⟩
abbrev main_v93 : Ref sig .tc := ⟨.hbm, 94, rfl⟩
abbrev main_v94 : Ref sig .tc := ⟨.hbm, 95, rfl⟩
abbrev main_v95 : Ref sig .tc := ⟨.hbm, 96, rfl⟩
abbrev main_v96 : Ref sig .tc := ⟨.hbm, 97, rfl⟩
abbrev main_v97 : Ref sig .tc := ⟨.hbm, 98, rfl⟩
abbrev main_v98 : Ref sig .tc := ⟨.hbm, 99, rfl⟩
abbrev main_v99 : Ref sig .tc := ⟨.hbm, 100, rfl⟩
abbrev main_v100 : Ref sig .tc := ⟨.hbm, 101, rfl⟩
abbrev main_v101 : Ref sig .tc := ⟨.hbm, 102, rfl⟩
abbrev main_v102 : Ref sig .tc := ⟨.hbm, 103, rfl⟩
abbrev main_v103 : Ref sig .tc := ⟨.hbm, 104, rfl⟩
abbrev main_v104 : Ref sig .tc := ⟨.hbm, 105, rfl⟩
abbrev main_v105 : Ref sig .tc := ⟨.hbm, 106, rfl⟩
abbrev main_v106 : Ref sig .tc := ⟨.hbm, 107, rfl⟩
abbrev main_v107 : Ref sig .tc := ⟨.hbm, 108, rfl⟩
abbrev main_v108 : Ref sig .tc := ⟨.hbm, 109, rfl⟩
abbrev main_v109 : Ref sig .tc := ⟨.hbm, 110, rfl⟩
abbrev main_v110 : Ref sig .tc := ⟨.hbm, 111, rfl⟩
abbrev main_v111 : Ref sig .tc := ⟨.hbm, 112, rfl⟩
abbrev main_v112 : Ref sig .tc := ⟨.hbm, 113, rfl⟩
abbrev main_v113 : Ref sig .tc := ⟨.hbm, 114, rfl⟩
abbrev main_v114 : Ref sig .tc := ⟨.hbm, 115, rfl⟩
abbrev main_v115 : Ref sig .tc := ⟨.hbm, 116, rfl⟩
abbrev main_v116 : Ref sig .tc := ⟨.hbm, 117, rfl⟩
abbrev main_v117 : Ref sig .tc := ⟨.hbm, 118, rfl⟩
abbrev main_v118 : Ref sig .tc := ⟨.hbm, 119, rfl⟩
abbrev main_v119 : Ref sig .tc := ⟨.hbm, 120, rfl⟩
abbrev main_v120 : Ref sig .tc := ⟨.hbm, 121, rfl⟩
abbrev main_v121 : Ref sig .tc := ⟨.hbm, 122, rfl⟩
abbrev main_cst : Ref sig .tc := ⟨.hbm, 123, rfl⟩
abbrev main_v122 : Ref sig .tc := ⟨.hbm, 124, rfl⟩
abbrev main_v123 : Ref sig .tc := ⟨.hbm, 125, rfl⟩

abbrev nD : Nat := 1
abbrev τ : Topo := Topo.v7x

variable {F : FTy → Type} [FloatOps F]

class Facts₀ : Prop where
  shapeCasts_S2x4096x4096_S8192x4096 : S2x4096x4096.ShapeCasts S8192x4096
  shapeCasts_S8192x4096_S8192x2048x2x1 : S8192x4096.ShapeCasts S8192x2048x2x1
  slices_S8192x2048x2x1_S8192x2048x1x1_0_0_0_0 : S8192x2048x2x1.Slices ![0, 0, 0, 0] S8192x2048x1x1
  shapeCasts_S8192x2048x1x1_S8192x2048x1 : S8192x2048x1x1.ShapeCasts S8192x2048x1
  slices_S8192x2048x2x1_S8192x2048x1x1_0_0_1_0 : S8192x2048x2x1.Slices ![0, 0, 1, 0] S8192x2048x1x1
  bcast_S8192x2048x1_S8192x2048x1x1_0_1_3 : S8192x2048x1.BroadcastsInDim S8192x2048x1x1 (![0, 1, 3] : Fin 3 → Fin S8192x2048x1x1.rank)
  concatenates_S8192x2048x1x1_S8192x2048x1x1_S8192x2048x2x1_d2 : Shape.Concatenates [S8192x2048x1x1, S8192x2048x1x1] S8192x2048x2x1 2
  shapeCasts_S8192x2048x2x1_S8192x1024x2x2 : S8192x2048x2x1.ShapeCasts S8192x1024x2x2
  slices_S8192x1024x2x2_S8192x1024x1x2_0_0_0_0 : S8192x1024x2x2.Slices ![0, 0, 0, 0] S8192x1024x1x2
  shapeCasts_S8192x1024x1x2_S8192x1024x2 : S8192x1024x1x2.ShapeCasts S8192x1024x2
  slices_S8192x1024x2x2_S8192x1024x1x2_0_0_1_0 : S8192x1024x2x2.Slices ![0, 0, 1, 0] S8192x1024x1x2
  bcast_S8192x1024x2_S8192x1024x1x2_0_1_3 : S8192x1024x2.BroadcastsInDim S8192x1024x1x2 (![0, 1, 3] : Fin 3 → Fin S8192x1024x1x2.rank)
  concatenates_S8192x1024x1x2_S8192x1024x1x2_S8192x1024x2x2_d2 : Shape.Concatenates [S8192x1024x1x2, S8192x1024x1x2] S8192x1024x2x2 2
  shapeCasts_S8192x1024x2x2_S8192x512x2x4 : S8192x1024x2x2.ShapeCasts S8192x512x2x4
  slices_S8192x512x2x4_S8192x512x1x4_0_0_0_0 : S8192x512x2x4.Slices ![0, 0, 0, 0] S8192x512x1x4
  shapeCasts_S8192x512x1x4_S8192x512x4 : S8192x512x1x4.ShapeCasts S8192x512x4
  slices_S8192x512x2x4_S8192x512x1x4_0_0_1_0 : S8192x512x2x4.Slices ![0, 0, 1, 0] S8192x512x1x4
  bcast_S8192x512x4_S8192x512x1x4_0_1_3 : S8192x512x4.BroadcastsInDim S8192x512x1x4 (![0, 1, 3] : Fin 3 → Fin S8192x512x1x4.rank)
  concatenates_S8192x512x1x4_S8192x512x1x4_S8192x512x2x4_d2 : Shape.Concatenates [S8192x512x1x4, S8192x512x1x4] S8192x512x2x4 2
  shapeCasts_S8192x512x2x4_S8192x256x2x8 : S8192x512x2x4.ShapeCasts S8192x256x2x8
  slices_S8192x256x2x8_S8192x256x1x8_0_0_0_0 : S8192x256x2x8.Slices ![0, 0, 0, 0] S8192x256x1x8
  shapeCasts_S8192x256x1x8_S8192x256x8 : S8192x256x1x8.ShapeCasts S8192x256x8
  slices_S8192x256x2x8_S8192x256x1x8_0_0_1_0 : S8192x256x2x8.Slices ![0, 0, 1, 0] S8192x256x1x8
  bcast_S8192x256x8_S8192x256x1x8_0_1_3 : S8192x256x8.BroadcastsInDim S8192x256x1x8 (![0, 1, 3] : Fin 3 → Fin S8192x256x1x8.rank)
  concatenates_S8192x256x1x8_S8192x256x1x8_S8192x256x2x8_d2 : Shape.Concatenates [S8192x256x1x8, S8192x256x1x8] S8192x256x2x8 2
  shapeCasts_S8192x256x2x8_S8192x128x2x16 : S8192x256x2x8.ShapeCasts S8192x128x2x16
  slices_S8192x128x2x16_S8192x128x1x16_0_0_0_0 : S8192x128x2x16.Slices ![0, 0, 0, 0] S8192x128x1x16
  shapeCasts_S8192x128x1x16_S8192x128x16 : S8192x128x1x16.ShapeCasts S8192x128x16
  slices_S8192x128x2x16_S8192x128x1x16_0_0_1_0 : S8192x128x2x16.Slices ![0, 0, 1, 0] S8192x128x1x16
  bcast_S8192x128x16_S8192x128x1x16_0_1_3 : S8192x128x16.BroadcastsInDim S8192x128x1x16 (![0, 1, 3] : Fin 3 → Fin S8192x128x1x16.rank)
  concatenates_S8192x128x1x16_S8192x128x1x16_S8192x128x2x16_d2 : Shape.Concatenates [S8192x128x1x16, S8192x128x1x16] S8192x128x2x16 2
  shapeCasts_S8192x128x2x16_S8192x64x2x32 : S8192x128x2x16.ShapeCasts S8192x64x2x32
  slices_S8192x64x2x32_S8192x64x1x32_0_0_0_0 : S8192x64x2x32.Slices ![0, 0, 0, 0] S8192x64x1x32
  shapeCasts_S8192x64x1x32_S8192x64x32 : S8192x64x1x32.ShapeCasts S8192x64x32
  slices_S8192x64x2x32_S8192x64x1x32_0_0_1_0 : S8192x64x2x32.Slices ![0, 0, 1, 0] S8192x64x1x32
  bcast_S8192x64x32_S8192x64x1x32_0_1_3 : S8192x64x32.BroadcastsInDim S8192x64x1x32 (![0, 1, 3] : Fin 3 → Fin S8192x64x1x32.rank)
  concatenates_S8192x64x1x32_S8192x64x1x32_S8192x64x2x32_d2 : Shape.Concatenates [S8192x64x1x32, S8192x64x1x32] S8192x64x2x32 2
  shapeCasts_S8192x64x2x32_S8192x32x2x64 : S8192x64x2x32.ShapeCasts S8192x32x2x64
  slices_S8192x32x2x64_S8192x32x1x64_0_0_0_0 : S8192x32x2x64.Slices ![0, 0, 0, 0] S8192x32x1x64
  shapeCasts_S8192x32x1x64_S8192x32x64 : S8192x32x1x64.ShapeCasts S8192x32x64
  slices_S8192x32x2x64_S8192x32x1x64_0_0_1_0 : S8192x32x2x64.Slices ![0, 0, 1, 0] S8192x32x1x64
  bcast_S8192x32x64_S8192x32x1x64_0_1_3 : S8192x32x64.BroadcastsInDim S8192x32x1x64 (![0, 1, 3] : Fin 3 → Fin S8192x32x1x64.rank)
  concatenates_S8192x32x1x64_S8192x32x1x64_S8192x32x2x64_d2 : Shape.Concatenates [S8192x32x1x64, S8192x32x1x64] S8192x32x2x64 2
  shapeCasts_S8192x32x2x64_S8192x16x2x128 : S8192x32x2x64.ShapeCasts S8192x16x2x128
  slices_S8192x16x2x128_S8192x16x1x128_0_0_0_0 : S8192x16x2x128.Slices ![0, 0, 0, 0] S8192x16x1x128
  shapeCasts_S8192x16x1x128_S8192x16x128 : S8192x16x1x128.ShapeCasts S8192x16x128
  slices_S8192x16x2x128_S8192x16x1x128_0_0_1_0 : S8192x16x2x128.Slices ![0, 0, 1, 0] S8192x16x1x128
  bcast_S8192x16x128_S8192x16x1x128_0_1_3 : S8192x16x128.BroadcastsInDim S8192x16x1x128 (![0, 1, 3] : Fin 3 → Fin S8192x16x1x128.rank)
  concatenates_S8192x16x1x128_S8192x16x1x128_S8192x16x2x128_d2 : Shape.Concatenates [S8192x16x1x128, S8192x16x1x128] S8192x16x2x128 2
  shapeCasts_S8192x16x2x128_S8192x8x2x256 : S8192x16x2x128.ShapeCasts S8192x8x2x256
  slices_S8192x8x2x256_S8192x8x1x256_0_0_0_0 : S8192x8x2x256.Slices ![0, 0, 0, 0] S8192x8x1x256
  shapeCasts_S8192x8x1x256_S8192x8x256 : S8192x8x1x256.ShapeCasts S8192x8x256
  slices_S8192x8x2x256_S8192x8x1x256_0_0_1_0 : S8192x8x2x256.Slices ![0, 0, 1, 0] S8192x8x1x256
  bcast_S8192x8x256_S8192x8x1x256_0_1_3 : S8192x8x256.BroadcastsInDim S8192x8x1x256 (![0, 1, 3] : Fin 3 → Fin S8192x8x1x256.rank)
  concatenates_S8192x8x1x256_S8192x8x1x256_S8192x8x2x256_d2 : Shape.Concatenates [S8192x8x1x256, S8192x8x1x256] S8192x8x2x256 2
  shapeCasts_S8192x8x2x256_S8192x4x2x512 : S8192x8x2x256.ShapeCasts S8192x4x2x512
  slices_S8192x4x2x512_S8192x4x1x512_0_0_0_0 : S8192x4x2x512.Slices ![0, 0, 0, 0] S8192x4x1x512
  shapeCasts_S8192x4x1x512_S8192x4x512 : S8192x4x1x512.ShapeCasts S8192x4x512
  slices_S8192x4x2x512_S8192x4x1x512_0_0_1_0 : S8192x4x2x512.Slices ![0, 0, 1, 0] S8192x4x1x512
  bcast_S8192x4x512_S8192x4x1x512_0_1_3 : S8192x4x512.BroadcastsInDim S8192x4x1x512 (![0, 1, 3] : Fin 3 → Fin S8192x4x1x512.rank)
  concatenates_S8192x4x1x512_S8192x4x1x512_S8192x4x2x512_d2 : Shape.Concatenates [S8192x4x1x512, S8192x4x1x512] S8192x4x2x512 2
  shapeCasts_S8192x4x2x512_S8192x2x2x1024 : S8192x4x2x512.ShapeCasts S8192x2x2x1024
  slices_S8192x2x2x1024_S8192x2x1x1024_0_0_0_0 : S8192x2x2x1024.Slices ![0, 0, 0, 0] S8192x2x1x1024
  shapeCasts_S8192x2x1x1024_S8192x2x1024 : S8192x2x1x1024.ShapeCasts S8192x2x1024
  slices_S8192x2x2x1024_S8192x2x1x1024_0_0_1_0 : S8192x2x2x1024.Slices ![0, 0, 1, 0] S8192x2x1x1024
  bcast_S8192x2x1024_S8192x2x1x1024_0_1_3 : S8192x2x1024.BroadcastsInDim S8192x2x1x1024 (![0, 1, 3] : Fin 3 → Fin S8192x2x1x1024.rank)
  concatenates_S8192x2x1x1024_S8192x2x1x1024_S8192x2x2x1024_d2 : Shape.Concatenates [S8192x2x1x1024, S8192x2x1x1024] S8192x2x2x1024 2
  shapeCasts_S8192x2x2x1024_S8192x1x2x2048 : S8192x2x2x1024.ShapeCasts S8192x1x2x2048
  slices_S8192x1x2x2048_S8192x1x1x2048_0_0_0_0 : S8192x1x2x2048.Slices ![0, 0, 0, 0] S8192x1x1x2048
  shapeCasts_S8192x1x1x2048_S8192x1x2048 : S8192x1x1x2048.ShapeCasts S8192x1x2048
  slices_S8192x1x2x2048_S8192x1x1x2048_0_0_1_0 : S8192x1x2x2048.Slices ![0, 0, 1, 0] S8192x1x1x2048
  bcast_S8192x1x2048_S8192x1x1x2048_0_1_3 : S8192x1x2048.BroadcastsInDim S8192x1x1x2048 (![0, 1, 3] : Fin 3 → Fin S8192x1x1x2048.rank)
  concatenates_S8192x1x1x2048_S8192x1x1x2048_S8192x1x2x2048_d2 : Shape.Concatenates [S8192x1x1x2048, S8192x1x1x2048] S8192x1x2x2048 2
  shapeCasts_S8192x1x2x2048_S2x4096x4096 : S8192x1x2x2048.ShapeCasts S2x4096x4096
  bcast_S_S2x4096x4096 : S_.BroadcastsInDim S2x4096x4096 (![] : Fin 0 → Fin S2x4096x4096.rank)

variable [Facts₀]

class Facts : Prop extends Facts₀ where

variable [Facts]
-- ==== Proof.HadDefs.lean ====
/-
  The vocabulary shared by every module of this proof.

  The Sylvester–Hadamard sign on `n` bits, `sgnN n i j = (-1)^(number of bit positions below n where i and j both
  have a one)`, defined by peeling the LOWEST bit: that is how a Kronecker product with the 2×2 matrix
  [[1, 1], [1, -1]] on the right grows it. The butterfly `bfly h` is one stage of the fast Walsh–Hadamard transform on a
  flat array: the entries whose positions differ exactly by `h` in the bit of weight `h` are replaced by their sum (bit
  clear) and their difference (bit set). `wht k` is the transform on aligned groups of `2^k` consecutive positions.
  `FlatIs v g` says that an array of extended reals holds, at every index, the REAL number `g` of the index's
  row-major position: reshapes keep it, and two arrays of one shape with the same `g` are equal.
-/
import Idealize.ShloMosaic.PureOps.Ideal
import Idealize.ShloMosaic.Lib.ValueIdx

noncomputable section

namespace Cert.Had

open Idealize.ShloMosaic

/-- The entry of [[1, 1], [1, -1]] at the lowest bits of `p` and `q`. -/
def b2 (p q : ℕ) : ℝ := if p % 2 = 1 ∧ q % 2 = 1 then -1 else 1

/-- The Sylvester–Hadamard sign of `i` and `j` on their lowest `n` bits. -/
def sgnN : ℕ → ℕ → ℕ → ℝ
  | 0, _, _ => 1
  | n + 1, i, j => sgnN n (i / 2) (j / 2) * b2 i j

/-- One butterfly stage at distance `h` on a flat array. -/
def bfly (h : ℕ) (f : ℕ → ℝ) (n : ℕ) : ℝ :=
  if (n / h) % 2 = 0 then f n + f (n + h) else f (n - h) - f n

/-- The Walsh–Hadamard transform of each aligned group of `2^k` consecutive positions. -/
def wht (k : ℕ) (f : ℕ → ℝ) (n : ℕ) : ℝ :=
  ∑ i ∈ Finset.range (2 ^ k), sgnN k i (n % 2 ^ k) * f (n / 2 ^ k * 2 ^ k + i)

/-- The array `v` holds the real number `g p` at the index of row-major position `p`. -/
def FlatIs {S : Shape} (v : S.Idx → EReal) (g : ℕ → ℝ) : Prop :=
  ∀ k : S.Idx, v k = ((g (S.rowMajor k).val : ℝ) : EReal)

/-- A reshape keeps the flat contents. -/
theorem FlatIs.shapeCast {s t : Shape} {v : s.Idx → EReal} {g : ℕ → ℝ} (hv : FlatIs v g) (h : s.ShapeCasts t) :
    FlatIs (shapeCast t v h) g := fun j => by
  unfold Idealize.ShloMosaic.shapeCast
  rw [hv, Shape.rowMajor_reshapeEquiv]

/-- Two arrays of one shape with the same flat contents are equal. -/
theorem FlatIs.ext {S : Shape} {v w : S.Idx → EReal} {g : ℕ → ℝ} (hv : FlatIs v g) (hw : FlatIs w g) : v = w :=
  funext fun k => (hv k).trans (hw k).symm

end Cert.Had

end
-- ==== Proof.HadMath.lean ====
/-
  The arithmetic of the Sylvester–Hadamard signs and of the fast Walsh–Hadamard butterfly over the reals.

  * `sgnN_split`: the sign on `m + k` bits factors into the sign of the high `m` bits times the sign of the low
    `k` bits (the Kronecker-product structure of the Sylvester matrices).
  * `wht_succ`: the transform on groups of `2^(k+1)` is one butterfly at distance `2^k` applied to the transform on
    groups of `2^k`; hence twelve butterflies at distances 1, 2, …, 2048 are the transform on groups of 4096.
  * `kron_sum`: multiplying a 64×64 matrix on both sides by the 64×64 Sylvester matrix is the 4096-point transform
    of the matrix read row by row.
-/
import proofs.«127082_j39934605918508_1_alg».proof.Proof.HadDefs
import Mathlib

namespace Cert.Had

open Finset

/-- Peeling the lowest bit of the sign. -/
theorem sgnN_succ (n i j : ℕ) : sgnN (n + 1) i j = sgnN n (i / 2) (j / 2) * b2 i j := rfl

/-- The 2×2 entry only depends on the parities. -/
theorem b2_congr {p p' q q' : ℕ} (hp : p % 2 = p' % 2) (hq : q % 2 = q' % 2) : b2 p q = b2 p' q' := by
  unfold b2; rw [hp, hq]

theorem sgnN_split (m k a b c d : ℕ) (hb : b < 2 ^ k) (hd : d < 2 ^ k) :
    sgnN (m + k) (a * 2 ^ k + b) (c * 2 ^ k + d) = sgnN m a c * sgnN k b d := by
  induction k generalizing b d with
  | zero =>
    have hb0 : b = 0 := by simpa using hb
    have hd0 : d = 0 := by simpa using hd
    subst hb0 hd0
    simp [sgnN]
  | succ k ih =>
    have e1 : a * 2 ^ (k + 1) = 2 * (a * 2 ^ k) := by ring
    have e2 : c * 2 ^ (k + 1) = 2 * (c * 2 ^ k) := by ring
    have e3 : (2 : ℕ) ^ (k + 1) = 2 * 2 ^ k := by ring
    have hb' : b / 2 < 2 ^ k := by omega
    have hd' : d / 2 < 2 ^ k := by omega
    have h1 : (a * 2 ^ (k + 1) + b) / 2 = a * 2 ^ k + b / 2 := by rw [e1]; omega
    have h2 : (c * 2 ^ (k + 1) + d) / 2 = c * 2 ^ k + d / 2 := by rw [e2]; omega
    have h3 : (a * 2 ^ (k + 1) + b) % 2 = b % 2 := by rw [e1]; omega
    have h4 : (c * 2 ^ (k + 1) + d) % 2 = d % 2 := by rw [e2]; omega
    show sgnN (m + k + 1) _ _ = _
    rw [sgnN_succ, sgnN_succ, h1, h2, ih _ _ hb' hd', b2_congr h3 h4]
    ring

/-- a butterfly read at a position given by its coordinates (pair index a, bit s, offset t below H) -/
theorem bfly_at (H : ℕ) (f : ℕ → ℝ) (a s t : ℕ) (hs : s < 2) (ht : t < H) :
    bfly H f ((a * 2 + s) * H + t)
      = if s = 0 then f ((a * 2 + 0) * H + t) + f ((a * 2 + 1) * H + t)
        else f ((a * 2 + 0) * H + t) - f ((a * 2 + 1) * H + t) := by
  have hH : 0 < H := by omega
  have hdiv : ((a * 2 + s) * H + t) / H = a * 2 + s := by
    rw [Nat.add_comm, Nat.add_mul_div_right _ _ hH, Nat.div_eq_of_lt ht, Nat.zero_add]
  unfold bfly
  rw [hdiv]
  obtain rfl | rfl : s = 0 ∨ s = 1 := by omega
  · have h0 : (a * 2 + 0) % 2 = 0 := by omega
    have e : (a * 2 + 0) * H + t + H = (a * 2 + 1) * H + t := by ring
    rw [if_pos h0, if_pos rfl, e]
  · have h1 : ¬ (a * 2 + 1) % 2 = 0 := by omega
    have e : (a * 2 + 1) * H + t - H = (a * 2 + 0) * H + t := by
      apply Nat.sub_eq_of_eq_add; ring
    rw [if_neg h1, if_neg one_ne_zero, e]

theorem wht_zero (f : ℕ → ℝ) (n : ℕ) : wht 0 f n = f n := by
  simp [wht, sgnN]

/-- The transform read at a position given by its group `q` and its offset `t` in the group. -/
theorem wht_at (k : ℕ) (f : ℕ → ℝ) (q t : ℕ) (ht : t < 2 ^ k) :
    wht k f (q * 2 ^ k + t) = ∑ i ∈ range (2 ^ k), sgnN k i t * f (q * 2 ^ k + i) := by
  have hP : 0 < 2 ^ k := Nat.pos_of_ne_zero (by positivity)
  have hdiv : (q * 2 ^ k + t) / 2 ^ k = q := by
    rw [Nat.add_comm, Nat.add_mul_div_right _ _ hP, Nat.div_eq_of_lt ht, Nat.zero_add]
  have hmod : (q * 2 ^ k + t) % 2 ^ k = t := by
    rw [Nat.add_comm, Nat.add_mul_mod_self_right, Nat.mod_eq_of_lt ht]
  unfold wht
  rw [hdiv, hmod]

/-- The sign on `k + 1` bits when the top bit of the first argument is clear. -/
theorem sgnN_lo (k i s t : ℕ) (hi : i < 2 ^ k) (ht : t < 2 ^ k) :
    sgnN (k + 1) i (s * 2 ^ k + t) = sgnN k i t := by
  have h := sgnN_split 1 k 0 i s t hi ht
  rw [Nat.add_comm 1 k, Nat.zero_mul, Nat.zero_add] at h
  rw [h, sgnN_succ]
  simp [sgnN, b2]

/-- The sign on `k + 1` bits when the top bit of the first argument is set. -/
theorem sgnN_hi (k i s t : ℕ) (hi : i < 2 ^ k) (ht : t < 2 ^ k) :
    sgnN (k + 1) (2 ^ k + i) (s * 2 ^ k + t) = b2 1 s * sgnN k i t := by
  have h := sgnN_split 1 k 1 i s t hi ht
  rw [Nat.add_comm 1 k, Nat.one_mul] at h
  rw [h, sgnN_succ]
  simp [sgnN]

/-- One doubling step of the transform, in coordinates. -/
theorem wht_step (k : ℕ) (f : ℕ → ℝ) (q s t : ℕ) (hs : s < 2) (ht : t < 2 ^ k) :
    wht (k + 1) f ((q * 2 + s) * 2 ^ k + t)
      = if s = 0 then wht k f ((q * 2 + 0) * 2 ^ k + t) + wht k f ((q * 2 + 1) * 2 ^ k + t)
        else wht k f ((q * 2 + 0) * 2 ^ k + t) - wht k f ((q * 2 + 1) * 2 ^ k + t) := by
  have e0 : (q * 2 + s) * 2 ^ k + t = q * 2 ^ (k + 1) + (s * 2 ^ k + t) := by ring
  have e3 : (2 : ℕ) ^ (k + 1) = 2 * 2 ^ k := by ring
  have hst : s * 2 ^ k + t < 2 ^ (k + 1) := by
    obtain rfl | rfl : s = 0 ∨ s = 1 := by omega
    all_goals omega
  have e1 : (2 : ℕ) ^ (k + 1) = 2 ^ k + 2 ^ k := by ring
  have hsum : ∀ F : ℕ → ℝ, ∑ i ∈ range (2 ^ (k + 1)), F i
      = ∑ i ∈ range (2 ^ k), F i + ∑ i ∈ range (2 ^ k), F (2 ^ k + i) := by
    intro F; rw [e1, Finset.sum_range_add]
  rw [e0, wht_at (k + 1) f q _ hst, wht_at k f _ t ht, wht_at k f _ t ht, hsum]
  have hA : ∑ i ∈ range (2 ^ k), sgnN (k + 1) i (s * 2 ^ k + t) * f (q * 2 ^ (k + 1) + i)
      = ∑ i ∈ range (2 ^ k), sgnN k i t * f ((q * 2 + 0) * 2 ^ k + i) := by
    refine Finset.sum_congr rfl fun i hi => ?_
    rw [Finset.mem_range] at hi
    have e : q * 2 ^ (k + 1) + i = (q * 2 + 0) * 2 ^ k + i := by ring
    rw [sgnN_lo k i s t hi ht, e]
  have hB : ∑ i ∈ range (2 ^ k), sgnN (k + 1) (2 ^ k + i) (s * 2 ^ k + t) * f (q * 2 ^ (k + 1) + (2 ^ k + i))
      = b2 1 s * ∑ i ∈ range (2 ^ k), sgnN k i t * f ((q * 2 + 1) * 2 ^ k + i) := by
    rw [Finset.mul_sum]
    refine Finset.sum_congr rfl fun i hi => ?_
    rw [Finset.mem_range] at hi
    have e : q * 2 ^ (k + 1) + (2 ^ k + i) = (q * 2 + 1) * 2 ^ k + i := by ring
    rw [sgnN_hi k i s t hi ht, e]
    ring
  rw [hA, hB]
  obtain rfl | rfl : s = 0 ∨ s = 1 := by omega
  · simp [b2]
  · simp [b2, sub_eq_add_neg]

theorem wht_succ (k : ℕ) (f : ℕ → ℝ) (n : ℕ) : wht (k + 1) f n = bfly (2 ^ k) (wht k f) n := by
  have hP : 0 < 2 ^ k := Nat.pos_of_ne_zero (by positivity)
  obtain ⟨q, s, t, hs, ht, rfl⟩ : ∃ q s t, s < 2 ∧ t < 2 ^ k ∧ n = (q * 2 + s) * 2 ^ k + t := by
    refine ⟨n / 2 ^ k / 2, n / 2 ^ k % 2, n % 2 ^ k, Nat.mod_lt _ (by norm_num), Nat.mod_lt _ hP, ?_⟩
    have h1 : n / 2 ^ k / 2 * 2 + n / 2 ^ k % 2 = n / 2 ^ k := by omega
    rw [h1]
    exact (Nat.div_add_mod' n (2 ^ k)).symm
  rw [wht_step k f q s t hs ht, bfly_at (2 ^ k) (wht k f) q s t hs ht]

/-- twelve butterfly stages at distances 1, 2, …, 2048 are the transform of each aligned group of 4096 -/
theorem wht12 (f : ℕ → ℝ) :
    wht 12 f = bfly 2048 (bfly 1024 (bfly 512 (bfly 256 (bfly 128 (bfly 64 (bfly 32 (bfly 16 (bfly 8 (bfly 4
      (bfly 2 (bfly 1 f))))))))))) := by
  have h0 : wht 0 f = f := funext (wht_zero f)
  have e : ∀ (k K : ℕ) (g : ℕ → ℝ), 2 ^ k = K → wht k f = g → wht (k + 1) f = bfly K g := by
    intro k K g hK hg
    rw [← hK, ← hg]
    exact funext (wht_succ k f)
  exact e 11 2048 _ (by norm_num) (e 10 1024 _ (by norm_num) (e 9 512 _ (by norm_num) (e 8 256 _ (by norm_num)
    (e 7 128 _ (by norm_num) (e 6 64 _ (by norm_num) (e 5 32 _ (by norm_num) (e 4 16 _ (by norm_num)
    (e 3 8 _ (by norm_num) (e 2 4 _ (by norm_num) (e 1 2 _ (by norm_num) (e 0 1 _ (by norm_num) h0)))))))))))

/-- A sum over `a * b` consecutive positions, as `a` blocks of `b`. -/
theorem sum_range_mul' (F : ℕ → ℝ) (a b : ℕ) :
    ∑ i ∈ range (a * b), F i = ∑ i1 ∈ range a, ∑ i2 ∈ range b, F (i1 * b + i2) := by
  induction a with
  | zero => simp
  | succ a ih => rw [Nat.succ_mul, Finset.sum_range_add, Finset.sum_range_succ, ih]

/-- The two-sided product, with natural-number indices. -/
theorem kron_sum_range (g : ℕ → ℝ) (R j1 j2 : ℕ) (h1 : j1 < 64) (h2 : j2 < 64) :
    ∑ i1 ∈ range 64, (∑ i2 ∈ range 64, g ((R * 64 + i1) * 64 + i2) * sgnN 6 i2 j2) * sgnN 6 i1 j1
      = wht 12 g ((R * 64 + j1) * 64 + j2) := by
  have e0 : (R * 64 + j1) * 64 + j2 = R * 2 ^ 12 + (j1 * 64 + j2) := by ring
  have e1 : (2 : ℕ) ^ 12 = 64 * 64 := by norm_num
  have hlt : j1 * 64 + j2 < 2 ^ 12 := by rw [e1]; omega
  rw [e0, wht_at 12 g R _ hlt, e1, sum_range_mul']
  refine Finset.sum_congr rfl fun i1 h1' => ?_
  rw [Finset.sum_mul]
  refine Finset.sum_congr rfl fun i2 h2' => ?_
  rw [Finset.mem_range] at h1' h2'
  have hs : sgnN 12 (i1 * 64 + i2) (j1 * 64 + j2) = sgnN 6 i1 j1 * sgnN 6 i2 j2 := by
    have h := sgnN_split 6 6 i1 i2 j1 j2 (by norm_num; exact h2') (by norm_num; exact h2)
    norm_num at h
    exact h
  have e : R * (64 * 64) + (i1 * 64 + i2) = (R * 64 + i1) * 64 + i2 := by ring
  rw [hs, e]
  ring

/-- the two-sided product with the 64×64 Sylvester matrix is the 4096-point transform of the row -/
theorem kron_sum (g : ℕ → ℝ) (R : ℕ) (j1 j2 : Fin 64) :
    ∑ i1 : Fin 64, (∑ i2 : Fin 64, g ((R * 64 + i1.val) * 64 + i2.val) * sgnN 6 i2.val j2.val) * sgnN 6 i1.val j1.val
      = wht 12 g ((R * 64 + j1.val) * 64 + j2.val) := by
  calc ∑ i1 : Fin 64, (∑ i2 : Fin 64, g ((R * 64 + i1.val) * 64 + i2.val) * sgnN 6 i2.val j2.val)
          * sgnN 6 i1.val j1.val
      = ∑ i1 : Fin 64, (∑ i2 ∈ range 64, g ((R * 64 + i1.val) * 64 + i2) * sgnN 6 i2 j2.val)
          * sgnN 6 i1.val j1.val := by
        refine Finset.sum_congr rfl fun i1 _ => ?_
        rw [Fin.sum_univ_eq_sum_range (fun i2 => g ((R * 64 + i1.val) * 64 + i2) * sgnN 6 i2 j2.val) 64]
    _ = ∑ i1 ∈ range 64, (∑ i2 ∈ range 64, g ((R * 64 + i1) * 64 + i2) * sgnN 6 i2 j2.val) * sgnN 6 i1 j1.val :=
        Fin.sum_univ_eq_sum_range
          (fun i1 => (∑ i2 ∈ range 64, g ((R * 64 + i1) * 64 + i2) * sgnN 6 i2 j2.val) * sgnN 6 i1 j1.val) 64
    _ = wht 12 g ((R * 64 + j1.val) * 64 + j2.val) := kron_sum_range g R j1.val j2.val j1.isLt j2.isLt

end Cert.Had
-- ==== Proof.KernSpec.lean ====
/-
  What the kernel computes, as one function of the whole arrays: at row `R` of the 8192 rows and output position
  `(j1, j2)` of the row's 64×64 matrix, the two-sided product  Σ_{i1} (Σ_{i2} X[R, i1, i2] · H[i2, j2]) · H[i1, j1],
  times the word 0x3C800000 (the float 1/64).
-/
import Idealize.ShloMosaic.PureOps.Ideal
import Idealize.ShloMosaic.Lib.ValueIdx

noncomputable section

namespace Cert.Had

open Idealize.ShloMosaic Idealize.ShloMosaic.ValueIdx

/-- The kernel's result at row `R`, position `(j1, j2)`. -/
def GkAt (X : (⟨3, ![8192, 64, 64]⟩ : Shape).Idx → EReal) (Hm : (⟨2, ![64, 64]⟩ : Shape).Idx → EReal)
    (R : Fin 8192) (j1 j2 : Fin 64) : EReal :=
  (∑ i1 : Fin 64, (∑ i2 : Fin 64, X (ix3 R i1 i2) * Hm (ix2 i2 j2)) * Hm (ix2 i1 j1)) * Ideal.ofBits .f32 0x3C800000#32

/-- The kernel's result array. -/
def Gk (X : (⟨3, ![8192, 64, 64]⟩ : Shape).Idx → EReal) (Hm : (⟨2, ![64, 64]⟩ : Shape).Idx → EReal) :
    (⟨3, ![8192, 64, 64]⟩ : Shape).Idx → EReal :=
  fun idx => GkAt X Hm (idx 0) (idx 1) (idx 2)

theorem Gk_apply (X : (⟨3, ![8192, 64, 64]⟩ : Shape).Idx → EReal) (Hm : (⟨2, ![64, 64]⟩ : Shape).Idx → EReal)
    (R : Fin 8192) (j1 j2 : Fin 64) : Gk X Hm (ix3 R j1 j2) = GkAt X Hm R j1 j2 := rfl

end Cert.Had

end
-- ==== Proof.HadConsts.lean ====
/-
  The float words the two programs spell, as the extended reals they denote when floats are read exactly:
  1, -1 (the entries of [[1, 1], [1, -1]]), 1/64 = 1/sqrt 4096 (the normalisation), and +0 (a matrix product's start value).
-/
import Idealize.ShloMosaic.PureOps.Ideal

noncomputable section

namespace Cert.Had

open Idealize.ShloMosaic

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_negone : Ideal.ofBits .f32 0xBF800000#32 = ((-1 : ℝ) : EReal) := by
  simp [Ideal.ofBits, Ideal.ieee, -EReal.coe_mul]; norm_num

theorem ofBits_inv64 : Ideal.ofBits .f32 0x3C800000#32 = ((1 / 64 : ℝ) : EReal) := by
  simp [Ideal.ofBits, Ideal.ieee, -EReal.coe_mul]; norm_num

end Cert.Had

end
-- ==== Proof.KernFlat.lean ====
/-
  The kernel's whole-array function holds, at flat position `n`, the 4096-point Walsh–Hadamard transform of the
  input's aligned group of 4096 containing `n`, times 1/64: the two-sided product with the 64×64 Sylvester matrix is
  that transform, once the input entries and the matrix entries are known to be real numbers.
-/
import proofs.«127082_j39934605918508_1_alg».proof.Proof.HadDefs
import proofs.«127082_j39934605918508_1_alg».proof.Proof.HadMath
import proofs.«127082_j39934605918508_1_alg».proof.Proof.HadConsts
import proofs.«127082_j39934605918508_1_alg».proof.Proof.KernSpec

noncomputable section

namespace Cert.Had

open Idealize.ShloMosaic Idealize.ShloMosaic.ValueIdx

/-- The flat position of a rank-3 index of the 8192×64×64 array, from its coordinates. -/
theorem rowMajor_ix3 (R : Fin 8192) (a b : Fin 64) :
    ((⟨3, ![8192, 64, 64]⟩ : Shape).rowMajor (ix3 R a b)).val = (R.val * 64 + a.val) * 64 + b.val := by
  rw [Shape.rowMajor_val_three]
  rfl

/-- The inclusion of the reals in the extended reals commutes with finite sums. -/
theorem coe_sum {ι : Type} (s : Finset ι) (f : ι → ℝ) :
    ((∑ i ∈ s, f i : ℝ) : EReal) = ∑ i ∈ s, ((f i : ℝ) : EReal) := by
  classical
  refine Finset.induction_on s ?_ ?_
  · simp
  · intro a s ha ih
    rw [Finset.sum_insert ha, Finset.sum_insert ha, EReal.coe_add, ih]

theorem Gk_flat (X : (⟨3, ![8192, 64, 64]⟩ : Shape).Idx → EReal) (Hm : (⟨2, ![64, 64]⟩ : Shape).Idx → EReal)
    (g : ℕ → ℝ) (hX : FlatIs X g)
    (hH : ∀ a b : Fin 64, Hm (ValueIdx.ix2 a b) = ((sgnN 6 a.val b.val : ℝ) : EReal)) :
    FlatIs (Gk X Hm) (fun n => wht 12 g n * (1 / 64 : ℝ)) := by
  intro idx
  obtain ⟨R, j1, j2, rfl⟩ : ∃ (R : Fin 8192) (j1 j2 : Fin 64), idx = ix3 R j1 j2 :=
    ⟨idx 0, idx 1, idx 2, ValueIdx.eq_ix3 idx⟩
  rw [Gk_apply]
  unfold GkAt
  have hin : ∀ i1 i2 : Fin 64,
      X (ix3 R i1 i2) = ((g ((R.val * 64 + i1.val) * 64 + i2.val) : ℝ) : EReal) := by
    intro i1 i2
    rw [hX (ix3 R i1 i2), rowMajor_ix3]
  have hsum : (∑ i1 : Fin 64, (∑ i2 : Fin 64, X (ix3 R i1 i2) * Hm (ix2 i2 j2)) * Hm (ix2 i1 j1))
      = ((∑ i1 : Fin 64, (∑ i2 : Fin 64, g ((R.val * 64 + i1.val) * 64 + i2.val) * sgnN 6 i2.val j2.val)
          * sgnN 6 i1.val j1.val : ℝ) : EReal) := by
    rw [coe_sum]
    refine Finset.sum_congr rfl fun i1 _ => ?_
    rw [EReal.coe_mul, coe_sum, hH i1 j1]
    congr 1
    refine Finset.sum_congr rfl fun i2 _ => ?_
    rw [EReal.coe_mul, hin, hH]
  rw [hsum, kron_sum, ofBits_inv64, ← EReal.coe_mul, rowMajor_ix3]

end Cert.Had

end
-- ==== Proof.KernHad.lean ====
/-
  The 64×64 matrix the kernel multiplies by, and the array it reads.

  @main writes the 2×2 matrix [[1, 1], [1, -1]] and takes its Kronecker product with itself five times, each time with
  the 2×2 matrix as the RIGHT factor: kron(A, B)[2·i + p, 2·j + q] = A[i, j] · B[p, q]. A right factor of size 2 peels
  the LOWEST bit of the row and column numbers, which is the recursion that defines the Sylvester–Hadamard sign
  `sgnN`: so after five steps the 64×64 result holds `sgnN 6 a b` at (a, b) (`hmat`). The other array the kernel
  reads is the input, reshaped to 8192 matrices of 64×64 (`xmat`).

  The operations before the kernel run in six stretches (the constant and the reshape, then one stretch per Kronecker
  step); the buffers' contents are followed stretch by stretch (`W0` … `W6`): a step reads the previous step's result
  and the constant, and writes neither the constant nor the reshaped input.
-/
import proofs.«127082_j39934605918508_1_alg».proof.Proof.HadDefs
import proofs.«127082_j39934605918508_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.HadMat

open Cert.KernelIdeal Cert.KernelIdeal.Gen Idealize.ShloMosaic Idealize.ShloMosaic.ValueIdx Cert.Had
open Idealize.ShloMosaic.StableHlo Idealize.ShloMosaic.TcCoe

/-! ## The entries of [[1, 1], [1, -1]] and the sign's recursion -/

/-- The 2×2 matrix's entry depends on the lowest bits only. -/
theorem b2_mod (p q : ℕ) : b2 (p % 2) (q % 2) = b2 p q := by
  unfold b2; rw [Nat.mod_mod, Nat.mod_mod]

/-- On one bit the sign is the 2×2 matrix's entry. -/
theorem sgnN_one (p q : ℕ) : sgnN 1 p q = b2 p q := by
  show sgnN 0 (p / 2) (q / 2) * b2 p q = b2 p q
  show 1 * b2 p q = b2 p q
  exact one_mul _

/-- The word of `1.0` denotes the real `1`. -/
theorem ofBits_one : Ideal.ofBits .f32 0x3F800000#32 = ((1 : ℝ) : EReal) := by
  simp [Ideal.ofBits, Ideal.ieee, -EReal.coe_mul]; norm_num

/-- The word of `-1.0` denotes the real `-1`. -/
theorem ofBits_neg_one : Ideal.ofBits .f32 0xBF800000#32 = ((-1 : ℝ) : EReal) := by
  simp [Ideal.ofBits, Ideal.ieee, -EReal.coe_mul]; norm_num

/-! ## One Kronecker step -/

/-- The host's six operations of one Kronecker step with a 2×2 right factor, as one term. -/
abbrev kronT (n N : ℕ)
    (h1 : (⟨2, ![n, n]⟩ : Shape).BroadcastsInDim (⟨4, ![n, 1, n, 1]⟩ : Shape) ![0, 2])
    (h2 : (⟨2, ![2, 2]⟩ : Shape).BroadcastsInDim (⟨4, ![1, 2, 1, 2]⟩ : Shape) ![1, 3])
    (h3 : (⟨4, ![n, 1, n, 1]⟩ : Shape).BroadcastsInDim (⟨4, ![n, 2, n, 2]⟩ : Shape) ![0, 1, 2, 3])
    (h4 : (⟨4, ![1, 2, 1, 2]⟩ : Shape).BroadcastsInDim (⟨4, ![n, 2, n, 2]⟩ : Shape) ![0, 1, 2, 3])
    (h5 : (⟨4, ![n, 2, n, 2]⟩ : Shape).ShapeCasts (⟨2, ![N, N]⟩ : Shape))
    (A : FVec Ideal ⟨2, ![n, n]⟩ .f32) (B : FVec Ideal ⟨2, ![2, 2]⟩ .f32) : FVec Ideal ⟨2, ![N, N]⟩ .f32 :=
  shapeCast (⟨2, ![N, N]⟩ : Shape)
    (mulf (broadcastInDim (⟨4, ![n, 2, n, 2]⟩ : Shape) ![0, 1, 2, 3] h3 (broadcastInDim (⟨4, ![n, 1, n, 1]⟩ : Shape) ![0, 2] h1 A))
      (broadcastInDim (⟨4, ![n, 2, n, 2]⟩ : Shape) ![0, 1, 2, 3] h4 (broadcastInDim (⟨4, ![1, 2, 1, 2]⟩ : Shape) ![1, 3] h2 B)))
    h5

/-- The Kronecker product with a 2×2 matrix on the right, as the host computes it — both factors broadcast to
    [n, 2, n, 2] (the left one through [n, 1, n, 1], the right one through [1, 2, 1, 2]), multiplied, and the
    product read as an [N, N] matrix with N = 2·n — has at (I, J) the entry A[I / 2, J / 2] · B[I % 2, J % 2]. -/
theorem kron_apply (n N : ℕ) (hN : N = 2 * n)
    (h1 : (⟨2, ![n, n]⟩ : Shape).BroadcastsInDim (⟨4, ![n, 1, n, 1]⟩ : Shape) ![0, 2])
    (h2 : (⟨2, ![2, 2]⟩ : Shape).BroadcastsInDim (⟨4, ![1, 2, 1, 2]⟩ : Shape) ![1, 3])
    (h3 : (⟨4, ![n, 1, n, 1]⟩ : Shape).BroadcastsInDim (⟨4, ![n, 2, n, 2]⟩ : Shape) ![0, 1, 2, 3])
    (h4 : (⟨4, ![1, 2, 1, 2]⟩ : Shape).BroadcastsInDim (⟨4, ![n, 2, n, 2]⟩ : Shape) ![0, 1, 2, 3])
    (h5 : (⟨4, ![n, 2, n, 2]⟩ : Shape).ShapeCasts (⟨2, ![N, N]⟩ : Shape))
    (A : FVec Ideal ⟨2, ![n, n]⟩ .f32) (B : FVec Ideal ⟨2, ![2, 2]⟩ .f32) (I J : Fin N) :
    kronT n N h1 h2 h3 h4 h5 A B (ix2 I J)
      = A (ix2 (⟨I.val / 2, by have := I.isLt; omega⟩ : Fin n) (⟨J.val / 2, by have := J.isLt; omega⟩ : Fin n))
          * B (ix2 (⟨I.val % 2, Nat.mod_lt _ (by decide)⟩ : Fin 2) (⟨J.val % 2, Nat.mod_lt _ (by decide)⟩ : Fin 2)) := by
  have hI := I.isLt
  have hJ := J.isLt
  have hi : I.val / 2 < n := by omega
  have hj : J.val / 2 < n := by omega
  have hp : I.val % 2 < 2 := Nat.mod_lt _ (by decide)
  have hq : J.val % 2 < 2 := Nat.mod_lt _ (by decide)
  refine (shapeCast_apply _ h5 (ix2 I J)
    (ix4 (⟨I.val / 2, hi⟩ : Fin n) (⟨I.val % 2, hp⟩ : Fin 2) (⟨J.val / 2, hj⟩ : Fin n) (⟨J.val % 2, hq⟩ : Fin 2)) ?_).trans ?_
  · rw [Shape.rowMajor_val_four, Shape.rowMajor_val_two]
    show ((I.val / 2 * 2 + I.val % 2) * n + J.val / 2) * 2 + J.val % 2 = I.val * N + J.val
    have e1 : I.val / 2 * 2 + I.val % 2 = I.val := Nat.div_add_mod' _ 2
    have e2 : J.val / 2 * 2 + J.val % 2 = J.val := Nat.div_add_mod' _ 2
    have e3 : I.val * N = I.val * (2 * n) := congrArg (I.val * ·) hN
    rw [e1, e3]
    calc (I.val * n + J.val / 2) * 2 + J.val % 2 = I.val * (2 * n) + (J.val / 2 * 2 + J.val % 2) := by ring
      _ = I.val * (2 * n) + J.val := by rw [e2]
  · rw [mulf_apply]
    congr 1
    · refine (broadcastInDim_apply ![0, 1, 2, 3] h3 _ _
        (ix4 (⟨I.val / 2, hi⟩ : Fin n) (0 : Fin 1) (⟨J.val / 2, hj⟩ : Fin n) (0 : Fin 1)) ?_).trans ?_
      · intro a
        match a with
        | ⟨0, _⟩ => show I.val / 2 = if n = 1 then 0 else I.val / 2; split <;> omega
        | ⟨1, _⟩ => show 0 = if 1 = 1 then 0 else I.val % 2; rfl
        | ⟨2, _⟩ => show J.val / 2 = if n = 1 then 0 else J.val / 2; split <;> omega
        | ⟨3, _⟩ => show 0 = if 1 = 1 then 0 else J.val % 2; rfl
      · refine broadcastInDim_apply ![0, 2] h1 A _ _ ?_
        intro a
        match a with
        | ⟨0, _⟩ => show I.val / 2 = if n = 1 then 0 else I.val / 2; split <;> omega
        | ⟨1, _⟩ => show J.val / 2 = if n = 1 then 0 else J.val / 2; split <;> omega
    · refine (broadcastInDim_apply ![0, 1, 2, 3] h4 _ _
        (ix4 (0 : Fin 1) (⟨I.val % 2, hp⟩ : Fin 2) (0 : Fin 1) (⟨J.val % 2, hq⟩ : Fin 2)) ?_).trans ?_
      · intro a
        match a with
        | ⟨0, _⟩ => show 0 = if 1 = 1 then 0 else I.val / 2; rfl
        | ⟨1, _⟩ => show I.val % 2 = if 2 = 1 then 0 else I.val % 2; rfl
        | ⟨2, _⟩ => show 0 = if 1 = 1 then 0 else J.val / 2; rfl
        | ⟨3, _⟩ => show J.val % 2 = if 2 = 1 then 0 else J.val % 2; rfl
      · refine broadcastInDim_apply ![1, 3] h2 B _ _ ?_
        intro a
        match a with
        | ⟨0, _⟩ => show I.val % 2 = if 2 = 1 then 0 else I.val % 2; rfl
        | ⟨1, _⟩ => show J.val % 2 = if 2 = 1 then 0 else J.val % 2; rfl

/-- A Kronecker step grows the Sylvester–Hadamard sign by one bit: if `A` holds the sign on `k` bits and `B` the
    2×2 matrix, the step's result holds the sign on `k + 1` bits. -/
theorem kron_had (k n N : ℕ) (hN : N = 2 * n)
    (h1 : (⟨2, ![n, n]⟩ : Shape).BroadcastsInDim (⟨4, ![n, 1, n, 1]⟩ : Shape) ![0, 2])
    (h2 : (⟨2, ![2, 2]⟩ : Shape).BroadcastsInDim (⟨4, ![1, 2, 1, 2]⟩ : Shape) ![1, 3])
    (h3 : (⟨4, ![n, 1, n, 1]⟩ : Shape).BroadcastsInDim (⟨4, ![n, 2, n, 2]⟩ : Shape) ![0, 1, 2, 3])
    (h4 : (⟨4, ![1, 2, 1, 2]⟩ : Shape).BroadcastsInDim (⟨4, ![n, 2, n, 2]⟩ : Shape) ![0, 1, 2, 3])
    (h5 : (⟨4, ![n, 2, n, 2]⟩ : Shape).ShapeCasts (⟨2, ![N, N]⟩ : Shape))
    (A : FVec Ideal ⟨2, ![n, n]⟩ .f32) (B : FVec Ideal ⟨2, ![2, 2]⟩ .f32)
    (hA : ∀ i j : Fin n, A (ix2 i j) = ((sgnN k i.val j.val : ℝ) : EReal))
    (hB : ∀ p q : Fin 2, B (ix2 p q) = ((b2 p.val q.val : ℝ) : EReal)) (I J : Fin N) :
    kronT n N h1 h2 h3 h4 h5 A B (ix2 I J) = ((sgnN (k + 1) I.val J.val : ℝ) : EReal) := by
  rw [kron_apply n N hN h1 h2 h3 h4 h5 A B I J, hA, hB, ← EReal.coe_mul]
  show ((sgnN k (I.val / 2) (J.val / 2) * b2 (I.val % 2) (J.val % 2) : ℝ) : EReal) = _
  rw [b2_mod]
  rfl

/-! ## The buffers stretch by stretch -/

/-- The contents as launched. -/
def W0 (m : (ℓ : Loc nD τ sig) → Buf (Elt Ideal) ℓ) (c : Dev nD) : Valuation τ sig (Elt Ideal) := fun b => m (c, b)
/-- After the constant and the input's reshape. -/
def W1 (m : (ℓ : Loc nD τ sig) → Buf (Elt Ideal) ℓ) (c : Dev nD) : Valuation τ sig (Elt Ideal) := StableHlo.after hostOps0 (W0 m c)
/-- After the first Kronecker step … -/
def W2 (m : (ℓ : Loc nD τ sig) → Buf (Elt Ideal) ℓ) (c : Dev nD) : Valuation τ sig (Elt Ideal) := StableHlo.after hostOps0_1 (W1 m c)
def W3 (m : (ℓ : Loc nD τ sig) → Buf (Elt Ideal) ℓ) (c : Dev nD) : Valuation τ sig (Elt Ideal) := StableHlo.after hostOps0_2 (W2 m c)
def W4 (m : (ℓ : Loc nD τ sig) → Buf (Elt Ideal) ℓ) (c : Dev nD) : Valuation τ sig (Elt Ideal) := StableHlo.after hostOps0_3 (W3 m c)
def W5 (m : (ℓ : Loc nD τ sig) → Buf (Elt Ideal) ℓ) (c : Dev nD) : Valuation τ sig (Elt Ideal) := StableHlo.after hostOps0_4 (W4 m c)
/-- … and after the fifth: the contents when the kernel is entered. -/
def W6 (m : (ℓ : Loc nD τ sig) → Buf (Elt Ideal) ℓ) (c : Dev nD) : Valuation τ sig (Elt Ideal) := StableHlo.after hostOps0_5 (W5 m c)

theorem V0_eq (m : (ℓ : Loc nD τ sig) → Buf (Elt Ideal) ℓ) (c : Dev nD) : V0 (F := Ideal) m c = W6 m c := by
  unfold W6 W5 W4 W3 W2 W1 W0
  show StableHlo.after (List.flatten [hostOps0, hostOps0_1, hostOps0_2, hostOps0_3, hostOps0_4, hostOps0_5]) (fun b => m (c, b)) = _
  simp only [List.flatten_cons, List.flatten_nil, List.append_nil, StableHlo.after_append]

/-- Each Kronecker step leaves the 2×2 constant and the reshaped input in place. -/
theorem keep1 (W : Valuation τ sig (Elt Ideal)) {r : Ref sig .tc} (hr : r = main_cst ∨ r = main_v0) :
    StableHlo.after hostOps0_1 W (Proc.devRef .tc r) = W (Proc.devRef .tc r) :=
  StableHlo.after_of_forall_not_mem (b := Proc.devRef .tc r) _ _ (List.forall_iff_forall_mem.mp (by
    simp only [hostOps0_1, List.Forall, StableHlo.unary_writes, StableHlo.binary_writes, StableHlo.reshape_writes, Finset.mem_singleton]
    rcases hr with rfl | rfl
    all_goals repeat' apply And.intro
    all_goals exact StableHlo.devRef_ne_of_ne (by decide)))

theorem keep2 (W : Valuation τ sig (Elt Ideal)) {r : Ref sig .tc} (hr : r = main_cst ∨ r = main_v0) :
    StableHlo.after hostOps0_2 W (Proc.devRef .tc r) = W (Proc.devRef .tc r) :=
  StableHlo.after_of_forall_not_mem (b := Proc.devRef .tc r) _ _ (List.forall_iff_forall_mem.mp (by
    simp only [hostOps0_2, List.Forall, StableHlo.unary_writes, StableHlo.binary_writes, StableHlo.reshape_writes, Finset.mem_singleton]
    rcases hr with rfl | rfl
    all_goals repeat' apply And.intro
    all_goals exact StableHlo.devRef_ne_of_ne (by decide)))

theorem keep3 (W : Valuation τ sig (Elt Ideal)) {r : Ref sig .tc} (hr : r = main_cst ∨ r = main_v0) :
    StableHlo.after hostOps0_3 W (Proc.devRef .tc r) = W (Proc.devRef .tc r) :=
  StableHlo.after_of_forall_not_mem (b := Proc.devRef .tc r) _ _ (List.forall_iff_forall_mem.mp (by
    simp only [hostOps0_3, List.Forall, StableHlo.unary_writes, StableHlo.binary_writes, StableHlo.reshape_writes, Finset.mem_singleton]
    rcases hr with rfl | rfl
    all_goals repeat' apply And.intro
    all_goals exact StableHlo.devRef_ne_of_ne (by decide)))

theorem keep4 (W : Valuation τ sig (Elt Ideal)) {r : Ref sig .tc} (hr : r = main_cst ∨ r = main_v0) :
    StableHlo.after hostOps0_4 W (Proc.devRef .tc r) = W (Proc.devRef .tc r) :=
  StableHlo.after_of_forall_not_mem (b := Proc.devRef .tc r) _ _ (List.forall_iff_forall_mem.mp (by
    simp only [hostOps0_4, List.Forall, StableHlo.unary_writes, StableHlo.binary_writes, StableHlo.reshape_writes, Finset.mem_singleton]
    rcases hr with rfl | rfl
    all_goals repeat' apply And.intro
    all_goals exact StableHlo.devRef_ne_of_ne (by decide)))

theorem keep5 (W : Valuation τ sig (Elt Ideal)) {r : Ref sig .tc} (hr : r = main_cst ∨ r = main_v0) :
    StableHlo.after hostOps0_5 W (Proc.devRef .tc r) = W (Proc.devRef .tc r) :=
  StableHlo.after_of_forall_not_mem (b := Proc.devRef .tc r) _ _ (List.forall_iff_forall_mem.mp (by
    simp only [hostOps0_5, List.Forall, StableHlo.unary_writes, StableHlo.binary_writes, StableHlo.reshape_writes, Finset.mem_singleton]
    rcases hr with rfl | rfl
    all_goals repeat' apply And.intro
    all_goals exact StableHlo.devRef_ne_of_ne (by decide)))

/-! ## What each stretch writes -/

/-- The first stretch writes the constant's words … -/
theorem W1_cst (m : (ℓ : Loc nD τ sig) → Buf (Elt Ideal) ℓ) (c : Dev nD) :
    (W1 m c (Proc.devRef .tc main_cst) : S2x2.Idx → EReal) = fun i => Ideal.ofBits .f32 (lit0 (S2x2.rowMajor i)) := by
  unfold W1
  simp only [hostOps0]
  after_results
  rfl

/-- … and the input read as 8192 matrices of 64×64. -/
theorem W1_v0 (m : (ℓ : Loc nD τ sig) → Buf (Elt Ideal) ℓ) (c : Dev nD) :
    (W1 m c (Proc.devRef .tc main_v0) : S8192x64x64.Idx → EReal)
      = shapeCast S8192x64x64 (W0 m c (Proc.devRef .tc main_arg0) : S2x4096x4096.Idx → EReal) shapeCasts_S2x4096x4096_S8192x64x64 := by
  unfold W1
  simp only [hostOps0]
  after_results
  rfl

theorem lvl1 (W : Valuation τ sig (Elt Ideal)) :
    (StableHlo.after hostOps0_1 W (Proc.devRef .tc main_v1) : S4x4.Idx → EReal)
      = kronT 2 4 bcast_S2x2_S2x1x2x1_0_2 bcast_S2x2_S1x2x1x2_1_3 bcast_S2x1x2x1_S2x2x2x2_0_1_2_3
          bcast_S1x2x1x2_S2x2x2x2_0_1_2_3 shapeCasts_S2x2x2x2_S4x4
          (W (Proc.devRef .tc main_cst)) (W (Proc.devRef .tc main_cst)) := by
  simp only [hostOps0_1]
  after_results
  rfl

theorem lvl2 (W : Valuation τ sig (Elt Ideal)) :
    (StableHlo.after hostOps0_2 W (Proc.devRef .tc main_v2) : S8x8.Idx → EReal)
      = kronT 4 8 bcast_S4x4_S4x1x4x1_0_2 bcast_S2x2_S1x2x1x2_1_3 bcast_S4x1x4x1_S4x2x4x2_0_1_2_3
          bcast_S1x2x1x2_S4x2x4x2_0_1_2_3 shapeCasts_S4x2x4x2_S8x8
          (W (Proc.devRef .tc main_v1)) (W (Proc.devRef .tc main_cst)) := by
  simp only [hostOps0_2]
  after_results
  rfl

theorem lvl3 (W : Valuation τ sig (Elt Ideal)) :
    (StableHlo.after hostOps0_3 W (Proc.devRef .tc main_v3) : S16x16.Idx → EReal)
      = kronT 8 16 bcast_S8x8_S8x1x8x1_0_2 bcast_S2x2_S1x2x1x2_1_3 bcast_S8x1x8x1_S8x2x8x2_0_1_2_3
          bcast_S1x2x1x2_S8x2x8x2_0_1_2_3 shapeCasts_S8x2x8x2_S16x16
          (W (Proc.devRef .tc main_v2)) (W (Proc.devRef .tc main_cst)) := by
  simp only [hostOps0_3]
  after_results
  rfl

theorem lvl4 (W : Valuation τ sig (Elt Ideal)) :
    (StableHlo.after hostOps0_4 W (Proc.devRef .tc main_v4) : S32x32.Idx → EReal)
      = kronT 16 32 bcast_S16x16_S16x1x16x1_0_2 bcast_S2x2_S1x2x1x2_1_3 bcast_S16x1x16x1_S16x2x16x2_0_1_2_3
          bcast_S1x2x1x2_S16x2x16x2_0_1_2_3 shapeCasts_S16x2x16x2_S32x32
          (W (Proc.devRef .tc main_v3)) (W (Proc.devRef .tc main_cst)) := by
  simp only [hostOps0_4]
  after_results
  rfl

theorem lvl5 (W : Valuation τ sig (Elt Ideal)) :
    (StableHlo.after hostOps0_5 W (Proc.devRef .tc main_v5) : S64x64.Idx → EReal)
      = kronT 32 64 bcast_S32x32_S32x1x32x1_0_2 bcast_S2x2_S1x2x1x2_1_3 bcast_S32x1x32x1_S32x2x32x2_0_1_2_3
          bcast_S1x2x1x2_S32x2x32x2_0_1_2_3 shapeCasts_S32x2x32x2_S64x64
          (W (Proc.devRef .tc main_v4)) (W (Proc.devRef .tc main_cst)) := by
  simp only [hostOps0_5]
  after_results
  rfl

/-! ## The constant's entries -/

/-- The constant's four words, in row-major order, are the 2×2 matrix's entries. -/
theorem lit0_at (x : Fin 4) : Ideal.ofBits .f32 (lit0 x) = ((b2 (x.val / 2) (x.val % 2) : ℝ) : EReal) := by
  match x with
  | ⟨0, h⟩ => rw [show lit0 ⟨0, h⟩ = 0x3F800000#32 from rfl, ofBits_one]; congr 1; simp [b2]
  | ⟨1, h⟩ => rw [show lit0 ⟨1, h⟩ = 0x3F800000#32 from rfl, ofBits_one]; congr 1; simp [b2]
  | ⟨2, h⟩ => rw [show lit0 ⟨2, h⟩ = 0x3F800000#32 from rfl, ofBits_one]; congr 1; simp [b2]
  | ⟨3, h⟩ => rw [show lit0 ⟨3, h⟩ = 0xBF800000#32 from rfl, ofBits_neg_one]; congr 1; simp [b2]

theorem cst_entries (m : (ℓ : Loc nD τ sig) → Buf (Elt Ideal) ℓ) (c : Dev nD) (p q : Fin 2) :
    (W1 m c (Proc.devRef .tc main_cst) : S2x2.Idx → EReal) (ix2 p q) = ((b2 p.val q.val : ℝ) : EReal) := by
  rw [W1_cst]
  refine (lit0_at (S2x2.rowMajor (ix2 p q))).trans ?_
  have e : (S2x2.rowMajor (ix2 p q)).val = p.val * 2 + q.val := by
    rw [Shape.rowMajor_val_two]; rfl
  have hp := p.isLt
  have hq := q.isLt
  rw [e, show (p.val * 2 + q.val) / 2 = p.val by omega, show (p.val * 2 + q.val) % 2 = q.val by omega]

/-! ## The kernel's Hadamard matrix and its input -/

/-- The 64×64 matrix the kernel multiplies by is the Sylvester–Hadamard sign matrix on six bits. -/
theorem hmat (m : (ℓ : Loc nD τ sig) → Buf (Elt Ideal) ℓ) (c : Dev nD) (a b : Fin 64) :
    (V (F := Ideal) m c main_v5 : S64x64.Idx → EReal) (ix2 a b) = ((sgnN 6 a.val b.val : ℝ) : EReal) := by
  have hC1 : ∀ p q : Fin 2, (W1 m c (Proc.devRef .tc main_cst) : S2x2.Idx → EReal) (ix2 p q) = ((b2 p.val q.val : ℝ) : EReal) :=
    cst_entries m c
  have hC2 : ∀ p q : Fin 2, (W2 m c (Proc.devRef .tc main_cst) : S2x2.Idx → EReal) (ix2 p q) = ((b2 p.val q.val : ℝ) : EReal) :=
    fun p q => (congrFun (keep1 (W1 m c) (Or.inl rfl)) (ix2 p q)).trans (hC1 p q)
  have hC3 : ∀ p q : Fin 2, (W3 m c (Proc.devRef .tc main_cst) : S2x2.Idx → EReal) (ix2 p q) = ((b2 p.val q.val : ℝ) : EReal) :=
    fun p q => (congrFun (keep2 (W2 m c) (Or.inl rfl)) (ix2 p q)).trans (hC2 p q)
  have hC4 : ∀ p q : Fin 2, (W4 m c (Proc.devRef .tc main_cst) : S2x2.Idx → EReal) (ix2 p q) = ((b2 p.val q.val : ℝ) : EReal) :=
    fun p q => (congrFun (keep3 (W3 m c) (Or.inl rfl)) (ix2 p q)).trans (hC3 p q)
  have hC5 : ∀ p q : Fin 2, (W5 m c (Proc.devRef .tc main_cst) : S2x2.Idx → EReal) (ix2 p q) = ((b2 p.val q.val : ℝ) : EReal) :=
    fun p q => (congrFun (keep4 (W4 m c) (Or.inl rfl)) (ix2 p q)).trans (hC4 p q)
  have hV1 : ∀ I J : Fin 4, (W2 m c (Proc.devRef .tc main_v1) : S4x4.Idx → EReal) (ix2 I J) = ((sgnN 2 I.val J.val : ℝ) : EReal) :=
    fun I J => (congrFun (lvl1 (W1 m c)) (ix2 I J)).trans
      (kron_had 1 2 4 rfl _ _ _ _ _ _ _ (fun i j => by rw [hC1, sgnN_one]) hC1 I J)
  have hV2 : ∀ I J : Fin 8, (W3 m c (Proc.devRef .tc main_v2) : S8x8.Idx → EReal) (ix2 I J) = ((sgnN 3 I.val J.val : ℝ) : EReal) :=
    fun I J => (congrFun (lvl2 (W2 m c)) (ix2 I J)).trans (kron_had 2 4 8 rfl _ _ _ _ _ _ _ hV1 hC2 I J)
  have hV3 : ∀ I J : Fin 16, (W4 m c (Proc.devRef .tc main_v3) : S16x16.Idx → EReal) (ix2 I J) = ((sgnN 4 I.val J.val : ℝ) : EReal) :=
    fun I J => (congrFun (lvl3 (W3 m c)) (ix2 I J)).trans (kron_had 3 8 16 rfl _ _ _ _ _ _ _ hV2 hC3 I J)
  have hV4 : ∀ I J : Fin 32, (W5 m c (Proc.devRef .tc main_v4) : S32x32.Idx → EReal) (ix2 I J) = ((sgnN 5 I.val J.val : ℝ) : EReal) :=
    fun I J => (congrFun (lvl4 (W4 m c)) (ix2 I J)).trans (kron_had 4 16 32 rfl _ _ _ _ _ _ _ hV3 hC4 I J)
  have hV5 : ∀ I J : Fin 64, (W6 m c (Proc.devRef .tc main_v5) : S64x64.Idx → EReal) (ix2 I J) = ((sgnN 6 I.val J.val : ℝ) : EReal) :=
    fun I J => (congrFun (lvl5 (W5 m c)) (ix2 I J)).trans (kron_had 5 32 64 rfl _ _ _ _ _ _ _ hV4 hC5 I J)
  show (V0 (F := Ideal) m c (Proc.devRef .tc main_v5) : S64x64.Idx → EReal) (ix2 a b) = _
  rw [V0_eq]
  exact hV5 a b

/-- The array the kernel reads is the input, read as 8192 matrices of 64×64. -/
theorem xmat (m : (ℓ : Loc nD τ sig) → Buf (Elt Ideal) ℓ) (c : Dev nD) :
    (V (F := Ideal) m c main_v0 : S8192x64x64.Idx → EReal)
      = shapeCast S8192x64x64 (m ((c : Thread nD τ).loc main_arg0) : S2x4096x4096.Idx → EReal)
          shapeCasts_S2x4096x4096_S8192x64x64 := by
  show (V0 (F := Ideal) m c (Proc.devRef .tc main_v0) : S8192x64x64.Idx → EReal) = _
  rw [V0_eq]
  refine (keep5 (W5 m c) (Or.inr rfl)).trans ?_
  refine (keep4 (W4 m c) (Or.inr rfl)).trans ?_
  refine (keep3 (W3 m c) (Or.inr rfl)).trans ?_
  refine (keep2 (W2 m c) (Or.inr rfl)).trans ?_
  refine (keep1 (W1 m c) (Or.inr rfl)).trans ?_
  exact W1_v0 m c

end Cert.KernelIdeal.HadMat

end
-- ==== Proof.KernPay.lean ====
/-
  The kernel body's arithmetic, read at one element.

  Per block of 256 matrices X[r] of 64×64 the body computes T = X·H row by row (the 256·64 rows against the 64×64 matrix
  H), transposes each 64×64 result, multiplies by H again, transposes back and scales by a constant: at (r, j1, j2) that
  is  (Σ_{i1} (Σ_{i2} X[r, i1, i2] · H[i2, j2]) · H[i1, j1]) · c.  The two products have the same form — a stack of
  matrices flattened to rows, multiplied by H, reshaped back and transposed — so one lemma reads that form at an index
  (`stage_apply`) and the body is it twice.
-/
import proofs.«127082_j39934605918508_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx

/-- The rows-by-matrix product into the zero accumulator, read at (p, q): the sum over the contracted coordinate. -/
theorem matmul_rows_apply (lhs : FVec Ideal S16384x64 .bf16) (rhs : FVec Ideal S64x64 .bf16) (p : Fin 16384) (q : Fin 64) :
    matmul dot_S16384x64_S64x64_S16384x64_1_0_0_1_n_n none lhs rhs (constant S16384x64 .f32 0x00000000#32) (ix2 p q)
      = ∑ k : Fin 64, lhs (ix2 p k) * rhs (ix2 k q) := by
  show FloatOps.matmul dot_S16384x64_S64x64_S16384x64_1_0_0_1_n_n none lhs rhs (constant S16384x64 .f32 0x00000000#32) (ix2 p q) = _
  rw [Ideal.matmul_constant_zero_apply,
    ← Equiv.sum_comp (contrEquiv1 dot_S16384x64_S64x64_S16384x64_1_0_0_1_n_n 64 rfl rfl).symm]
  refine Finset.sum_congr rfl fun c _ => ?_
  have c2 := contrEquiv1_symm_val dot_S16384x64_S64x64_S16384x64_1_0_0_1_n_n 64 rfl rfl c
  have l2 : dot_S16384x64_S64x64_S16384x64_1_0_0_1_n_n.lhsIdx (ix2 p q) ((contrEquiv1 _ 64 rfl rfl).symm c) = ix2 p c := by
    funext ax; apply Fin.ext
    match ax with
    | ⟨0, _⟩ => simp [DotDims.lhsIdx, dot_S16384x64_S64x64_S16384x64_1_0_0_1_n_n]; rfl
    | ⟨1, _⟩ => simp [DotDims.lhsIdx, dot_S16384x64_S64x64_S16384x64_1_0_0_1_n_n]; exact c2
  have r2 : dot_S16384x64_S64x64_S16384x64_1_0_0_1_n_n.rhsIdx (ix2 p q) ((contrEquiv1 _ 64 rfl rfl).symm c) = ix2 c q := by
    funext ax; apply Fin.ext
    match ax with
    | ⟨0, _⟩ => simp [DotDims.rhsIdx, dot_S16384x64_S64x64_S16384x64_1_0_0_1_n_n]; exact c2
    | ⟨1, _⟩ => simp [DotDims.rhsIdx, dot_S16384x64_S64x64_S16384x64_1_0_0_1_n_n]; rfl
  rw [l2, r2]

/-- One half of the body: the stack `u` of 256 matrices flattened to 16384 rows, multiplied by `h`, read back as a
    stack and each matrix transposed. -/
abbrev stage (u : FVec Ideal S256x64x64 .f32) (h : FVec Ideal S64x64 .bf16) : FVec Ideal S256x64x64 .f32 :=
  transpose S256x64x64 [0, 2, 1]
    (shapeCast S256x64x64
      (matmul dot_S16384x64_S64x64_S16384x64_1_0_0_1_n_n none
        (shapeCast S16384x64 (truncf .bf16 u bitsLt_bf16_f32) shapeCasts_S256x64x64_S16384x64) h
        (constant S16384x64 .f32 0x00000000#32))
      shapeCasts_S16384x64_S256x64x64)
    transposes_S256x64x64_p0_2_1_S256x64x64

/-- At (r, a, b) it is row `b` of the matrix `u[r]` against column `a` of `h`. -/
theorem stage_apply (u : FVec Ideal S256x64x64 .f32) (h : FVec Ideal S64x64 .bf16) (r : Fin 256) (a b : Fin 64) :
    stage u h (ix3 r a b) = ∑ l : Fin 64, u (ix3 r b l) * h (ix2 l a) := by
  have hr := r.isLt
  have ha := a.isLt
  have hb := b.isLt
  refine (transpose_apply [0, 2, 1] _ transposes_S256x64x64_p0_2_1_S256x64x64 (ix3 r a b) (ix3 r b a) ?_).trans ?_
  · intro c
    match c with
    | ⟨0, _⟩ => rfl
    | ⟨1, _⟩ => rfl
    | ⟨2, _⟩ => rfl
  refine (shapeCast_apply _ shapeCasts_S16384x64_S256x64x64 (ix3 r b a)
    (ix2 (⟨r.val * 64 + b.val, by omega⟩ : Fin 16384) a) ?_).trans ?_
  · rw [Shape.rowMajor_val_two, Shape.rowMajor_val_three]
    show (r.val * 64 + b.val) * 64 + a.val = (r.val * 64 + b.val) * 64 + a.val
    rfl
  refine (matmul_rows_apply _ h _ a).trans ?_
  refine Finset.sum_congr rfl fun l _ => ?_
  refine congrArg (· * h (ix2 l a)) ?_
  refine (shapeCast_apply _ shapeCasts_S256x64x64_S16384x64 (ix2 (⟨r.val * 64 + b.val, by omega⟩ : Fin 16384) l)
    (ix3 r b l) ?_).trans ?_
  · rw [Shape.rowMajor_val_two, Shape.rowMajor_val_three]
    show (r.val * 64 + b.val) * 64 + l.val = (r.val * 64 + b.val) * 64 + l.val
    rfl
  rfl

/-- The body's result at (r, j1, j2). -/
theorem pay_apply (x0 : Vec Ideal S256x64x64 .f32) (x1 : Vec Ideal S64x64 .f32) (r : Fin 256) (j1 j2 : Fin 64) :
    k0_pay1 (F := Ideal) x0 x1 (ix3 r j1 j2)
      = (∑ i1 : Fin 64, (∑ i2 : Fin 64, x0 (ix3 r i1 i2) * x1 (ix2 i2 j2)) * x1 (ix2 i1 j1)) * Ideal.ofBits .f32 0x3C800000#32 := by
  have e : k0_pay1 (F := Ideal) x0 x1
      = mulf (stage (stage (shapeCast S256x64x64 x0 shapeCasts_S256x64x64_S256x64x64)
            (truncf .bf16 (shapeCast S64x64 x1 shapeCasts_S64x64_S64x64) bitsLt_bf16_f32))
          (truncf .bf16 (shapeCast S64x64 x1 shapeCasts_S64x64_S64x64) bitsLt_bf16_f32))
        (broadcast S256x64x64 (Scalar.ofBits .f32 0x3C800000#32)) := rfl
  rw [e, shapeCast_self, shapeCast_self]
  show stage (stage x0 (truncf .bf16 x1 bitsLt_bf16_f32)) (truncf .bf16 x1 bitsLt_bf16_f32) (ix3 r j1 j2)
      * Ideal.ofBits .f32 0x3C800000#32 = _
  refine congrArg (· * Ideal.ofBits .f32 0x3C800000#32) ?_
  refine (stage_apply _ _ r j1 j2).trans ?_
  refine Finset.sum_congr rfl fun i1 _ => ?_
  refine congrArg (· * x1 (ix2 i1 j1)) ?_
  exact stage_apply x0 _ r j2 i1

end Cert.KernelIdeal.Pay

end
-- ==== Proof.KernValue.lean ====
/-
  The kernel program's result, read off its run.

  The output array of the one kernel region is written block by block: grid point `t` (of 32) writes rows
  `256·t … 256·t + 255` of the 8192 rows, each entry the body's arithmetic of the point's input blocks — rows
  `256·t …` of the reshaped argument, and the whole 64×64 matrix. So block `t` of the output is block `t` of ONE
  whole-array function `Gk X H` (the two-sided matrix product per row), the blocks cover the array, and the array
  ends at `Gk X H`. The host reshape after the region then reads it back as [2, 4096, 4096].
-/
import proofs.«127082_j39934605918508_1_alg».proof.Proof.Gen.KernelIdeal.Frame
import proofs.«127082_j39934605918508_1_alg».proof.Proof.KernSpec
import proofs.«127082_j39934605918508_1_alg».proof.Proof.KernPay
import Idealize.ShloMosaic.Lib.Pipeline.Value
import Idealize.ShloMosaic.Lib.StableHlo.Run
import Idealize.ShloMosaic.Lib.ValueIdx

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx Idealize.ShloMosaic.StableHlo Cert.Had
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the 32 grid points: the row-block windows sit at block `t`, the matrix window at 0. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- One entry of a point's result is the whole-array function at the entry's place in the array: over variables of
    the literal block types, with the blocks' contents given by hypotheses. -/
theorem point_entry (X : S8192x64x64.Idx → EReal) (Hm : S64x64.Idx → EReal)
    (x0 : Vec Ideal S256x64x64 .f32) (x1 : Vec Ideal S64x64 .f32) (tv : ℕ) (htv : tv < 32)
    (hx0 : ∀ (r : Fin 256) (i1 i2 : Fin 64), x0 (ix3 r i1 i2) = X (ix3 ⟨tv * 256 + r.val, by omega⟩ i1 i2))
    (hx1 : ∀ a b : Fin 64, x1 (ix2 a b) = Hm (ix2 a b))
    (r : Fin 256) (j1 j2 : Fin 64) :
    k0_pay1 (F := Ideal) x0 x1 (ix3 r j1 j2) = Gk X Hm (ix3 ⟨tv * 256 + r.val, by omega⟩ j1 j2) := by
  rw [Cert.KernelIdeal.Pay.pay_apply, Gk_apply]
  unfold GkAt
  refine congrArg (· * Ideal.ofBits .f32 0x3C800000#32) ?_
  refine Finset.sum_congr rfl fun i1 _ => ?_
  rw [hx1 i1 j1]
  refine congrArg (· * Hm (ix2 i1 j1)) ?_
  refine Finset.sum_congr rfl fun i2 _ => ?_
  rw [hx0 r i1 i2, hx1 i2 j2]

/-- Window 0's block at point `t` holds rows `256·t …` of the reshaped argument. -/
theorem iblk0_apply (c : Dev nD) (t : Fin cfg0.N) (r : Fin 256) (i1 i2 : Fin 64) :
    iblk m c 0 t (ix3 r i1 i2) = (V m c main_v0 : S8192x64x64.Idx → EReal) (ix3 ⟨t.val * 256 + r.val, by have := t.isLt; have : cfg0.N = 32 := rfl; omega⟩ i1 i2) := by
  obtain ⟨e0, e1, e2, -⟩ := idx_facts t
  show V m c main_v0 (((cfg0.win 0).blk t).view.emb (ix3 r i1 i2)) = _
  refine congrArg (V m c main_v0) ?_
  funext a; apply Fin.ext
  match a with
  | ⟨0, _⟩ => show win0_0.index t (0 : Fin 3) * 256 + 1 * r.val = t.val * 256 + r.val; omega
  | ⟨1, _⟩ => show win0_0.index t (1 : Fin 3) * 64 + 1 * i1.val = i1.val; omega
  | ⟨2, _⟩ => show win0_0.index t (2 : Fin 3) * 64 + 1 * i2.val = i2.val; omega

/-- Window 1's block at any point is the whole 64×64 matrix. -/
theorem iblk1_apply (c : Dev nD) (t : Fin cfg0.N) (a b : Fin 64) :
    iblk m c 1 t (ix2 a b) = (V m c main_v5 : S64x64.Idx → EReal) (ix2 a b) := by
  obtain ⟨-, -, -, e0, e1, -⟩ := idx_facts t
  show V m c main_v5 (((cfg0.win 1).blk t).view.emb (ix2 a b)) = _
  refine congrArg (V m c main_v5) ?_
  funext d; apply Fin.ext
  match d with
  | ⟨0, _⟩ => show win0_1.index t (0 : Fin 2) * 64 + 1 * a.val = a.val; omega
  | ⟨1, _⟩ => show win0_1.index t (1 : Fin 2) * 64 + 1 * b.val = b.val; omega

/-- What point `t` writes back is block `t` of the whole-array function. -/
theorem flushed_eq (c : Dev nD) (t : Fin cfg0.N) :
    (dats m 0 c).flushed 2 t = ((cfg0.win 2).blk t).view.read (Elt Ideal) (Gk (V m c main_v0) (V m c main_v5)) := by
  show (cfg0.win 2).cut (grid0.coords t) ((dats m 0 c).after 2 t) = _
  rw [after0_2]
  unfold out0_2
  rw [View.canon_unit_zero hz3]
  simp only [View.ld_unit_zero (S := S256x64x64) hz3, View.ld_unit_zero (S := S64x64) hz2]
  obtain ⟨-, -, -, -, -, e0, e1, e2⟩ := idx_facts t
  have ht : t.val < 32 := t.isLt
  funext y
  obtain ⟨r, j1, j2, rfl⟩ : ∃ (r : Fin 256) (j1 j2 : Fin 64), y = ix3 r j1 j2 := ⟨y 0, y 1, y 2, eq_ix3 y⟩
  show k0_pay1 (F := Ideal) (iblk m c 0 t) (iblk m c 1 t) (ix3 r j1 j2) = Gk (V m c main_v0) (V m c main_v5) (((cfg0.win 2).blk t).view.emb (ix3 r j1 j2))
  refine (point_entry (V m c main_v0) (V m c main_v5) (iblk m c 0 t) (iblk m c 1 t) t.val ht
    (fun r i1 i2 => iblk0_apply m c t r i1 i2) (fun a b => iblk1_apply m c t a b) r j1 j2).trans ?_
  refine congrArg (Gk (V m c main_v0) (V m c main_v5)) ?_
  funext a; apply Fin.ext
  match a with
  | ⟨0, _⟩ => show t.val * 256 + r.val = win0_2.index t (0 : Fin 3) * 256 + 1 * r.val; omega
  | ⟨1, _⟩ => show j1.val = win0_2.index t (1 : Fin 3) * 64 + 1 * j1.val; omega
  | ⟨2, _⟩ => show j2.val = win0_2.index t (2 : Fin 3) * 64 + 1 * j2.val; omega

/-- An index of the output array is in point `t`'s block iff each coordinate is in the block's range on its axis. -/
theorem mem_blk (t : Fin cfg0.N) (i : S8192x64x64.Idx) :
    i ∈ ((cfg0.win 2).blk t).view.set ↔ ∀ a : Fin 3, win0_2.index t a * S256x64x64.size a ≤ (i a).val ∧ (i a).val < win0_2.index t a * S256x64x64.size a + S256x64x64.size a := by
  show i ∈ ((View.whole main_v6).slice (win0_2.rect t)).set ↔ _
  rw [View.set_slice_whole, Rect.mem_set_unit]
  exact Iff.rfl

/-- Every row is in the block of the point `row / 256`. -/
theorem cover (i : S8192x64x64.Idx) : ∃ t : Fin cfg0.N, (cfg0.win 2).flush t = true ∧ i ∈ ((cfg0.win 2).blk t).view.set := by
  have hi0 : (i 0).val < 8192 := (i 0).isLt
  have hi1 : (i 1).val < 64 := (i 1).isLt
  have hi2 : (i 2).val < 64 := (i 2).isLt
  refine ⟨⟨(i 0).val / 256, by show (i 0).val / 256 < 32; omega⟩, flush0_2 _, ?_⟩
  rw [mem_blk]
  obtain ⟨-, -, -, -, -, e0, e1, e2⟩ := idx_facts ⟨(i 0).val / 256, by show (i 0).val / 256 < 32; omega⟩
  intro a
  match a with
  | ⟨0, _⟩ => show win0_2.index _ (0 : Fin 3) * 256 ≤ (i 0).val ∧ (i 0).val < win0_2.index _ (0 : Fin 3) * 256 + 256; rw [e0]; show (i 0).val / 256 * 256 ≤ (i 0).val ∧ (i 0).val < (i 0).val / 256 * 256 + 256; omega
  | ⟨1, _⟩ => show win0_2.index _ (1 : Fin 3) * 64 ≤ (i 1).val ∧ (i 1).val < win0_2.index _ (1 : Fin 3) * 64 + 64; rw [e1]; omega
  | ⟨2, _⟩ => show win0_2.index _ (2 : Fin 3) * 64 ≤ (i 2).val ∧ (i 2).val < win0_2.index _ (2 : Fin 3) * 64 + 64; rw [e2]; omega

/-- The output array after the region is the whole-array function of the region-entry arrays. -/
theorem final (c : Dev nD) : (dats m 0 c).arrAt 2 cfg0.N = Gk (V m c main_v0) (V m c main_v5) :=
  (dats m 0 c).arrAt_eq_of_cover 2 (Gk (V m c main_v0) (V m c main_v5)) (fun t _ => flushed_eq m c t) cover

end Cert.KernelIdeal.KVal

namespace Cert.KernelIdeal.KVal

open Cert.KernelIdeal Cert.KernelIdeal.Gen Idealize.ShloMosaic Idealize.ShloMosaic.TcCoe Idealize.SL.Sem
open Idealize.ShloMosaic.ValueIdx Idealize.ShloMosaic.StableHlo Cert.Had
open Idealize.ShloMosaic.Pipeline (Dat)

variable (m : (ℓ : Loc nD τ sig) → Buf (Elt Ideal) ℓ) (ρ : Dev nD → PrngReg)

/-- Where the lines after the region find the output array: at the whole-array function. -/
theorem arr_v6 (c : Dev nD) :
    Pipeline.withArrays (cfgs 0).spec c (V0 m c) (fun w => (dats m 0 c).arrAt w (cfgs 0).N) (Proc.devRef .tc main_v6)
      = Gk (V m c main_v0) (V m c main_v5) :=
  (Pipeline.withArrays_arr spec0 launch0.win.arr_inj c _ _ 2).trans (final m c)

/-- The host reshape after the region reads the output array back as [2, 4096, 4096]. -/
theorem tail_v7 (c : Dev nD) :
    Pipeline.afterTail₀ cfgs (dats m) 0 (V0 m) [hostOps1] c main_v7
      = shapeCast S2x4096x4096 (Gk (V m c main_v0) (V m c main_v5)) shapeCasts_S8192x64x64_S2x4096x4096 := by
  unfold Pipeline.afterTail₀
  show StableHlo.after hostOps1 _ (Proc.devRef .tc main_v7) = _
  after_results
  rw [arr_v6]
  rfl

/-- The kernel program's run: the result buffer ends at the reshape of the whole-array function of the region-entry
    arrays, the argument unchanged. -/
theorem run_value : θ_run (defs (F := Ideal)) (onTc (τ := τ) (main (F := Ideal))) ⟨m, fun _ => 0, ρ⟩ fun r => ∀ c : Dev nD,
      r.2.mem ((c : Thread nD τ).loc main_v7) = shapeCast S2x4096x4096 (Gk (V m c main_v0) (V m c main_v5)) shapeCasts_S8192x64x64_S2x4096x4096
      ∧ r.2.mem ((c : Thread nD τ).loc main_arg0) = m ((c : Thread nD τ).loc main_arg0) :=
  (θ_run defs _ _).mono (fun r h c =>
      ⟨((h c).2 main_v7 (Pipeline.mem_restRefs_of main_v7 (by decide) (by decide))).trans (tail_v7 m c),
       ((h c).2 main_arg0 (Pipeline.mem_restRefs_of main_arg0 (by decide) (by decide))).trans (W_main_arg0 m (dats m) c)⟩)
    (run_main m ρ)

end Cert.KernelIdeal.KVal

end
-- ==== Proof.FiniteFlat.lean ====
/-
  From the precondition "every entry of the input has absolute value below +∞" to "every entry is a real number":
  the input array then holds, at every index, the real number read off its row-major position.
-/
import proofs.«127082_j39934605918508_1_alg».proof.Proof.HadDefs
import proofs.«127082_j39934605918508_1_alg».proof.Pre_finite_inputs
import Idealize.ShloMosaic.Lib.ReduceAll

noncomputable section

namespace Cert.Had

open Idealize.ShloMosaic Idealize.ShloMosaic.ValueIdx

/-- The scalar shape has one index. -/
instance : Subsingleton Cert.Pre_finite_inputs.S_.Idx := ⟨fun a b => funext fun d => d.elim0⟩

/-- The word 0x7F800000 is +∞. -/
theorem ofBits_inf : Ideal.ofBits .f32 0x7F800000#32 = (⊤ : EReal) := by
  simp [Ideal.ofBits, Ideal.ieee]

/-- A strict comparison that answers 1 holds. -/
theorem lt_of_cmp_olt (a b : EReal) (h : Ideal.cmp .olt a b = 1#1) : a < b := by
  by_contra hn
  have h0 : Ideal.cmp .olt a b = 0#1 := by simp [Ideal.cmp, hn]
  rw [h0] at h
  exact absurd h (by decide)

/-- An extended real whose absolute value is below +∞ is a real number. -/
theorem real_of_abs_lt_top (a : EReal) (h : max a (-a) < ⊤) : ∃ r : ℝ, a = (r : EReal) := by
  induction a using EReal.rec
  · simp at h
  · exact ⟨_, rfl⟩
  · simp at h

theorem flat_of_pre [Cert.Pre_finite_inputs.Facts] (x : FVec Ideal Cert.Pre_finite_inputs.S2x4096x4096 .f32)
    (h : Cert.Pre_finite_inputs.fn (F := Ideal) x = fun _ => 1#1) :
    ∃ g : ℕ → ℝ, FlatIs (S := Cert.Pre_finite_inputs.S2x4096x4096) x g := by
  have h0 := congrFun h ValueIdx.ix0
  dsimp only [Cert.Pre_finite_inputs.fn] at h0
  have hel : ∀ i : Cert.Pre_finite_inputs.S2x4096x4096.Idx, ∃ r : ℝ, x i = (r : EReal) := by
    intro i
    have hi := Host.reduce_andi_all _ _ _ _ _ h0 i
    have hc : Ideal.cmp .olt (max (x i) (-(x i))) (Ideal.ofBits .f32 0x7F800000#32) = 1#1 := hi
    have hlt := lt_of_cmp_olt _ _ hc
    rw [ofBits_inf] at hlt
    exact real_of_abs_lt_top (x i) hlt
  refine ⟨fun n => if hn : n < Cert.Pre_finite_inputs.S2x4096x4096.numel
    then EReal.toReal (x (Cert.Pre_finite_inputs.S2x4096x4096.rowMajor.symm ⟨n, hn⟩)) else 0, ?_⟩
  intro k
  obtain ⟨r, hr⟩ := hel k
  have hk : (Cert.Pre_finite_inputs.S2x4096x4096.rowMajor k).val < Cert.Pre_finite_inputs.S2x4096x4096.numel :=
    (Cert.Pre_finite_inputs.S2x4096x4096.rowMajor k).isLt
  beta_reduce
  rw [dif_pos hk, Fin.eta, Equiv.symm_apply_apply, hr, EReal.toReal_coe]

end Cert.Had

end
-- ==== Proof.RefStage.lean ====
/-
  One butterfly stage of the reference program, read on the flat contents of its array.

  The reference views the flat array as [R, Q, 2, H], takes the two halves along the axis of size two, forms their sum
  and their difference, and lays the two results side by side along that axis again. At the row-major position
  ((r·Q + q)·2 + s)·H + t this is the sum of the entries at s = 0 and s = 1 when s = 0, and their difference when
  s = 1: one butterfly stage at distance H on the flat array.
-/
import proofs.«127082_j39934605918508_1_alg».proof.Proof.HadDefs
import Idealize.ShloMosaic.Lib.Pipeline.Value
import Idealize.ShloMosaic.Lib.ValueIdx

noncomputable section

namespace Cert.ReferenceIdeal.RefFlat

open Idealize.ShloMosaic Idealize.ShloMosaic.ValueIdx Cert.Had

/-- The quotient of a·H + t by H is a when t < H. -/
theorem mul_add_div (a H t : ℕ) (ht : t < H) : (a * H + t) / H = a := by
  rw [Nat.add_comm, Nat.add_mul_div_right _ _ (by omega : 0 < H), Nat.div_eq_of_lt ht, Nat.zero_add]

/-- The butterfly at a position whose bit of weight H is clear: the sum of the pair. -/
theorem bfly_lo (H : ℕ) (g : ℕ → ℝ) (a t : ℕ) (ht : t < H) :
    bfly H g ((a * 2 + 0) * H + t) = g ((a * 2 + 0) * H + t) + g ((a * 2 + 1) * H + t) := by
  unfold bfly
  rw [mul_add_div _ _ _ ht, if_pos (by omega)]
  congr 2
  ring

/-- The butterfly at a position whose bit of weight H is set: the difference of the pair. -/
theorem bfly_hi (H : ℕ) (g : ℕ → ℝ) (a t : ℕ) (ht : t < H) :
    bfly H g ((a * 2 + 1) * H + t) = g ((a * 2 + 0) * H + t) - g ((a * 2 + 1) * H + t) := by
  unfold bfly
  rw [mul_add_div _ _ _ ht, if_neg (by omega)]
  congr 2
  have : (a * 2 + 1) * H + t = (a * 2 + 0) * H + t + H := by ring
  rw [this, Nat.add_sub_cancel]

/-- A coordinate is its own value, or zero on an axis of size one (where it is zero anyway). -/
theorem val_eq_ite {n : ℕ} (x : Fin n) : x.val = if n = 1 then 0 else x.val := by
  split_ifs with h
  · subst h; exact Fin.val_eq_zero x
  · rfl

/-- ONE STAGE. If the array of shape [R, Q, 2, H] holds g flat, then the concatenation along the axis of size two of
    (sum of the two halves) and (difference of the two halves) holds the butterfly of g at distance H. The shape
    relations are taken as they come: any proofs of them will do. -/
theorem stage (R Q H : ℕ) (v : (⟨4, ![R, Q, 2, H]⟩ : Shape).Idx → EReal) (g : ℕ → ℝ)
    (hs0 : (⟨4, ![R, Q, 2, H]⟩ : Shape).Slices ![0, 0, 0, 0] ⟨4, ![R, Q, 1, H]⟩)
    (hs1 : (⟨4, ![R, Q, 2, H]⟩ : Shape).Slices ![0, 0, 1, 0] ⟨4, ![R, Q, 1, H]⟩)
    (hc : (⟨4, ![R, Q, 1, H]⟩ : Shape).ShapeCasts ⟨3, ![R, Q, H]⟩)
    (hb : (⟨3, ![R, Q, H]⟩ : Shape).BroadcastsInDim ⟨4, ![R, Q, 1, H]⟩ (![0, 1, 3] : Fin 3 → Fin 4))
    (hcat : Shape.Concatenates [(⟨4, ![R, Q, 1, H]⟩ : Shape), ⟨4, ![R, Q, 1, H]⟩] ⟨4, ![R, Q, 2, H]⟩ (2 : Fin 4))
    (hv : FlatIs v g) :
    FlatIs (S := ⟨4, ![R, Q, 2, H]⟩)
      (concatenate ⟨4, ![R, Q, 2, H]⟩ (2 : Fin 4)
        [⟨⟨4, ![R, Q, 1, H]⟩, broadcastInDim ⟨4, ![R, Q, 1, H]⟩ (![0, 1, 3] : Fin 3 → Fin 4) hb
            (addf (F := Ideal) (φ := .f32)
              (shapeCast ⟨3, ![R, Q, H]⟩ (extractStridedSlice ⟨4, ![R, Q, 1, H]⟩ ![0, 0, 0, 0] v hs0) hc)
              (shapeCast ⟨3, ![R, Q, H]⟩ (extractStridedSlice ⟨4, ![R, Q, 1, H]⟩ ![0, 0, 1, 0] v hs1) hc))⟩,
         ⟨⟨4, ![R, Q, 1, H]⟩, broadcastInDim ⟨4, ![R, Q, 1, H]⟩ (![0, 1, 3] : Fin 3 → Fin 4) hb
            (subf (F := Ideal) (φ := .f32)
              (shapeCast ⟨3, ![R, Q, H]⟩ (extractStridedSlice ⟨4, ![R, Q, 1, H]⟩ ![0, 0, 0, 0] v hs0) hc)
              (shapeCast ⟨3, ![R, Q, H]⟩ (extractStridedSlice ⟨4, ![R, Q, 1, H]⟩ ![0, 0, 1, 0] v hs1) hc))⟩] hcat)
      (bfly H g) := by
  intro k
  obtain ⟨r, q, s, t, rfl⟩ : ∃ (r : Fin R) (q : Fin Q) (s : Fin 2) (t : Fin H), k = ix4 r q s t :=
    ⟨k 0, k 1, k 2, k 3, eq_ix4 k⟩
  -- the two entries of the pair, read through the slice, the reshape and the broadcast
  have e0 : shapeCast ⟨3, ![R, Q, H]⟩ (extractStridedSlice ⟨4, ![R, Q, 1, H]⟩ ![0, 0, 0, 0] v hs0) hc (ix3 r q t)
      = ((g ((((r.val * Q + q.val) * 2 + 0) * H + t.val)) : ℝ) : EReal) := by
    refine (shapeCast_apply _ hc (ix3 r q t) (ix4 r q (⟨0, Nat.one_pos⟩ : Fin 1) t) ?_).trans ?_
    · rw [Shape.rowMajor_val_four, Shape.rowMajor_val_three]
      show ((r.val * Q + q.val) * 1 + 0) * H + t.val = (r.val * Q + q.val) * H + t.val
      rw [Nat.mul_one, Nat.add_zero]
    refine (extractStridedSlice_apply _ v hs0 _ (ix4 r q (⟨0, Nat.two_pos⟩ : Fin 2) t) ?_).trans ?_
    · intro a
      match a with
      | ⟨0, _⟩ => exact (Nat.zero_add _).symm
      | ⟨1, _⟩ => exact (Nat.zero_add _).symm
      | ⟨2, _⟩ => rfl
      | ⟨3, _⟩ => exact (Nat.zero_add _).symm
    rw [hv, Shape.rowMajor_val_four]
    rfl
  have e1 : shapeCast ⟨3, ![R, Q, H]⟩ (extractStridedSlice ⟨4, ![R, Q, 1, H]⟩ ![0, 0, 1, 0] v hs1) hc (ix3 r q t)
      = ((g ((((r.val * Q + q.val) * 2 + 1) * H + t.val)) : ℝ) : EReal) := by
    refine (shapeCast_apply _ hc (ix3 r q t) (ix4 r q (⟨0, Nat.one_pos⟩ : Fin 1) t) ?_).trans ?_
    · rw [Shape.rowMajor_val_four, Shape.rowMajor_val_three]
      show ((r.val * Q + q.val) * 1 + 0) * H + t.val = (r.val * Q + q.val) * H + t.val
      rw [Nat.mul_one, Nat.add_zero]
    refine (extractStridedSlice_apply _ v hs1 _ (ix4 r q (⟨1, Nat.one_lt_two⟩ : Fin 2) t) ?_).trans ?_
    · intro a
      match a with
      | ⟨0, _⟩ => exact (Nat.zero_add _).symm
      | ⟨1, _⟩ => exact (Nat.zero_add _).symm
      | ⟨2, _⟩ => rfl
      | ⟨3, _⟩ => exact (Nat.zero_add _).symm
    rw [hv, Shape.rowMajor_val_four]
    rfl
  have hbc : ∀ (x : (⟨3, ![R, Q, H]⟩ : Shape).Idx → EReal) (z : Fin 1),
      broadcastInDim ⟨4, ![R, Q, 1, H]⟩ (![0, 1, 3] : Fin 3 → Fin 4) hb x (ix4 r q z t) = x (ix3 r q t) := fun x z => by
    refine broadcastInDim_apply _ hb x _ (ix3 r q t) ?_
    intro a
    match a with
    | ⟨0, _⟩ => exact val_eq_ite r
    | ⟨1, _⟩ => exact val_eq_ite q
    | ⟨2, _⟩ => exact val_eq_ite t
  rw [Shape.rowMajor_val_four]
  show _ = ((bfly H g (((r.val * Q + q.val) * 2 + s.val) * H + t.val) : ℝ) : EReal)
  obtain ⟨s, hs⟩ := s
  have hs01 : s = 0 ∨ s = 1 := by omega
  rcases hs01 with rfl | rfl
  · -- the first half: the sum
    refine (concatenate_pair_apply_left (t := ⟨4, ![R, Q, 2, H]⟩) (2 : Fin 4) _ _ hcat _ rfl (ix4 r q (⟨0, Nat.one_pos⟩ : Fin 1) t) ?_).trans ?_
    · intro b
      match b with
      | ⟨0, _⟩ => rfl
      | ⟨1, _⟩ => rfl
      | ⟨2, _⟩ => rfl
      | ⟨3, _⟩ => rfl
    rw [hbc, addf_apply, e0, e1, bfly_lo H g _ _ t.isLt, EReal.coe_add]
  · -- the second half: the difference
    refine (concatenate_pair_apply_right (t := ⟨4, ![R, Q, 2, H]⟩) (2 : Fin 4) _ _ hcat _ rfl rfl (ix4 r q (⟨0, Nat.one_pos⟩ : Fin 1) t) ?_ ?_).trans ?_
    · intro b hb2
      match b, hb2 with
      | ⟨0, _⟩, _ => rfl
      | ⟨1, _⟩, _ => rfl
      | ⟨2, _⟩, hb2 => exact absurd rfl hb2
      | ⟨3, _⟩, _ => rfl
    · rfl
    rw [hbc, subf_apply, e0, e1, bfly_hi H g _ _ t.isLt, EReal.coe_sub]

end Cert.ReferenceIdeal.RefFlat

end
-- ==== Proof.RefRun.lean ====
/-
  The run of the reference program, followed stretch by stretch on the flat contents of its arrays.

  The reference is a straight line of 125 host operations. It is cut into fourteen stretches: the two reshapes of the
  argument, the twelve butterfly stages (ten operations each: two slices of the view [8192, Q, 2, H], their reshapes, the
  sum and the difference, two broadcasts, the concatenation, the reshape to the next view), and the final product with
  the broadcast constant 1/64. The contents after the whole line are the contents after the last stretch run from the
  contents after the one before, and so on; over each stretch, from ANY contents whose input array holds g flat, the
  output array holds the butterfly of g flat (the stage lemma), and the argument is not written. Chaining the fourteen
  facts gives the result: the twelve butterflies of the argument's flat contents, times 1/64.
-/
import proofs.«127082_j39934605918508_1_alg».proof.Proof.RefStage
import proofs.«127082_j39934605918508_1_alg».proof.Proof.HadConsts
import proofs.«127082_j39934605918508_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem
  Idealize.ShloMosaic.StableHlo Cert.Had Cert.ReferenceIdeal.RefFlat

variable {F : FTy → Type} [FloatOps F]

/-! ## The program as a list of operations -/

/-- The 125 operations of the reference, in order. -/
abbrev ops : List (HloOp τ sig (Elt F)) :=
  [ reshape main_arg0 main_v0 rfl shapeCasts_S2x4096x4096_S8192x4096,
    reshape main_v0 main_v1 rfl shapeCasts_S8192x4096_S8192x2048x2x1,
    unary main_v1 main_v2 ((extractStridedSlice S8192x2048x1x1 ![0, 0, 0, 0] · slices_S8192x2048x2x1_S8192x2048x1x1_0_0_0_0) : (⟨S8192x2048x2x1, .f32⟩ : BufTy).Contents (Elt F) → (⟨S8192x2048x1x1, .f32⟩ : BufTy).Contents (Elt F)),
    reshape main_v2 main_v3 rfl shapeCasts_S8192x2048x1x1_S8192x2048x1,
    unary main_v1 main_v4 ((extractStridedSlice S8192x2048x1x1 ![0, 0, 1, 0] · slices_S8192x2048x2x1_S8192x2048x1x1_0_0_1_0) : (⟨S8192x2048x2x1, .f32⟩ : BufTy).Contents (Elt F) → (⟨S8192x2048x1x1, .f32⟩ : BufTy).Contents (Elt F)),
    reshape main_v4 main_v5 rfl shapeCasts_S8192x2048x1x1_S8192x2048x1,
    binary main_v3 main_v5 main_v6 (addf : (⟨S8192x2048x1, .f32⟩ : BufTy).Contents (Elt F) → (⟨S8192x2048x1, .f32⟩ : BufTy).Contents (Elt F) → (⟨S8192x2048x1, .f32⟩ : BufTy).Contents (Elt F)),
    binary main_v3 main_v5 main_v7 (subf : (⟨S8192x2048x1, .f32⟩ : BufTy).Contents (Elt F) → (⟨S8192x2048x1, .f32⟩ : BufTy).Contents (Elt F) → (⟨S8192x2048x1, .f32⟩ : BufTy).Contents (Elt F)),
    unary main_v6 main_v8 (broadcastInDim S8192x2048x1x1 ![0, 1, 3] bcast_S8192x2048x1_S8192x2048x1x1_0_1_3 : (⟨S8192x2048x1, .f32⟩ : BufTy).Contents (Elt F) → (⟨S8192x2048x1x1, .f32⟩ : BufTy).Contents (Elt F)),
    unary main_v7 main_v9 (broadcastInDim S8192x2048x1x1 ![0, 1, 3] bcast_S8192x2048x1_S8192x2048x1x1_0_1_3 : (⟨S8192x2048x1, .f32⟩ : BufTy).Contents (Elt F) → (⟨S8192x2048x1x1, .f32⟩ : BufTy).Contents (Elt F)),
    binary main_v8 main_v9 main_v10 ((fun a b => concatenate S8192x2048x2x1 2 [⟨S8192x2048x1x1, a⟩, ⟨S8192x2048x1x1, b⟩] concatenates_S8192x2048x1x1_S8192x2048x1x1_S8192x2048x2x1_d2) : (⟨S8192x2048x1x1, .f32⟩ : BufTy).Contents (Elt F) → (⟨S8192x2048x1x1, .f32⟩ : BufTy).Contents (Elt F) → (⟨S8192x2048x2x1, .f32⟩ : BufTy).Contents (Elt F)),
    reshape main_v10 main_v11 rfl shapeCasts_S8192x2048x2x1_S8192x1024x2x2,
    unary main_v11 main_v12 ((extractStridedSlice S8192x1024x1x2 ![0, 0, 0, 0] · slices_S8192x1024x2x2_S8192x1024x1x2_0_0_0_0) : (⟨S8192x1024x2x2, .f32⟩ : BufTy).Contents (Elt F) → (⟨S8192x1024x1x2, .f32⟩ : BufTy).Contents (Elt F)),
    reshape main_v12 main_v13 rfl shapeCasts_S8192x1024x1x2_S8192x1024x2,
    unary main_v11 main_v14 ((extractStridedSlice S8192x1024x1x2 ![0, 0, 1, 0] · slices_S8192x1024x2x2_S8192x1024x1x2_0_0_1_0) : (⟨S8192x1024x2x2, .f32⟩ : BufTy).Contents (Elt F) → (⟨S8192x1024x1x2, .f32⟩ : BufTy).Contents (Elt F)),
    reshape main_v14 main_v15 rfl shapeCasts_S8192x1024x1x2_S8192x1024x2,
    binary main_v13 main_v15 main_v16 (addf : (⟨S8192x1024x2, .f32⟩ : BufTy).Contents (Elt F) → (⟨S8192x1024x2, .f32⟩ : BufTy).Contents (Elt F) → (⟨S8192x1024x2, .f32⟩ : BufTy).Contents (Elt F)),
    binary main_v13 main_v15 main_v17 (subf : (⟨S8192x1024x2, .f32⟩ : BufTy).Contents (Elt F) → (⟨S8192x1024x2, .f32⟩ : BufTy).Contents (Elt F) → (⟨S8192x1024x2, .f32⟩ : BufTy).Contents (Elt F)),
    unary main_v16 main_v18 (broadcastInDim S8192x1024x1x2 ![0, 1, 3] bcast_S8192x1024x2_S8192x1024x1x2_0_1_3 : (⟨S8192x1024x2, .f32⟩ : BufTy).Contents (Elt F) → (⟨S8192x1024x1x2, .f32⟩ : BufTy).Contents (Elt F)),
    unary main_v17 main_v19 (broadcastInDim S8192x1024x1x2 ![0, 1, 3] bcast_S8192x1024x2_S8192x1024x1x2_0_1_3 : (⟨S8192x1024x2, .f32⟩ : BufTy).Contents (Elt F) → (⟨S8192x1024x1x2, .f32⟩ : BufTy).Contents (Elt F)),
    binary main_v18 main_v19 main_v20 ((fun a b => concatenate S8192x1024x2x2 2 [⟨S8192x1024x1x2, a⟩, ⟨S8192x1024x1x2, b⟩] concatenates_S8192x1024x1x2_S8192x1024x1x2_S8192x1024x2x2_d2) : (⟨S8192x1024x1x2, .f32⟩ : BufTy).Contents (Elt F) → (⟨S8192x1024x1x2, .f32⟩ : BufTy).Contents (Elt F) → (⟨S8192x1024x2x2, .f32⟩ : BufTy).Contents (Elt F)),
    reshape main_v20 main_v21 rfl shapeCasts_S8192x1024x2x2_S8192x512x2x4,
    unary main_v21 main_v22 ((extractStridedSlice S8192x512x1x4 ![0, 0, 0, 0] · slices_S8192x512x2x4_S8192x512x1x4_0_0_0_0) : (⟨S8192x512x2x4, .f32⟩ : BufTy).Contents (Elt F) → (⟨S8192x512x1x4, .f32⟩ : BufTy).Contents (Elt F)),
    reshape main_v22 main_v23 rfl shapeCasts_S8192x512x1x4_S8192x512x4,
    unary main_v21 main_v24 ((extractStridedSlice S8192x512x1x4 ![0, 0, 1, 0] · slices_S8192x512x2x4_S8192x512x1x4_0_0_1_0) : (⟨S8192x512x2x4, .f32⟩ : BufTy).Contents (Elt F) → (⟨S8192x512x1x4, .f32⟩ : BufTy).Contents (Elt F)),
    reshape main_v24 main_v25 rfl shapeCasts_S8192x512x1x4_S8192x512x4,
    binary main_v23 main_v25 main_v26 (addf : (⟨S8192x512x4, .f32⟩ : BufTy).Contents (Elt F) → (⟨S8192x512x4, .f32⟩ : BufTy).Contents (Elt F) → (⟨S8192x512x4, .f32⟩ : BufTy).Contents (Elt F)),
    binary main_v23 main_v25 main_v27 (subf : (⟨S8192x512x4, .f32⟩ : BufTy).Contents (Elt F) → (⟨S8192x512x4, .f32⟩ : BufTy).Contents (Elt F) → (⟨S8192x512x4, .f32⟩ : BufTy).Contents (Elt F)),
    unary main_v26 main_v28 (broadcastInDim S8192x512x1x4 ![0, 1, 3] bcast_S8192x512x4_S8192x512x1x4_0_1_3 : (⟨S8192x512x4, .f32⟩ : BufTy).Contents (Elt F) → (⟨S8192x512x1x4, .f32⟩ : BufTy).Contents (Elt F)),
    unary main_v27 main_v29 (broadcastInDim S8192x512x1x4 ![0, 1, 3] bcast_S8192x512x4_S8192x512x1x4_0_1_3 : (⟨S8192x512x4, .f32⟩ : BufTy).Contents (Elt F) → (⟨S8192x512x1x4, .f32⟩ : BufTy).Contents (Elt F)),
    binary main_v28 main_v29 main_v30 ((fun a b => concatenate S8192x512x2x4 2 [⟨S8192x512x1x4, a⟩, ⟨S8192x512x1x4, b⟩] concatenates_S8192x512x1x4_S8192x512x1x4_S8192x512x2x4_d2) : (⟨S8192x512x1x4, .f32⟩ : BufTy).Contents (Elt F) → (⟨S8192x512x1x4, .f32⟩ : BufTy).Contents (Elt F) → (⟨S8192x512x2x4, .f32⟩ : BufTy).Contents (Elt F)),
    reshape main_v30 main_v31 rfl shapeCasts_S8192x512x2x4_S8192x256x2x8,
    unary main_v31 main_v32 ((extractStridedSlice S8192x256x1x8 ![0, 0, 0, 0] · slices_S8192x256x2x8_S8192x256x1x8_0_0_0_0) : (⟨S8192x256x2x8, .f32⟩ : BufTy).Contents (Elt F) → (⟨S8192x256x1x8, .f32⟩ : BufTy).Contents (Elt F)),
    reshape main_v32 main_v33 rfl shapeCasts_S8192x256x1x8_S8192x256x8,
    unary main_v31 main_v34 ((extractStridedSlice S8192x256x1x8 ![0, 0, 1, 0] · slices_S8192x256x2x8_S8192x256x1x8_0_0_1_0) : (⟨S8192x256x2x8, .f32⟩ : BufTy).Contents (Elt F) → (⟨S8192x256x1x8, .f32⟩ : BufTy).Contents (Elt F)),
    reshape main_v34 main_v35 rfl shapeCasts_S8192x256x1x8_S8192x256x8,
    binary main_v33 main_v35 main_v36 (addf : (⟨S8192x256x8, .f32⟩ : BufTy).Contents (Elt F) → (⟨S8192x256x8, .f32⟩ : BufTy).Contents (Elt F) → (⟨S8192x256x8, .f32⟩ : BufTy).Contents (Elt F)),
    binary main_v33 main_v35 main_v37 (subf : (⟨S8192x256x8, .f32⟩ : BufTy).Contents (Elt F) → (⟨S8192x256x8, .f32⟩ : BufTy).Contents (Elt F) → (⟨S8192x256x8, .f32⟩ : BufTy).Contents (Elt F)),
    unary main_v36 main_v38 (broadcastInDim S8192x256x1x8 ![0, 1, 3] bcast_S8192x256x8_S8192x256x1x8_0_1_3 : (⟨S8192x256x8, .f32⟩ : BufTy).Contents (Elt F) → (⟨S8192x256x1x8, .f32⟩ : BufTy).Contents (Elt F)),
    unary main_v37 main_v39 (broadcastInDim S8192x256x1x8 ![0, 1, 3] bcast_S8192x256x8_S8192x256x1x8_0_1_3 : (⟨S8192x256x8, .f32⟩ : BufTy).Contents (Elt F) → (⟨S8192x256x1x8, .f32⟩ : BufTy).Contents (Elt F)),
    binary main_v38 main_v39 main_v40 ((fun a b => concatenate S8192x256x2x8 2 [⟨S8192x256x1x8, a⟩, ⟨S8192x256x1x8, b⟩] concatenates_S8192x256x1x8_S8192x256x1x8_S8192x256x2x8_d2) : (⟨S8192x256x1x8, .f32⟩ : BufTy).Contents (Elt F) → (⟨S8192x256x1x8, .f32⟩ : BufTy).Contents (Elt F) → (⟨S8192x256x2x8, .f32⟩ : BufTy).Contents (Elt F)),
    reshape main_v40 main_v41 rfl shapeCasts_S8192x256x2x8_S8192x128x2x16,
    unary main_v41 main_v42 ((extractStridedSlice S8192x128x1x16 ![0, 0, 0, 0] · slices_S8192x128x2x16_S8192x128x1x16_0_0_0_0) : (⟨S8192x128x2x16, .f32⟩ : BufTy).Contents (Elt F) → (⟨S8192x128x1x16, .f32⟩ : BufTy).Contents (Elt F)),
    reshape main_v42 main_v43 rfl shapeCasts_S8192x128x1x16_S8192x128x16,
    unary main_v41 main_v44 ((extractStridedSlice S8192x128x1x16 ![0, 0, 1, 0] · slices_S8192x128x2x16_S8192x128x1x16_0_0_1_0) : (⟨S8192x128x2x16, .f32⟩ : BufTy).Contents (Elt F) → (⟨S8192x128x1x16, .f32⟩ : BufTy).Contents (Elt F)),
    reshape main_v44 main_v45 rfl shapeCasts_S8192x128x1x16_S8192x128x16,
    binary main_v43 main_v45 main_v46 (addf : (⟨S8192x128x16, .f32⟩ : BufTy).Contents (Elt F) → (⟨S8192x128x16, .f32⟩ : BufTy).Contents (Elt F) → (⟨S8192x128x16, .f32⟩ : BufTy).Contents (Elt F)),
    binary main_v43 main_v45 main_v47 (subf : (⟨S8192x128x16, .f32⟩ : BufTy).Contents (Elt F) → (⟨S8192x128x16, .f32⟩ : BufTy).Contents (Elt F) → (⟨S8192x128x16, .f32⟩ : BufTy).Contents (Elt F)),
    unary main_v46 main_v48 (broadcastInDim S8192x128x1x16 ![0, 1, 3] bcast_S8192x128x16_S8192x128x1x16_0_1_3 : (⟨S8192x128x16, .f32⟩ : BufTy).Contents (Elt F) → (⟨S8192x128x1x16, .f32⟩ : BufTy).Contents (Elt F)),
    unary main_v47 main_v49 (broadcastInDim S8192x128x1x16 ![0, 1, 3] bcast_S8192x128x16_S8192x128x1x16_0_1_3 : (⟨S8192x128x16, .f32⟩ : BufTy).Contents (Elt F) → (⟨S8192x128x1x16, .f32⟩ : BufTy).Contents (Elt F)),
    binary main_v48 main_v49 main_v50 ((fun a b => concatenate S8192x128x2x16 2 [⟨S8192x128x1x16, a⟩, ⟨S8192x128x1x16, b⟩] concatenates_S8192x128x1x16_S8192x128x1x16_S8192x128x2x16_d2) : (⟨S8192x128x1x16, .f32⟩ : BufTy).Contents (Elt F) → (⟨S8192x128x1x16, .f32⟩ : BufTy).Contents (Elt F) → (⟨S8192x128x2x16, .f32⟩ : BufTy).Contents (Elt F)),
    reshape main_v50 main_v51 rfl shapeCasts_S8192x128x2x16_S8192x64x2x32,
    unary main_v51 main_v52 ((extractStridedSlice S8192x64x1x32 ![0, 0, 0, 0] · slices_S8192x64x2x32_S8192x64x1x32_0_0_0_0) : (⟨S8192x64x2x32, .f32⟩ : BufTy).Contents (Elt F) → (⟨S8192x64x1x32, .f32⟩ : BufTy).Contents (Elt F)),
    reshape main_v52 main_v53 rfl shapeCasts_S8192x64x1x32_S8192x64x32,
    unary main_v51 main_v54 ((extractStridedSlice S8192x64x1x32 ![0, 0, 1, 0] · slices_S8192x64x2x32_S8192x64x1x32_0_0_1_0) : (⟨S8192x64x2x32, .f32⟩ : BufTy).Contents (Elt F) → (⟨S8192x64x1x32, .f32⟩ : BufTy).Contents (Elt F)),
    reshape main_v54 main_v55 rfl shapeCasts_S8192x64x1x32_S8192x64x32,
    binary main_v53 main_v55 main_v56 (addf : (⟨S8192x64x32, .f32⟩ : BufTy).Contents (Elt F) → (⟨S8192x64x32, .f32⟩ : BufTy).Contents (Elt F) → (⟨S8192x64x32, .f32⟩ : BufTy).Contents (Elt F)),
    binary main_v53 main_v55 main_v57 (subf : (⟨S8192x64x32, .f32⟩ : BufTy).Contents (Elt F) → (⟨S8192x64x32, .f32⟩ : BufTy).Contents (Elt F) → (⟨S8192x64x32, .f32⟩ : BufTy).Contents (Elt F)),
    unary main_v56 main_v58 (broadcastInDim S8192x64x1x32 ![0, 1, 3] bcast_S8192x64x32_S8192x64x1x32_0_1_3 : (⟨S8192x64x32, .f32⟩ : BufTy).Contents (Elt F) → (⟨S8192x64x1x32, .f32⟩ : BufTy).Contents (Elt F)),
    unary main_v57 main_v59 (broadcastInDim S8192x64x1x32 ![0, 1, 3] bcast_S8192x64x32_S8192x64x1x32_0_1_3 : (⟨S8192x64x32, .f32⟩ : BufTy).Contents (Elt F) → (⟨S8192x64x1x32, .f32⟩ : BufTy).Contents (Elt F)),
    binary main_v58 main_v59 main_v60 ((fun a b => concatenate S8192x64x2x32 2 [⟨S8192x64x1x32, a⟩, ⟨S8192x64x1x32, b⟩] concatenates_S8192x64x1x32_S8192x64x1x32_S8192x64x2x32_d2) : (⟨S8192x64x1x32, .f32⟩ : BufTy).Contents (Elt F) → (⟨S8192x64x1x32, .f32⟩ : BufTy).Contents (Elt F) → (⟨S8192x64x2x32, .f32⟩ : BufTy).Contents (Elt F)),
    reshape main_v60 main_v61 rfl shapeCasts_S8192x64x2x32_S8192x32x2x64,
    unary main_v61 main_v62 ((extractStridedSlice S8192x32x1x64 ![0, 0, 0, 0] · slices_S8192x32x2x64_S8192x32x1x64_0_0_0_0) : (⟨S8192x32x2x64, .f32⟩ : BufTy).Contents (Elt F) → (⟨S8192x32x1x64, .f32⟩ : BufTy).Contents (Elt F)),
    reshape main_v62 main_v63 rfl shapeCasts_S8192x32x1x64_S8192x32x64,
    unary main_v61 main_v64 ((extractStridedSlice S8192x32x1x64 ![0, 0, 1, 0] · slices_S8192x32x2x64_S8192x32x1x64_0_0_1_0) : (⟨S8192x32x2x64, .f32⟩ : BufTy).Contents (Elt F) → (⟨S8192x32x1x64, .f32⟩ : BufTy).Contents (Elt F)),
    reshape main_v64 main_v65 rfl shapeCasts_S8192x32x1x64_S8192x32x64,
    binary main_v63 main_v65 main_v66 (addf : (⟨S8192x32x64, .f32⟩ : BufTy).Contents (Elt F) → (⟨S8192x32x64, .f32⟩ : BufTy).Contents (Elt F) → (⟨S8192x32x64, .f32⟩ : BufTy).Contents (Elt F)),
    binary main_v63 main_v65 main_v67 (subf : (⟨S8192x32x64, .f32⟩ : BufTy).Contents (Elt F) → (⟨S8192x32x64, .f32⟩ : BufTy).Contents (Elt F) → (⟨S8192x32x64, .f32⟩ : BufTy).Contents (Elt F)),
    unary main_v66 main_v68 (broadcastInDim S8192x32x1x64 ![0, 1, 3] bcast_S8192x32x64_S8192x32x1x64_0_1_3 : (⟨S8192x32x64, .f32⟩ : BufTy).Contents (Elt F) → (⟨S8192x32x1x64, .f32⟩ : BufTy).Contents (Elt F)),
    unary main_v67 main_v69 (broadcastInDim S8192x32x1x64 ![0, 1, 3] bcast_S8192x32x64_S8192x32x1x64_0_1_3 : (⟨S8192x32x64, .f32⟩ : BufTy).Contents (Elt F) → (⟨S8192x32x1x64, .f32⟩ : BufTy).Contents (Elt F)),
    binary main_v68 main_v69 main_v70 ((fun a b => concatenate S8192x32x2x64 2 [⟨S8192x32x1x64, a⟩, ⟨S8192x32x1x64, b⟩] concatenates_S8192x32x1x64_S8192x32x1x64_S8192x32x2x64_d2) : (⟨S8192x32x1x64, .f32⟩ : BufTy).Contents (Elt F) → (⟨S8192x32x1x64, .f32⟩ : BufTy).Contents (Elt F) → (⟨S8192x32x2x64, .f32⟩ : BufTy).Contents (Elt F)),
    reshape main_v70 main_v71 rfl shapeCasts_S8192x32x2x64_S8192x16x2x128,
    unary main_v71 main_v72 ((extractStridedSlice S8192x16x1x128 ![0, 0, 0, 0] · slices_S8192x16x2x128_S8192x16x1x128_0_0_0_0) : (⟨S8192x16x2x128, .f32⟩ : BufTy).Contents (Elt F) → (⟨S8192x16x1x128, .f32⟩ : BufTy).Contents (Elt F)),
    reshape main_v72 main_v73 rfl shapeCasts_S8192x16x1x128_S8192x16x128,
    unary main_v71 main_v74 ((extractStridedSlice S8192x16x1x128 ![0, 0, 1, 0] · slices_S8192x16x2x128_S8192x16x1x128_0_0_1_0) : (⟨S8192x16x2x128, .f32⟩ : BufTy).Contents (Elt F) → (⟨S8192x16x1x128, .f32⟩ : BufTy).Contents (Elt F)),
    reshape main_v74 main_v75 rfl shapeCasts_S8192x16x1x128_S8192x16x128,
    binary main_v73 main_v75 main_v76 (addf : (⟨S8192x16x128, .f32⟩ : BufTy).Contents (Elt F) → (⟨S8192x16x128, .f32⟩ : BufTy).Contents (Elt F) → (⟨S8192x16x128, .f32⟩ : BufTy).Contents (Elt F)),
    binary main_v73 main_v75 main_v77 (subf : (⟨S8192x16x128, .f32⟩ : BufTy).Contents (Elt F) → (⟨S8192x16x128, .f32⟩ : BufTy).Contents (Elt F) → (⟨S8192x16x128, .f32⟩ : BufTy).Contents (Elt F)),
    unary main_v76 main_v78 (broadcastInDim S8192x16x1x128 ![0, 1, 3] bcast_S8192x16x128_S8192x16x1x128_0_1_3 : (⟨S8192x16x128, .f32⟩ : BufTy).Contents (Elt F) → (⟨S8192x16x1x128, .f32⟩ : BufTy).Contents (Elt F)),
    unary main_v77 main_v79 (broadcastInDim S8192x16x1x128 ![0, 1, 3] bcast_S8192x16x128_S8192x16x1x128_0_1_3 : (⟨S8192x16x128, .f32⟩ : BufTy).Contents (Elt F) → (⟨S8192x16x1x128, .f32⟩ : BufTy).Contents (Elt F)),
    binary main_v78 main_v79 main_v80 ((fun a b => concatenate S8192x16x2x128 2 [⟨S8192x16x1x128, a⟩, ⟨S8192x16x1x128, b⟩] concatenates_S8192x16x1x128_S8192x16x1x128_S8192x16x2x128_d2) : (⟨S8192x16x1x128, .f32⟩ : BufTy).Contents (Elt F) → (⟨S8192x16x1x128, .f32⟩ : BufTy).Contents (Elt F) → (⟨S8192x16x2x128, .f32⟩ : BufTy).Contents (Elt F)),
    reshape main_v80 main_v81 rfl shapeCasts_S8192x16x2x128_S8192x8x2x256,
    unary main_v81 main_v82 ((extractStridedSlice S8192x8x1x256 ![0, 0, 0, 0] · slices_S8192x8x2x256_S8192x8x1x256_0_0_0_0) : (⟨S8192x8x2x256, .f32⟩ : BufTy).Contents (Elt F) → (⟨S8192x8x1x256, .f32⟩ : BufTy).Contents (Elt F)),
    reshape main_v82 main_v83 rfl shapeCasts_S8192x8x1x256_S8192x8x256,
    unary main_v81 main_v84 ((extractStridedSlice S8192x8x1x256 ![0, 0, 1, 0] · slices_S8192x8x2x256_S8192x8x1x256_0_0_1_0) : (⟨S8192x8x2x256, .f32⟩ : BufTy).Contents (Elt F) → (⟨S8192x8x1x256, .f32⟩ : BufTy).Contents (Elt F)),
    reshape main_v84 main_v85 rfl shapeCasts_S8192x8x1x256_S8192x8x256,
    binary main_v83 main_v85 main_v86 (addf : (⟨S8192x8x256, .f32⟩ : BufTy).Contents (Elt F) → (⟨S8192x8x256, .f32⟩ : BufTy).Contents (Elt F) → (⟨S8192x8x256, .f32⟩ : BufTy).Contents (Elt F)),
    binary main_v83 main_v85 main_v87 (subf : (⟨S8192x8x256, .f32⟩ : BufTy).Contents (Elt F) → (⟨S8192x8x256, .f32⟩ : BufTy).Contents (Elt F) → (⟨S8192x8x256, .f32⟩ : BufTy).Contents (Elt F)),
    unary main_v86 main_v88 (broadcastInDim S8192x8x1x256 ![0, 1, 3] bcast_S8192x8x256_S8192x8x1x256_0_1_3 : (⟨S8192x8x256, .f32⟩ : BufTy).Contents (Elt F) → (⟨S8192x8x1x256, .f32⟩ : BufTy).Contents (Elt F)),
    unary main_v87 main_v89 (broadcastInDim S8192x8x1x256 ![0, 1, 3] bcast_S8192x8x256_S8192x8x1x256_0_1_3 : (⟨S8192x8x256, .f32⟩ : BufTy).Contents (Elt F) → (⟨S8192x8x1x256, .f32⟩ : BufTy).Contents (Elt F)),
    binary main_v88 main_v89 main_v90 ((fun a b => concatenate S8192x8x2x256 2 [⟨S8192x8x1x256, a⟩, ⟨S8192x8x1x256, b⟩] concatenates_S8192x8x1x256_S8192x8x1x256_S8192x8x2x256_d2) : (⟨S8192x8x1x256, .f32⟩ : BufTy).Contents (Elt F) → (⟨S8192x8x1x256, .f32⟩ : BufTy).Contents (Elt F) → (⟨S8192x8x2x256, .f32⟩ : BufTy).Contents (Elt F)),
    reshape main_v90 main_v91 rfl shapeCasts_S8192x8x2x256_S8192x4x2x512,
    unary main_v91 main_v92 ((extractStridedSlice S8192x4x1x512 ![0, 0, 0, 0] · slices_S8192x4x2x512_S8192x4x1x512_0_0_0_0) : (⟨S8192x4x2x512, .f32⟩ : BufTy).Contents (Elt F) → (⟨S8192x4x1x512, .f32⟩ : BufTy).Contents (Elt F)),
    reshape main_v92 main_v93 rfl shapeCasts_S8192x4x1x512_S8192x4x512,
    unary main_v91 main_v94 ((extractStridedSlice S8192x4x1x512 ![0, 0, 1, 0] · slices_S8192x4x2x512_S8192x4x1x512_0_0_1_0) : (⟨S8192x4x2x512, .f32⟩ : BufTy).Contents (Elt F) → (⟨S8192x4x1x512, .f32⟩ : BufTy).Contents (Elt F)),
    reshape main_v94 main_v95 rfl shapeCasts_S8192x4x1x512_S8192x4x512,
    binary main_v93 main_v95 main_v96 (addf : (⟨S8192x4x512, .f32⟩ : BufTy).Contents (Elt F) → (⟨S8192x4x512, .f32⟩ : BufTy).Contents (Elt F) → (⟨S8192x4x512, .f32⟩ : BufTy).Contents (Elt F)),
    binary main_v93 main_v95 main_v97 (subf : (⟨S8192x4x512, .f32⟩ : BufTy).Contents (Elt F) → (⟨S8192x4x512, .f32⟩ : BufTy).Contents (Elt F) → (⟨S8192x4x512, .f32⟩ : BufTy).Contents (Elt F)),
    unary main_v96 main_v98 (broadcastInDim S8192x4x1x512 ![0, 1, 3] bcast_S8192x4x512_S8192x4x1x512_0_1_3 : (⟨S8192x4x512, .f32⟩ : BufTy).Contents (Elt F) → (⟨S8192x4x1x512, .f32⟩ : BufTy).Contents (Elt F)),
    unary main_v97 main_v99 (broadcastInDim S8192x4x1x512 ![0, 1, 3] bcast_S8192x4x512_S8192x4x1x512_0_1_3 : (⟨S8192x4x512, .f32⟩ : BufTy).Contents (Elt F) → (⟨S8192x4x1x512, .f32⟩ : BufTy).Contents (Elt F)),
    binary main_v98 main_v99 main_v100 ((fun a b => concatenate S8192x4x2x512 2 [⟨S8192x4x1x512, a⟩, ⟨S8192x4x1x512, b⟩] concatenates_S8192x4x1x512_S8192x4x1x512_S8192x4x2x512_d2) : (⟨S8192x4x1x512, .f32⟩ : BufTy).Contents (Elt F) → (⟨S8192x4x1x512, .f32⟩ : BufTy).Contents (Elt F) → (⟨S8192x4x2x512, .f32⟩ : BufTy).Contents (Elt F)),
    reshape main_v100 main_v101 rfl shapeCasts_S8192x4x2x512_S8192x2x2x1024,
    unary main_v101 main_v102 ((extractStridedSlice S8192x2x1x1024 ![0, 0, 0, 0] · slices_S8192x2x2x1024_S8192x2x1x1024_0_0_0_0) : (⟨S8192x2x2x1024, .f32⟩ : BufTy).Contents (Elt F) → (⟨S8192x2x1x1024, .f32⟩ : BufTy).Contents (Elt F)),
    reshape main_v102 main_v103 rfl shapeCasts_S8192x2x1x1024_S8192x2x1024,
    unary main_v101 main_v104 ((extractStridedSlice S8192x2x1x1024 ![0, 0, 1, 0] · slices_S8192x2x2x1024_S8192x2x1x1024_0_0_1_0) : (⟨S8192x2x2x1024, .f32⟩ : BufTy).Contents (Elt F) → (⟨S8192x2x1x1024, .f32⟩ : BufTy).Contents (Elt F)),
    reshape main_v104 main_v105 rfl shapeCasts_S8192x2x1x1024_S8192x2x1024,
    binary main_v103 main_v105 main_v106 (addf : (⟨S8192x2x1024, .f32⟩ : BufTy).Contents (Elt F) → (⟨S8192x2x1024, .f32⟩ : BufTy).Contents (Elt F) → (⟨S8192x2x1024, .f32⟩ : BufTy).Contents (Elt F)),
    binary main_v103 main_v105 main_v107 (subf : (⟨S8192x2x1024, .f32⟩ : BufTy).Contents (Elt F) → (⟨S8192x2x1024, .f32⟩ : BufTy).Contents (Elt F) → (⟨S8192x2x1024, .f32⟩ : BufTy).Contents (Elt F)),
    unary main_v106 main_v108 (broadcastInDim S8192x2x1x1024 ![0, 1, 3] bcast_S8192x2x1024_S8192x2x1x1024_0_1_3 : (⟨S8192x2x1024, .f32⟩ : BufTy).Contents (Elt F) → (⟨S8192x2x1x1024, .f32⟩ : BufTy).Contents (Elt F)),
    unary main_v107 main_v109 (broadcastInDim S8192x2x1x1024 ![0, 1, 3] bcast_S8192x2x1024_S8192x2x1x1024_0_1_3 : (⟨S8192x2x1024, .f32⟩ : BufTy).Contents (Elt F) → (⟨S8192x2x1x1024, .f32⟩ : BufTy).Contents (Elt F)),
    binary main_v108 main_v109 main_v110 ((fun a b => concatenate S8192x2x2x1024 2 [⟨S8192x2x1x1024, a⟩, ⟨S8192x2x1x1024, b⟩] concatenates_S8192x2x1x1024_S8192x2x1x1024_S8192x2x2x1024_d2) : (⟨S8192x2x1x1024, .f32⟩ : BufTy).Contents (Elt F) → (⟨S8192x2x1x1024, .f32⟩ : BufTy).Contents (Elt F) → (⟨S8192x2x2x1024, .f32⟩ : BufTy).Contents (Elt F)),
    reshape main_v110 main_v111 rfl shapeCasts_S8192x2x2x1024_S8192x1x2x2048,
    unary main_v111 main_v112 ((extractStridedSlice S8192x1x1x2048 ![0, 0, 0, 0] · slices_S8192x1x2x2048_S8192x1x1x2048_0_0_0_0) : (⟨S8192x1x2x2048, .f32⟩ : BufTy).Contents (Elt F) → (⟨S8192x1x1x2048, .f32⟩ : BufTy).Contents (Elt F)),
    reshape main_v112 main_v113 rfl shapeCasts_S8192x1x1x2048_S8192x1x2048,
    unary main_v111 main_v114 ((extractStridedSlice S8192x1x1x2048 ![0, 0, 1, 0] · slices_S8192x1x2x2048_S8192x1x1x2048_0_0_1_0) : (⟨S8192x1x2x2048, .f32⟩ : BufTy).Contents (Elt F) → (⟨S8192x1x1x2048, .f32⟩ : BufTy).Contents (Elt F)),
    reshape main_v114 main_v115 rfl shapeCasts_S8192x1x1x2048_S8192x1x2048,
    binary main_v113 main_v115 main_v116 (addf : (⟨S8192x1x2048, .f32⟩ : BufTy).Contents (Elt F) → (⟨S8192x1x2048, .f32⟩ : BufTy).Contents (Elt F) → (⟨S8192x1x2048, .f32⟩ : BufTy).Contents (Elt F)),
    binary main_v113 main_v115 main_v117 (subf : (⟨S8192x1x2048, .f32⟩ : BufTy).Contents (Elt F) → (⟨S8192x1x2048, .f32⟩ : BufTy).Contents (Elt F) → (⟨S8192x1x2048, .f32⟩ : BufTy).Contents (Elt F)),
    unary main_v116 main_v118 (broadcastInDim S8192x1x1x2048 ![0, 1, 3] bcast_S8192x1x2048_S8192x1x1x2048_0_1_3 : (⟨S8192x1x2048, .f32⟩ : BufTy).Contents (Elt F) → (⟨S8192x1x1x2048, .f32⟩ : BufTy).Contents (Elt F)),
    unary main_v117 main_v119 (broadcastInDim S8192x1x1x2048 ![0, 1, 3] bcast_S8192x1x2048_S8192x1x1x2048_0_1_3 : (⟨S8192x1x2048, .f32⟩ : BufTy).Contents (Elt F) → (⟨S8192x1x1x2048, .f32⟩ : BufTy).Contents (Elt F)),
    binary main_v118 main_v119 main_v120 ((fun a b => concatenate S8192x1x2x2048 2 [⟨S8192x1x1x2048, a⟩, ⟨S8192x1x1x2048, b⟩] concatenates_S8192x1x1x2048_S8192x1x1x2048_S8192x1x2x2048_d2) : (⟨S8192x1x1x2048, .f32⟩ : BufTy).Contents (Elt F) → (⟨S8192x1x1x2048, .f32⟩ : BufTy).Contents (Elt F) → (⟨S8192x1x2x2048, .f32⟩ : BufTy).Contents (Elt F)),
    reshape main_v120 main_v121 rfl shapeCasts_S8192x1x2x2048_S2x4096x4096,
    nullary main_cst (constant S_ .f32 0x3C800000#32),
    unary main_cst main_v122 (broadcastInDim S2x4096x4096 ![] bcast_S_S2x4096x4096 : (⟨S_, .f32⟩ : BufTy).Contents (Elt F) → (⟨S2x4096x4096, .f32⟩ : BufTy).Contents (Elt F)),
    binary main_v121 main_v122 main_v123 (mulf : (⟨S2x4096x4096, .f32⟩ : BufTy).Contents (Elt F) → (⟨S2x4096x4096, .f32⟩ : BufTy).Contents (Elt F) → (⟨S2x4096x4096, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub .., nullary_bufs_sub .., unary_bufs_sub .., binary_bufs_sub ..⟩

/-! ## The fourteen stretches -/

/-- The two reshapes of the argument, to [8192, 4096] and to [8192, 2048, 2, 1]. -/
abbrev seg0 : List (HloOp τ sig (Elt F)) :=
  [ reshape main_arg0 main_v0 rfl shapeCasts_S2x4096x4096_S8192x4096,
    reshape main_v0 main_v1 rfl shapeCasts_S8192x4096_S8192x2048x2x1 ]

/-- The stage at distance 1: from the view [8192, 2048, 2, 1] to the view [8192, 1024, 2, 2]. -/
abbrev st0 : List (HloOp τ sig (Elt F)) :=
  [ unary main_v1 main_v2 ((extractStridedSlice S8192x2048x1x1 ![0, 0, 0, 0] · slices_S8192x2048x2x1_S8192x2048x1x1_0_0_0_0) : (⟨S8192x2048x2x1, .f32⟩ : BufTy).Contents (Elt F) → (⟨S8192x2048x1x1, .f32⟩ : BufTy).Contents (Elt F)),
    reshape main_v2 main_v3 rfl shapeCasts_S8192x2048x1x1_S8192x2048x1,
    unary main_v1 main_v4 ((extractStridedSlice S8192x2048x1x1 ![0, 0, 1, 0] · slices_S8192x2048x2x1_S8192x2048x1x1_0_0_1_0) : (⟨S8192x2048x2x1, .f32⟩ : BufTy).Contents (Elt F) → (⟨S8192x2048x1x1, .f32⟩ : BufTy).Contents (Elt F)),
    reshape main_v4 main_v5 rfl shapeCasts_S8192x2048x1x1_S8192x2048x1,
    binary main_v3 main_v5 main_v6 (addf : (⟨S8192x2048x1, .f32⟩ : BufTy).Contents (Elt F) → (⟨S8192x2048x1, .f32⟩ : BufTy).Contents (Elt F) → (⟨S8192x2048x1, .f32⟩ : BufTy).Contents (Elt F)),
    binary main_v3 main_v5 main_v7 (subf : (⟨S8192x2048x1, .f32⟩ : BufTy).Contents (Elt F) → (⟨S8192x2048x1, .f32⟩ : BufTy).Contents (Elt F) → (⟨S8192x2048x1, .f32⟩ : BufTy).Contents (Elt F)),
    unary main_v6 main_v8 (broadcastInDim S8192x2048x1x1 ![0, 1, 3] bcast_S8192x2048x1_S8192x2048x1x1_0_1_3 : (⟨S8192x2048x1, .f32⟩ : BufTy).Contents (Elt F) → (⟨S8192x2048x1x1, .f32⟩ : BufTy).Contents (Elt F)),
    unary main_v7 main_v9 (broadcastInDim S8192x2048x1x1 ![0, 1, 3] bcast_S8192x2048x1_S8192x2048x1x1_0_1_3 : (⟨S8192x2048x1, .f32⟩ : BufTy).Contents (Elt F) → (⟨S8192x2048x1x1, .f32⟩ : BufTy).Contents (Elt F)),
    binary main_v8 main_v9 main_v10 ((fun a b => concatenate S8192x2048x2x1 2 [⟨S8192x2048x1x1, a⟩, ⟨S8192x2048x1x1, b⟩] concatenates_S8192x2048x1x1_S8192x2048x1x1_S8192x2048x2x1_d2) : (⟨S8192x2048x1x1, .f32⟩ : BufTy).Contents (Elt F) → (⟨S8192x2048x1x1, .f32⟩ : BufTy).Contents (Elt F) → (⟨S8192x2048x2x1, .f32⟩ : BufTy).Contents (Elt F)),
    reshape main_v10 main_v11 rfl shapeCasts_S8192x2048x2x1_S8192x1024x2x2 ]

/-- The stage at distance 2: from the view [8192, 1024, 2, 2] to the view [8192, 512, 2, 4]. -/
abbrev st1 : List (HloOp τ sig (Elt F)) :=
  [ unary main_v11 main_v12 ((extractStridedSlice S8192x1024x1x2 ![0, 0, 0, 0] · slices_S8192x1024x2x2_S8192x1024x1x2_0_0_0_0) : (⟨S8192x1024x2x2, .f32⟩ : BufTy).Contents (Elt F) → (⟨S8192x1024x1x2, .f32⟩ : BufTy).Contents (Elt F)),
    reshape main_v12 main_v13 rfl shapeCasts_S8192x1024x1x2_S8192x1024x2,
    unary main_v11 main_v14 ((extractStridedSlice S8192x1024x1x2 ![0, 0, 1, 0] · slices_S8192x1024x2x2_S8192x1024x1x2_0_0_1_0) : (⟨S8192x1024x2x2, .f32⟩ : BufTy).Contents (Elt F) → (⟨S8192x1024x1x2, .f32⟩ : BufTy).Contents (Elt F)),
    reshape main_v14 main_v15 rfl shapeCasts_S8192x1024x1x2_S8192x1024x2,
    binary main_v13 main_v15 main_v16 (addf : (⟨S8192x1024x2, .f32⟩ : BufTy).Contents (Elt F) → (⟨S8192x1024x2, .f32⟩ : BufTy).Contents (Elt F) → (⟨S8192x1024x2, .f32⟩ : BufTy).Contents (Elt F)),
    binary main_v13 main_v15 main_v17 (subf : (⟨S8192x1024x2, .f32⟩ : BufTy).Contents (Elt F) → (⟨S8192x1024x2, .f32⟩ : BufTy).Contents (Elt F) → (⟨S8192x1024x2, .f32⟩ : BufTy).Contents (Elt F)),
    unary main_v16 main_v18 (broadcastInDim S8192x1024x1x2 ![0, 1, 3] bcast_S8192x1024x2_S8192x1024x1x2_0_1_3 : (⟨S8192x1024x2, .f32⟩ : BufTy).Contents (Elt F) → (⟨S8192x1024x1x2, .f32⟩ : BufTy).Contents (Elt F)),
    unary main_v17 main_v19 (broadcastInDim S8192x1024x1x2 ![0, 1, 3] bcast_S8192x1024x2_S8192x1024x1x2_0_1_3 : (⟨S8192x1024x2, .f32⟩ : BufTy).Contents (Elt F) → (⟨S8192x1024x1x2, .f32⟩ : BufTy).Contents (Elt F)),
    binary main_v18 main_v19 main_v20 ((fun a b => concatenate S8192x1024x2x2 2 [⟨S8192x1024x1x2, a⟩, ⟨S8192x1024x1x2, b⟩] concatenates_S8192x1024x1x2_S8192x1024x1x2_S8192x1024x2x2_d2) : (⟨S8192x1024x1x2, .f32⟩ : BufTy).Contents (Elt F) → (⟨S8192x1024x1x2, .f32⟩ : BufTy).Contents (Elt F) → (⟨S8192x1024x2x2, .f32⟩ : BufTy).Contents (Elt F)),
    reshape main_v20 main_v21 rfl shapeCasts_S8192x1024x2x2_S8192x512x2x4 ]

/-- The stage at distance 4: from the view [8192, 512, 2, 4] to the view [8192, 256, 2, 8]. -/
abbrev st2 : List (HloOp τ sig (Elt F)) :=
  [ unary main_v21 main_v22 ((extractStridedSlice S8192x512x1x4 ![0, 0, 0, 0] · slices_S8192x512x2x4_S8192x512x1x4_0_0_0_0) : (⟨S8192x512x2x4, .f32⟩ : BufTy).Contents (Elt F) → (⟨S8192x512x1x4, .f32⟩ : BufTy).Contents (Elt F)),
    reshape main_v22 main_v23 rfl shapeCasts_S8192x512x1x4_S8192x512x4,
    unary main_v21 main_v24 ((extractStridedSlice S8192x512x1x4 ![0, 0, 1, 0] · slices_S8192x512x2x4_S8192x512x1x4_0_0_1_0) : (⟨S8192x512x2x4, .f32⟩ : BufTy).Contents (Elt F) → (⟨S8192x512x1x4, .f32⟩ : BufTy).Contents (Elt F)),
    reshape main_v24 main_v25 rfl shapeCasts_S8192x512x1x4_S8192x512x4,
    binary main_v23 main_v25 main_v26 (addf : (⟨S8192x512x4, .f32⟩ : BufTy).Contents (Elt F) → (⟨S8192x512x4, .f32⟩ : BufTy).Contents (Elt F) → (⟨S8192x512x4, .f32⟩ : BufTy).Contents (Elt F)),
    binary main_v23 main_v25 main_v27 (subf : (⟨S8192x512x4, .f32⟩ : BufTy).Contents (Elt F) → (⟨S8192x512x4, .f32⟩ : BufTy).Contents (Elt F) → (⟨S8192x512x4, .f32⟩ : BufTy).Contents (Elt F)),
    unary main_v26 main_v28 (broadcastInDim S8192x512x1x4 ![0, 1, 3] bcast_S8192x512x4_S8192x512x1x4_0_1_3 : (⟨S8192x512x4, .f32⟩ : BufTy).Contents (Elt F) → (⟨S8192x512x1x4, .f32⟩ : BufTy).Contents (Elt F)),
    unary main_v27 main_v29 (broadcastInDim S8192x512x1x4 ![0, 1, 3] bcast_S8192x512x4_S8192x512x1x4_0_1_3 : (⟨S8192x512x4, .f32⟩ : BufTy).Contents (Elt F) → (⟨S8192x512x1x4, .f32⟩ : BufTy).Contents (Elt F)),
    binary main_v28 main_v29 main_v30 ((fun a b => concatenate S8192x512x2x4 2 [⟨S8192x512x1x4, a⟩, ⟨S8192x512x1x4, b⟩] concatenates_S8192x512x1x4_S8192x512x1x4_S8192x512x2x4_d2) : (⟨S8192x512x1x4, .f32⟩ : BufTy).Contents (Elt F) → (⟨S8192x512x1x4, .f32⟩ : BufTy).Contents (Elt F) → (⟨S8192x512x2x4, .f32⟩ : BufTy).Contents (Elt F)),
    reshape main_v30 main_v31 rfl shapeCasts_S8192x512x2x4_S8192x256x2x8 ]

/-- The stage at distance 8: from the view [8192, 256, 2, 8] to the view [8192, 128, 2, 16]. -/
abbrev st3 : List (HloOp τ sig (Elt F)) :=
  [ unary main_v31 main_v32 ((extractStridedSlice S8192x256x1x8 ![0, 0, 0, 0] · slices_S8192x256x2x8_S8192x256x1x8_0_0_0_0) : (⟨S8192x256x2x8, .f32⟩ : BufTy).Contents (Elt F) → (⟨S8192x256x1x8, .f32⟩ : BufTy).Contents (Elt F)),
    reshape main_v32 main_v33 rfl shapeCasts_S8192x256x1x8_S8192x256x8,
    unary main_v31 main_v34 ((extractStridedSlice S8192x256x1x8 ![0, 0, 1, 0] · slices_S8192x256x2x8_S8192x256x1x8_0_0_1_0) : (⟨S8192x256x2x8, .f32⟩ : BufTy).Contents (Elt F) → (⟨S8192x256x1x8, .f32⟩ : BufTy).Contents (Elt F)),
    reshape main_v34 main_v35 rfl shapeCasts_S8192x256x1x8_S8192x256x8,
    binary main_v33 main_v35 main_v36 (addf : (⟨S8192x256x8, .f32⟩ : BufTy).Contents (Elt F) → (⟨S8192x256x8, .f32⟩ : BufTy).Contents (Elt F) → (⟨S8192x256x8, .f32⟩ : BufTy).Contents (Elt F)),
    binary main_v33 main_v35 main_v37 (subf : (⟨S8192x256x8, .f32⟩ : BufTy).Contents (Elt F) → (⟨S8192x256x8, .f32⟩ : BufTy).Contents (Elt F) → (⟨S8192x256x8, .f32⟩ : BufTy).Contents (Elt F)),
    unary main_v36 main_v38 (broadcastInDim S8192x256x1x8 ![0, 1, 3] bcast_S8192x256x8_S8192x256x1x8_0_1_3 : (⟨S8192x256x8, .f32⟩ : BufTy).Contents (Elt F) → (⟨S8192x256x1x8, .f32⟩ : BufTy).Contents (Elt F)),
    unary main_v37 main_v39 (broadcastInDim S8192x256x1x8 ![0, 1, 3] bcast_S8192x256x8_S8192x256x1x8_0_1_3 : (⟨S8192x256x8, .f32⟩ : BufTy).Contents (Elt F) → (⟨S8192x256x1x8, .f32⟩ : BufTy).Contents (Elt F)),
    binary main_v38 main_v39 main_v40 ((fun a b => concatenate S8192x256x2x8 2 [⟨S8192x256x1x8, a⟩, ⟨S8192x256x1x8, b⟩] concatenates_S8192x256x1x8_S8192x256x1x8_S8192x256x2x8_d2) : (⟨S8192x256x1x8, .f32⟩ : BufTy).Contents (Elt F) → (⟨S8192x256x1x8, .f32⟩ : BufTy).Contents (Elt F) → (⟨S8192x256x2x8, .f32⟩ : BufTy).Contents (Elt F)),
    reshape main_v40 main_v41 rfl shapeCasts_S8192x256x2x8_S8192x128x2x16 ]

/-- The stage at distance 16: from the view [8192, 128, 2, 16] to the view [8192, 64, 2, 32]. -/
abbrev st4 : List (HloOp τ sig (Elt F)) :=
  [ unary main_v41 main_v42 ((extractStridedSlice S8192x128x1x16 ![0, 0, 0, 0] · slices_S8192x128x2x16_S8192x128x1x16_0_0_0_0) : (⟨S8192x128x2x16, .f32⟩ : BufTy).Contents (Elt F) → (⟨S8192x128x1x16, .f32⟩ : BufTy).Contents (Elt F)),
    reshape main_v42 main_v43 rfl shapeCasts_S8192x128x1x16_S8192x128x16,
    unary main_v41 main_v44 ((extractStridedSlice S8192x128x1x16 ![0, 0, 1, 0] · slices_S8192x128x2x16_S8192x128x1x16_0_0_1_0) : (⟨S8192x128x2x16, .f32⟩ : BufTy).Contents (Elt F) → (⟨S8192x128x1x16, .f32⟩ : BufTy).Contents (Elt F)),
    reshape main_v44 main_v45 rfl shapeCasts_S8192x128x1x16_S8192x128x16,
    binary main_v43 main_v45 main_v46 (addf : (⟨S8192x128x16, .f32⟩ : BufTy).Contents (Elt F) → (⟨S8192x128x16, .f32⟩ : BufTy).Contents (Elt F) → (⟨S8192x128x16, .f32⟩ : BufTy).Contents (Elt F)),
    binary main_v43 main_v45 main_v47 (subf : (⟨S8192x128x16, .f32⟩ : BufTy).Contents (Elt F) → (⟨S8192x128x16, .f32⟩ : BufTy).Contents (Elt F) → (⟨S8192x128x16, .f32⟩ : BufTy).Contents (Elt F)),
    unary main_v46 main_v48 (broadcastInDim S8192x128x1x16 ![0, 1, 3] bcast_S8192x128x16_S8192x128x1x16_0_1_3 : (⟨S8192x128x16, .f32⟩ : BufTy).Contents (Elt F) → (⟨S8192x128x1x16, .f32⟩ : BufTy).Contents (Elt F)),
    unary main_v47 main_v49 (broadcastInDim S8192x128x1x16 ![0, 1, 3] bcast_S8192x128x16_S8192x128x1x16_0_1_3 : (⟨S8192x128x16, .f32⟩ : BufTy).Contents (Elt F) → (⟨S8192x128x1x16, .f32⟩ : BufTy).Contents (Elt F)),
    binary main_v48 main_v49 main_v50 ((fun a b => concatenate S8192x128x2x16 2 [⟨S8192x128x1x16, a⟩, ⟨S8192x128x1x16, b⟩] concatenates_S8192x128x1x16_S8192x128x1x16_S8192x128x2x16_d2) : (⟨S8192x128x1x16, .f32⟩ : BufTy).Contents (Elt F) → (⟨S8192x128x1x16, .f32⟩ : BufTy).Contents (Elt F) → (⟨S8192x128x2x16, .f32⟩ : BufTy).Contents (Elt F)),
    reshape main_v50 main_v51 rfl shapeCasts_S8192x128x2x16_S8192x64x2x32 ]

/-- The stage at distance 32: from the view [8192, 64, 2, 32] to the view [8192, 32, 2, 64]. -/
abbrev st5 : List (HloOp τ sig (Elt F)) :=
  [ unary main_v51 main_v52 ((extractStridedSlice S8192x64x1x32 ![0, 0, 0, 0] · slices_S8192x64x2x32_S8192x64x1x32_0_0_0_0) : (⟨S8192x64x2x32, .f32⟩ : BufTy).Contents (Elt F) → (⟨S8192x64x1x32, .f32⟩ : BufTy).Contents (Elt F)),
    reshape main_v52 main_v53 rfl shapeCasts_S8192x64x1x32_S8192x64x32,
    unary main_v51 main_v54 ((extractStridedSlice S8192x64x1x32 ![0, 0, 1, 0] · slices_S8192x64x2x32_S8192x64x1x32_0_0_1_0) : (⟨S8192x64x2x32, .f32⟩ : BufTy).Contents (Elt F) → (⟨S8192x64x1x32, .f32⟩ : BufTy).Contents (Elt F)),
    reshape main_v54 main_v55 rfl shapeCasts_S8192x64x1x32_S8192x64x32,
    binary main_v53 main_v55 main_v56 (addf : (⟨S8192x64x32, .f32⟩ : BufTy).Contents (Elt F) → (⟨S8192x64x32, .f32⟩ : BufTy).Contents (Elt F) → (⟨S8192x64x32, .f32⟩ : BufTy).Contents (Elt F)),
    binary main_v53 main_v55 main_v57 (subf : (⟨S8192x64x32, .f32⟩ : BufTy).Contents (Elt F) → (⟨S8192x64x32, .f32⟩ : BufTy).Contents (Elt F) → (⟨S8192x64x32, .f32⟩ : BufTy).Contents (Elt F)),
    unary main_v56 main_v58 (broadcastInDim S8192x64x1x32 ![0, 1, 3] bcast_S8192x64x32_S8192x64x1x32_0_1_3 : (⟨S8192x64x32, .f32⟩ : BufTy).Contents (Elt F) → (⟨S8192x64x1x32, .f32⟩ : BufTy).Contents (Elt F)),
    unary main_v57 main_v59 (broadcastInDim S8192x64x1x32 ![0, 1, 3] bcast_S8192x64x32_S8192x64x1x32_0_1_3 : (⟨S8192x64x32, .f32⟩ : BufTy).Contents (Elt F) → (⟨S8192x64x1x32, .f32⟩ : BufTy).Contents (Elt F)),
    binary main_v58 main_v59 main_v60 ((fun a b => concatenate S8192x64x2x32 2 [⟨S8192x64x1x32, a⟩, ⟨S8192x64x1x32, b⟩] concatenates_S8192x64x1x32_S8192x64x1x32_S8192x64x2x32_d2) : (⟨S8192x64x1x32, .f32⟩ : BufTy).Contents (Elt F) → (⟨S8192x64x1x32, .f32⟩ : BufTy).Contents (Elt F) → (⟨S8192x64x2x32, .f32⟩ : BufTy).Contents (Elt F)),
    reshape main_v60 main_v61 rfl shapeCasts_S8192x64x2x32_S8192x32x2x64 ]

/-- The stage at distance 64: from the view [8192, 32, 2, 64] to the view [8192, 16, 2, 128]. -/
abbrev st6 : List (HloOp τ sig (Elt F)) :=
  [ unary main_v61 main_v62 ((extractStridedSlice S8192x32x1x64 ![0, 0, 0, 0] · slices_S8192x32x2x64_S8192x32x1x64_0_0_0_0) : (⟨S8192x32x2x64, .f32⟩ : BufTy).Contents (Elt F) → (⟨S8192x32x1x64, .f32⟩ : BufTy).Contents (Elt F)),
    reshape main_v62 main_v63 rfl shapeCasts_S8192x32x1x64_S8192x32x64,
    unary main_v61 main_v64 ((extractStridedSlice S8192x32x1x64 ![0, 0, 1, 0] · slices_S8192x32x2x64_S8192x32x1x64_0_0_1_0) : (⟨S8192x32x2x64, .f32⟩ : BufTy).Contents (Elt F) → (⟨S8192x32x1x64, .f32⟩ : BufTy).Contents (Elt F)),
    reshape main_v64 main_v65 rfl shapeCasts_S8192x32x1x64_S8192x32x64,
    binary main_v63 main_v65 main_v66 (addf : (⟨S8192x32x64, .f32⟩ : BufTy).Contents (Elt F) → (⟨S8192x32x64, .f32⟩ : BufTy).Contents (Elt F) → (⟨S8192x32x64, .f32⟩ : BufTy).Contents (Elt F)),
    binary main_v63 main_v65 main_v67 (subf : (⟨S8192x32x64, .f32⟩ : BufTy).Contents (Elt F) → (⟨S8192x32x64, .f32⟩ : BufTy).Contents (Elt F) → (⟨S8192x32x64, .f32⟩ : BufTy).Contents (Elt F)),
    unary main_v66 main_v68 (broadcastInDim S8192x32x1x64 ![0, 1, 3] bcast_S8192x32x64_S8192x32x1x64_0_1_3 : (⟨S8192x32x64, .f32⟩ : BufTy).Contents (Elt F) → (⟨S8192x32x1x64, .f32⟩ : BufTy).Contents (Elt F)),
    unary main_v67 main_v69 (broadcastInDim S8192x32x1x64 ![0, 1, 3] bcast_S8192x32x64_S8192x32x1x64_0_1_3 : (⟨S8192x32x64, .f32⟩ : BufTy).Contents (Elt F) → (⟨S8192x32x1x64, .f32⟩ : BufTy).Contents (Elt F)),
    binary main_v68 main_v69 main_v70 ((fun a b => concatenate S8192x32x2x64 2 [⟨S8192x32x1x64, a⟩, ⟨S8192x32x1x64, b⟩] concatenates_S8192x32x1x64_S8192x32x1x64_S8192x32x2x64_d2) : (⟨S8192x32x1x64, .f32⟩ : BufTy).Contents (Elt F) → (⟨S8192x32x1x64, .f32⟩ : BufTy).Contents (Elt F) → (⟨S8192x32x2x64, .f32⟩ : BufTy).Contents (Elt F)),
    reshape main_v70 main_v71 rfl shapeCasts_S8192x32x2x64_S8192x16x2x128 ]

/-- The stage at distance 128: from the view [8192, 16, 2, 128] to the view [8192, 8, 2, 256]. -/
abbrev st7 : List (HloOp τ sig (Elt F)) :=
  [ unary main_v71 main_v72 ((extractStridedSlice S8192x16x1x128 ![0, 0, 0, 0] · slices_S8192x16x2x128_S8192x16x1x128_0_0_0_0) : (⟨S8192x16x2x128, .f32⟩ : BufTy).Contents (Elt F) → (⟨S8192x16x1x128, .f32⟩ : BufTy).Contents (Elt F)),
    reshape main_v72 main_v73 rfl shapeCasts_S8192x16x1x128_S8192x16x128,
    unary main_v71 main_v74 ((extractStridedSlice S8192x16x1x128 ![0, 0, 1, 0] · slices_S8192x16x2x128_S8192x16x1x128_0_0_1_0) : (⟨S8192x16x2x128, .f32⟩ : BufTy).Contents (Elt F) → (⟨S8192x16x1x128, .f32⟩ : BufTy).Contents (Elt F)),
    reshape main_v74 main_v75 rfl shapeCasts_S8192x16x1x128_S8192x16x128,
    binary main_v73 main_v75 main_v76 (addf : (⟨S8192x16x128, .f32⟩ : BufTy).Contents (Elt F) → (⟨S8192x16x128, .f32⟩ : BufTy).Contents (Elt F) → (⟨S8192x16x128, .f32⟩ : BufTy).Contents (Elt F)),
    binary main_v73 main_v75 main_v77 (subf : (⟨S8192x16x128, .f32⟩ : BufTy).Contents (Elt F) → (⟨S8192x16x128, .f32⟩ : BufTy).Contents (Elt F) → (⟨S8192x16x128, .f32⟩ : BufTy).Contents (Elt F)),
    unary main_v76 main_v78 (broadcastInDim S8192x16x1x128 ![0, 1, 3] bcast_S8192x16x128_S8192x16x1x128_0_1_3 : (⟨S8192x16x128, .f32⟩ : BufTy).Contents (Elt F) → (⟨S8192x16x1x128, .f32⟩ : BufTy).Contents (Elt F)),
    unary main_v77 main_v79 (broadcastInDim S8192x16x1x128 ![0, 1, 3] bcast_S8192x16x128_S8192x16x1x128_0_1_3 : (⟨S8192x16x128, .f32⟩ : BufTy).Contents (Elt F) → (⟨S8192x16x1x128, .f32⟩ : BufTy).Contents (Elt F)),
    binary main_v78 main_v79 main_v80 ((fun a b => concatenate S8192x16x2x128 2 [⟨S8192x16x1x128, a⟩, ⟨S8192x16x1x128, b⟩] concatenates_S8192x16x1x128_S8192x16x1x128_S8192x16x2x128_d2) : (⟨S8192x16x1x128, .f32⟩ : BufTy).Contents (Elt F) → (⟨S8192x16x1x128, .f32⟩ : BufTy).Contents (Elt F) → (⟨S8192x16x2x128, .f32⟩ : BufTy).Contents (Elt F)),
    reshape main_v80 main_v81 rfl shapeCasts_S8192x16x2x128_S8192x8x2x256 ]

/-- The stage at distance 256: from the view [8192, 8, 2, 256] to the view [8192, 4, 2, 512]. -/
abbrev st8 : List (HloOp τ sig (Elt F)) :=
  [ unary main_v81 main_v82 ((extractStridedSlice S8192x8x1x256 ![0, 0, 0, 0] · slices_S8192x8x2x256_S8192x8x1x256_0_0_0_0) : (⟨S8192x8x2x256, .f32⟩ : BufTy).Contents (Elt F) → (⟨S8192x8x1x256, .f32⟩ : BufTy).Contents (Elt F)),
    reshape main_v82 main_v83 rfl shapeCasts_S8192x8x1x256_S8192x8x256,
    unary main_v81 main_v84 ((extractStridedSlice S8192x8x1x256 ![0, 0, 1, 0] · slices_S8192x8x2x256_S8192x8x1x256_0_0_1_0) : (⟨S8192x8x2x256, .f32⟩ : BufTy).Contents (Elt F) → (⟨S8192x8x1x256, .f32⟩ : BufTy).Contents (Elt F)),
    reshape main_v84 main_v85 rfl shapeCasts_S8192x8x1x256_S8192x8x256,
    binary main_v83 main_v85 main_v86 (addf : (⟨S8192x8x256, .f32⟩ : BufTy).Contents (Elt F) → (⟨S8192x8x256, .f32⟩ : BufTy).Contents (Elt F) → (⟨S8192x8x256, .f32⟩ : BufTy).Contents (Elt F)),
    binary main_v83 main_v85 main_v87 (subf : (⟨S8192x8x256, .f32⟩ : BufTy).Contents (Elt F) → (⟨S8192x8x256, .f32⟩ : BufTy).Contents (Elt F) → (⟨S8192x8x256, .f32⟩ : BufTy).Contents (Elt F)),
    unary main_v86 main_v88 (broadcastInDim S8192x8x1x256 ![0, 1, 3] bcast_S8192x8x256_S8192x8x1x256_0_1_3 : (⟨S8192x8x256, .f32⟩ : BufTy).Contents (Elt F) → (⟨S8192x8x1x256, .f32⟩ : BufTy).Contents (Elt F)),
    unary main_v87 main_v89 (broadcastInDim S8192x8x1x256 ![0, 1, 3] bcast_S8192x8x256_S8192x8x1x256_0_1_3 : (⟨S8192x8x256, .f32⟩ : BufTy).Contents (Elt F) → (⟨S8192x8x1x256, .f32⟩ : BufTy).Contents (Elt F)),
    binary main_v88 main_v89 main_v90 ((fun a b => concatenate S8192x8x2x256 2 [⟨S8192x8x1x256, a⟩, ⟨S8192x8x1x256, b⟩] concatenates_S8192x8x1x256_S8192x8x1x256_S8192x8x2x256_d2) : (⟨S8192x8x1x256, .f32⟩ : BufTy).Contents (Elt F) → (⟨S8192x8x1x256, .f32⟩ : BufTy).Contents (Elt F) → (⟨S8192x8x2x256, .f32⟩ : BufTy).Contents (Elt F)),
    reshape main_v90 main_v91 rfl shapeCasts_S8192x8x2x256_S8192x4x2x512 ]

/-- The stage at distance 512: from the view [8192, 4, 2, 512] to the view [8192, 2, 2, 1024]. -/
abbrev st9 : List (HloOp τ sig (Elt F)) :=
  [ unary main_v91 main_v92 ((extractStridedSlice S8192x4x1x512 ![0, 0, 0, 0] · slices_S8192x4x2x512_S8192x4x1x512_0_0_0_0) : (⟨S8192x4x2x512, .f32⟩ : BufTy).Contents (Elt F) → (⟨S8192x4x1x512, .f32⟩ : BufTy).Contents (Elt F)),
    reshape main_v92 main_v93 rfl shapeCasts_S8192x4x1x512_S8192x4x512,
    unary main_v91 main_v94 ((extractStridedSlice S8192x4x1x512 ![0, 0, 1, 0] · slices_S8192x4x2x512_S8192x4x1x512_0_0_1_0) : (⟨S8192x4x2x512, .f32⟩ : BufTy).Contents (Elt F) → (⟨S8192x4x1x512, .f32⟩ : BufTy).Contents (Elt F)),
    reshape main_v94 main_v95 rfl shapeCasts_S8192x4x1x512_S8192x4x512,
    binary main_v93 main_v95 main_v96 (addf : (⟨S8192x4x512, .f32⟩ : BufTy).Contents (Elt F) → (⟨S8192x4x512, .f32⟩ : BufTy).Contents (Elt F) → (⟨S8192x4x512, .f32⟩ : BufTy).Contents (Elt F)),
    binary main_v93 main_v95 main_v97 (subf : (⟨S8192x4x512, .f32⟩ : BufTy).Contents (Elt F) → (⟨S8192x4x512, .f32⟩ : BufTy).Contents (Elt F) → (⟨S8192x4x512, .f32⟩ : BufTy).Contents (Elt F)),
    unary main_v96 main_v98 (broadcastInDim S8192x4x1x512 ![0, 1, 3] bcast_S8192x4x512_S8192x4x1x512_0_1_3 : (⟨S8192x4x512, .f32⟩ : BufTy).Contents (Elt F) → (⟨S8192x4x1x512, .f32⟩ : BufTy).Contents (Elt F)),
    unary main_v97 main_v99 (broadcastInDim S8192x4x1x512 ![0, 1, 3] bcast_S8192x4x512_S8192x4x1x512_0_1_3 : (⟨S8192x4x512, .f32⟩ : BufTy).Contents (Elt F) → (⟨S8192x4x1x512, .f32⟩ : BufTy).Contents (Elt F)),
    binary main_v98 main_v99 main_v100 ((fun a b => concatenate S8192x4x2x512 2 [⟨S8192x4x1x512, a⟩, ⟨S8192x4x1x512, b⟩] concatenates_S8192x4x1x512_S8192x4x1x512_S8192x4x2x512_d2) : (⟨S8192x4x1x512, .f32⟩ : BufTy).Contents (Elt F) → (⟨S8192x4x1x512, .f32⟩ : BufTy).Contents (Elt F) → (⟨S8192x4x2x512, .f32⟩ : BufTy).Contents (Elt F)),
    reshape main_v100 main_v101 rfl shapeCasts_S8192x4x2x512_S8192x2x2x1024 ]

/-- The stage at distance 1024: from the view [8192, 2, 2, 1024] to the view [8192, 1, 2, 2048]. -/
abbrev st10 : List (HloOp τ sig (Elt F)) :=
  [ unary main_v101 main_v102 ((extractStridedSlice S8192x2x1x1024 ![0, 0, 0, 0] · slices_S8192x2x2x1024_S8192x2x1x1024_0_0_0_0) : (⟨S8192x2x2x1024, .f32⟩ : BufTy).Contents (Elt F) → (⟨S8192x2x1x1024, .f32⟩ : BufTy).Contents (Elt F)),
    reshape main_v102 main_v103 rfl shapeCasts_S8192x2x1x1024_S8192x2x1024,
    unary main_v101 main_v104 ((extractStridedSlice S8192x2x1x1024 ![0, 0, 1, 0] · slices_S8192x2x2x1024_S8192x2x1x1024_0_0_1_0) : (⟨S8192x2x2x1024, .f32⟩ : BufTy).Contents (Elt F) → (⟨S8192x2x1x1024, .f32⟩ : BufTy).Contents (Elt F)),
    reshape main_v104 main_v105 rfl shapeCasts_S8192x2x1x1024_S8192x2x1024,
    binary main_v103 main_v105 main_v106 (addf : (⟨S8192x2x1024, .f32⟩ : BufTy).Contents (Elt F) → (⟨S8192x2x1024, .f32⟩ : BufTy).Contents (Elt F) → (⟨S8192x2x1024, .f32⟩ : BufTy).Contents (Elt F)),
    binary main_v103 main_v105 main_v107 (subf : (⟨S8192x2x1024, .f32⟩ : BufTy).Contents (Elt F) → (⟨S8192x2x1024, .f32⟩ : BufTy).Contents (Elt F) → (⟨S8192x2x1024, .f32⟩ : BufTy).Contents (Elt F)),
    unary main_v106 main_v108 (broadcastInDim S8192x2x1x1024 ![0, 1, 3] bcast_S8192x2x1024_S8192x2x1x1024_0_1_3 : (⟨S8192x2x1024, .f32⟩ : BufTy).Contents (Elt F) → (⟨S8192x2x1x1024, .f32⟩ : BufTy).Contents (Elt F)),
    unary main_v107 main_v109 (broadcastInDim S8192x2x1x1024 ![0, 1, 3] bcast_S8192x2x1024_S8192x2x1x1024_0_1_3 : (⟨S8192x2x1024, .f32⟩ : BufTy).Contents (Elt F) → (⟨S8192x2x1x1024, .f32⟩ : BufTy).Contents (Elt F)),
    binary main_v108 main_v109 main_v110 ((fun a b => concatenate S8192x2x2x1024 2 [⟨S8192x2x1x1024, a⟩, ⟨S8192x2x1x1024, b⟩] concatenates_S8192x2x1x1024_S8192x2x1x1024_S8192x2x2x1024_d2) : (⟨S8192x2x1x1024, .f32⟩ : BufTy).Contents (Elt F) → (⟨S8192x2x1x1024, .f32⟩ : BufTy).Contents (Elt F) → (⟨S8192x2x2x1024, .f32⟩ : BufTy).Contents (Elt F)),
    reshape main_v110 main_v111 rfl shapeCasts_S8192x2x2x1024_S8192x1x2x2048 ]

/-- The stage at distance 2048: from the view [8192, 1, 2, 2048] to the shape [2, 4096, 4096]. -/
abbrev st11 : List (HloOp τ sig (Elt F)) :=
  [ unary main_v111 main_v112 ((extractStridedSlice S8192x1x1x2048 ![0, 0, 0, 0] · slices_S8192x1x2x2048_S8192x1x1x2048_0_0_0_0) : (⟨S8192x1x2x2048, .f32⟩ : BufTy).Contents (Elt F) → (⟨S8192x1x1x2048, .f32⟩ : BufTy).Contents (Elt F)),
    reshape main_v112 main_v113 rfl shapeCasts_S8192x1x1x2048_S8192x1x2048,
    unary main_v111 main_v114 ((extractStridedSlice S8192x1x1x2048 ![0, 0, 1, 0] · slices_S8192x1x2x2048_S8192x1x1x2048_0_0_1_0) : (⟨S8192x1x2x2048, .f32⟩ : BufTy).Contents (Elt F) → (⟨S8192x1x1x2048, .f32⟩ : BufTy).Contents (Elt F)),
    reshape main_v114 main_v115 rfl shapeCasts_S8192x1x1x2048_S8192x1x2048,
    binary main_v113 main_v115 main_v116 (addf : (⟨S8192x1x2048, .f32⟩ : BufTy).Contents (Elt F) → (⟨S8192x1x2048, .f32⟩ : BufTy).Contents (Elt F) → (⟨S8192x1x2048, .f32⟩ : BufTy).Contents (Elt F)),
    binary main_v113 main_v115 main_v117 (subf : (⟨S8192x1x2048, .f32⟩ : BufTy).Contents (Elt F) → (⟨S8192x1x2048, .f32⟩ : BufTy).Contents (Elt F) → (⟨S8192x1x2048, .f32⟩ : BufTy).Contents (Elt F)),
    unary main_v116 main_v118 (broadcastInDim S8192x1x1x2048 ![0, 1, 3] bcast_S8192x1x2048_S8192x1x1x2048_0_1_3 : (⟨S8192x1x2048, .f32⟩ : BufTy).Contents (Elt F) → (⟨S8192x1x1x2048, .f32⟩ : BufTy).Contents (Elt F)),
    unary main_v117 main_v119 (broadcastInDim S8192x1x1x2048 ![0, 1, 3] bcast_S8192x1x2048_S8192x1x1x2048_0_1_3 : (⟨S8192x1x2048, .f32⟩ : BufTy).Contents (Elt F) → (⟨S8192x1x1x2048, .f32⟩ : BufTy).Contents (Elt F)),
    binary main_v118 main_v119 main_v120 ((fun a b => concatenate S8192x1x2x2048 2 [⟨S8192x1x1x2048, a⟩, ⟨S8192x1x1x2048, b⟩] concatenates_S8192x1x1x2048_S8192x1x1x2048_S8192x1x2x2048_d2) : (⟨S8192x1x1x2048, .f32⟩ : BufTy).Contents (Elt F) → (⟨S8192x1x1x2048, .f32⟩ : BufTy).Contents (Elt F) → (⟨S8192x1x2x2048, .f32⟩ : BufTy).Contents (Elt F)),
    reshape main_v120 main_v121 rfl shapeCasts_S8192x1x2x2048_S2x4096x4096 ]

/-- The product with the constant 1/64 broadcast from a scalar. -/
abbrev segF : List (HloOp τ sig (Elt F)) :=
  [ nullary main_cst (constant S_ .f32 0x3C800000#32),
    unary main_cst main_v122 (broadcastInDim S2x4096x4096 ![] bcast_S_S2x4096x4096 : (⟨S_, .f32⟩ : BufTy).Contents (Elt F) → (⟨S2x4096x4096, .f32⟩ : BufTy).Contents (Elt F)),
    binary main_v121 main_v122 main_v123 (mulf : (⟨S2x4096x4096, .f32⟩ : BufTy).Contents (Elt F) → (⟨S2x4096x4096, .f32⟩ : BufTy).Contents (Elt F) → (⟨S2x4096x4096, .f32⟩ : BufTy).Contents (Elt F)) ]

set_option maxRecDepth 8192 in
/-- The line is the stretches laid end to end. -/
theorem ops_eq : (ops : List (HloOp τ sig (Elt F)))
    = seg0 ++ (st0 ++ (st1 ++ (st2 ++ (st3 ++ (st4 ++ (st5 ++ (st6 ++ (st7 ++ (st8 ++ (st9 ++ (st10 ++ (st11 ++ segF)))))))))))) :=
  rfl

/-- The contents after two stretches run one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## Each stretch on flat contents, from any contents -/

/-- Multiplying every entry by an array that reads the real constant c everywhere multiplies the flat contents by c. -/
theorem FlatIs.mulf_const {S : Shape} {v w : S.Idx → EReal} {f : ℕ → ℝ} (hv : FlatIs v f) (c : ℝ)
    (hw : ∀ k, w k = ((c : ℝ) : EReal)) : FlatIs (mulf (F := Ideal) (φ := .f32) v w) (fun n => f n * c) := fun k => by
  rw [ValueIdx.mulf_apply, hv k, hw k, ← EReal.coe_mul]

/-- One stage's ten operations: if the input view holds g flat, the next view holds the butterfly of g flat. The ten
    results are read off the operations; what is left is the stage lemma and the reshape. -/
local macro "stage_val" name:ident seg:ident x:ident y:ident Sx:ident Sy:ident Q:num H:num cast:ident : command =>
  `(theorem $name (W : Valuation τ sig (Elt Ideal)) (g : ℕ → ℝ)
        (hW : FlatIs (S := $Sx) (W (Proc.devRef .tc $x)) g) :
        FlatIs (S := $Sy) (after ($seg (F := Ideal)) W (Proc.devRef .tc $y)) (bfly $H g) := fun k =>
      (congrFun (show after ($seg (F := Ideal)) W (Proc.devRef .tc $y) = _ by after_results <;> rfl) k).trans
        ((stage 8192 $Q $H _ g _ _ _ _ _ hW).shapeCast $cast k))

/-- A stretch of operations does not write the argument. -/
local macro "keep_arg" name:ident seg:ident : command =>
  `(theorem $name (W : Valuation τ sig (Elt Ideal)) :
        after ($seg (F := Ideal)) W (Proc.devRef .tc main_arg0) = W (Proc.devRef .tc main_arg0) := by after_results)

/-- The two reshapes keep the flat contents. -/
theorem seg0_val (W : Valuation τ sig (Elt Ideal)) (g : ℕ → ℝ)
    (hW : FlatIs (S := S2x4096x4096) (W (Proc.devRef .tc main_arg0)) g) :
    FlatIs (S := S8192x2048x2x1) (after (seg0 (F := Ideal)) W (Proc.devRef .tc main_v1)) g := fun k =>
  (congrFun (show after (seg0 (F := Ideal)) W (Proc.devRef .tc main_v1) = _ by after_results <;> rfl) k).trans
    (((hW.shapeCast shapeCasts_S2x4096x4096_S8192x4096).shapeCast shapeCasts_S8192x4096_S8192x2048x2x1) k)

keep_arg seg0_keep seg0
stage_val st0_val st0 main_v1 main_v11 S8192x2048x2x1 S8192x1024x2x2 2048 1 shapeCasts_S8192x2048x2x1_S8192x1024x2x2
keep_arg st0_keep st0
stage_val st1_val st1 main_v11 main_v21 S8192x1024x2x2 S8192x512x2x4 1024 2 shapeCasts_S8192x1024x2x2_S8192x512x2x4
keep_arg st1_keep st1
stage_val st2_val st2 main_v21 main_v31 S8192x512x2x4 S8192x256x2x8 512 4 shapeCasts_S8192x512x2x4_S8192x256x2x8
keep_arg st2_keep st2
stage_val st3_val st3 main_v31 main_v41 S8192x256x2x8 S8192x128x2x16 256 8 shapeCasts_S8192x256x2x8_S8192x128x2x16
keep_arg st3_keep st3
stage_val st4_val st4 main_v41 main_v51 S8192x128x2x16 S8192x64x2x32 128 16 shapeCasts_S8192x128x2x16_S8192x64x2x32
keep_arg st4_keep st4
stage_val st5_val st5 main_v51 main_v61 S8192x64x2x32 S8192x32x2x64 64 32 shapeCasts_S8192x64x2x32_S8192x32x2x64
keep_arg st5_keep st5
stage_val st6_val st6 main_v61 main_v71 S8192x32x2x64 S8192x16x2x128 32 64 shapeCasts_S8192x32x2x64_S8192x16x2x128
keep_arg st6_keep st6
stage_val st7_val st7 main_v71 main_v81 S8192x16x2x128 S8192x8x2x256 16 128 shapeCasts_S8192x16x2x128_S8192x8x2x256
keep_arg st7_keep st7
stage_val st8_val st8 main_v81 main_v91 S8192x8x2x256 S8192x4x2x512 8 256 shapeCasts_S8192x8x2x256_S8192x4x2x512
keep_arg st8_keep st8
stage_val st9_val st9 main_v91 main_v101 S8192x4x2x512 S8192x2x2x1024 4 512 shapeCasts_S8192x4x2x512_S8192x2x2x1024
keep_arg st9_keep st9
stage_val st10_val st10 main_v101 main_v111 S8192x2x2x1024 S8192x1x2x2048 2 1024 shapeCasts_S8192x2x2x1024_S8192x1x2x2048
keep_arg st10_keep st10
stage_val st11_val st11 main_v111 main_v121 S8192x1x2x2048 S2x4096x4096 1 2048 shapeCasts_S8192x1x2x2048_S2x4096x4096
keep_arg st11_keep st11

/-- The final product: the flat contents times 1/64. -/
theorem segF_val (W : Valuation τ sig (Elt Ideal)) (f : ℕ → ℝ)
    (hW : FlatIs (S := S2x4096x4096) (W (Proc.devRef .tc main_v121)) f) :
    FlatIs (S := S2x4096x4096) (after (segF (F := Ideal)) W (Proc.devRef .tc main_v123)) (fun n => f n * (1 / 64 : ℝ)) := by
  have e : after (segF (F := Ideal)) W (Proc.devRef .tc main_v123)
      = mulf (F := Ideal) (φ := .f32) (W (Proc.devRef .tc main_v121))
          (broadcastInDim S2x4096x4096 ![] bcast_S_S2x4096x4096 (constant S_ .f32 0x3C800000#32)) := by
    after_results <;> rfl
  intro k
  exact (congrFun e k).trans (FlatIs.mulf_const hW (1 / 64) (fun _ => ofBits_inv64) k)

keep_arg segF_keep segF

/-! ## The whole line -/

/-- The line does not write the argument. -/
theorem after_ops_arg (V : Valuation τ sig (Elt Ideal)) :
    after (ops (F := Ideal)) V (Proc.devRef .tc main_arg0) = V (Proc.devRef .tc main_arg0) := by
  rw [ops_eq]
  simp only [after_app]
  exact (segF_keep _).trans <| (st11_keep _).trans <| (st10_keep _).trans <| (st9_keep _).trans <| (st8_keep _).trans <|
    (st7_keep _).trans <| (st6_keep _).trans <| (st5_keep _).trans <| (st4_keep _).trans <| (st3_keep _).trans <|
    (st2_keep _).trans <| (st1_keep _).trans <| (st0_keep _).trans <| seg0_keep V

/-- The line on flat contents: the twelve butterflies, times 1/64. -/
theorem after_ops_flat (V : Valuation τ sig (Elt Ideal)) (g : ℕ → ℝ)
    (h0 : FlatIs (S := S2x4096x4096) (V (Proc.devRef .tc main_arg0)) g) :
    FlatIs (S := S2x4096x4096) (after (ops (F := Ideal)) V (Proc.devRef .tc main_v123))
      (fun n => bfly 2048 (bfly 1024 (bfly 512 (bfly 256 (bfly 128 (bfly 64 (bfly 32 (bfly 16 (bfly 8 (bfly 4 (bfly 2 (bfly 1 g))))))))))) n * (1 / 64 : ℝ)) := by
  rw [ops_eq]
  simp only [after_app]
  exact segF_val _ _ <| st11_val _ _ <| st10_val _ _ <| st9_val _ _ <| st8_val _ _ <| st7_val _ _ <| st6_val _ _ <|
    st5_val _ _ <| st4_val _ _ <| st3_val _ _ <| st2_val _ _ <| st1_val _ _ <| st0_val _ _ <| seg0_val V g h0

/-! ## The run -/

/-- Every weakly fair execution of the reference terminates with each buffer at the contents after the line. -/
theorem run_all (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc),
        r.2.mem ((d.tc : Thread nD τ).loc b) = after (ops (F := Ideal)) (launchContents m d) (Proc.devRef .tc b) :=
  run_seq scopedRefs_eq scopedSems_eq defs main (fun _ => ops) main_eq (fun _ => ops_sub) m ρ

/-- THE REFERENCE ON FLAT CONTENTS. From any memory whose argument holds, on each device c, the real numbers g c flat,
    every weakly fair execution of the reference terminates with the result holding the twelve butterflies of g c
    (distances 1, 2, 4, …, 2048, in that order) times 1/64, flat, and the argument unchanged. -/
theorem run_flat (m : (ℓ : Loc nD τ sig) → Buf (Elt Ideal) ℓ) (ρ : Dev nD → PrngReg) (g : Dev nD → ℕ → ℝ)
    (h0 : ∀ c : Dev nD, FlatIs (S := S2x4096x4096) (m ((c.tc : Thread nD τ).loc main_arg0)) (g c)) :
    θ_run (defs (F := Ideal)) (onTc (τ := τ) (main (F := Ideal))) ⟨m, fun _ => 0, ρ⟩ fun r => ∀ c : Dev nD,
      FlatIs (S := S2x4096x4096) (r.2.mem ((c.tc : Thread nD τ).loc main_v123))
          (fun n => bfly 2048 (bfly 1024 (bfly 512 (bfly 256 (bfly 128 (bfly 64 (bfly 32 (bfly 16 (bfly 8 (bfly 4 (bfly 2 (bfly 1 (g c)))))))))))) n * (1 / 64 : ℝ))
        ∧ r.2.mem ((c.tc : Thread nD τ).loc main_arg0) = m ((c.tc : Thread nD τ).loc main_arg0) :=
  (θ_run defs _ _).mono
    (fun r h c => ⟨fun k => (congrFun (h c main_v123) k).trans (after_ops_flat (launchContents m c) (g c) (h0 c) k),
      (h c main_arg0).trans (after_ops_arg (launchContents m c))⟩)
    (run_all m ρ)

/-- The reference leaves its argument unchanged, from any memory. -/
theorem run_frame (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0) :=
  (θ_run defs _ _).mono (fun r h c => (h c main_arg0).trans (after_ops_arg (launchContents m c))) (run_all m ρ)

end Cert.ReferenceIdeal.HandRun

end
-- ==== Proof.lean ====
/-
  The proof of `Cert.Claim`: the three programs run and leave their argument in place, and at exact arithmetic on the
  extended reals the kernel and the reference end with EQUAL results on every finite input.

  The mathematics. View a row of 4096 numbers as a 64×64 matrix X (entry (i1, i2) at position 64·i1 + i2). The kernel
  computes (H·X·H)/64 with H the 64×64 Sylvester–Hadamard matrix, H[a, b] = (-1)^(number of common one bits of a and b),
  which it builds from [[1, 1], [1, -1]] by five Kronecker products. The reference runs the twelve butterfly stages of
  the fast Walsh–Hadamard transform over the 4096 positions (distances 1, 2, 4, …, 2048) and divides by 64. Both are
  the Walsh–Hadamard transform on twelve bits: the sign on twelve bits of positions 64·i1 + i2 and 64·j1 + j2 is the
  product of the six-bit signs of (i1, j1) and of (i2, j2), so the double sum against H on both sides is the transform's
  single sum (the law of the Kronecker product H4096 = H64 ⊗ H64); and each butterfly stage adds one bit to the
  transform of the lower bits (`wht (k + 1) = bfly (2^k) ∘ wht k`), so twelve stages are the whole transform. Finite
  inputs are real numbers, on which the extended reals' sums and products are the reals', so the two results — each
  holding `wht 12 g n · (1/64)` at row-major position `n`, `g` the input's entries by position — are equal entry by
  entry.
-/
import proofs.«127082_j39934605918508_1_alg».proof.Defs
import proofs.«127082_j39934605918508_1_alg».proof.Proof.Gen.Kernel
import proofs.«127082_j39934605918508_1_alg».proof.Proof.Gen.Kernel.Skeleton
import proofs.«127082_j39934605918508_1_alg».proof.Proof.Gen.Kernel.Launch
import proofs.«127082_j39934605918508_1_alg».proof.Proof.Gen.Kernel.Points
import proofs.«127082_j39934605918508_1_alg».proof.Proof.Gen.Kernel.Frame
import proofs.«127082_j39934605918508_1_alg».proof.Proof.Gen.KernelIdeal
import proofs.«127082_j39934605918508_1_alg».proof.Proof.Gen.KernelIdeal.Skeleton
import proofs.«127082_j39934605918508_1_alg».proof.Proof.Gen.KernelIdeal.Launch
import proofs.«127082_j39934605918508_1_alg».proof.Proof.Gen.KernelIdeal.Points
import proofs.«127082_j39934605918508_1_alg».proof.Proof.Gen.KernelIdeal.Frame
import proofs.«127082_j39934605918508_1_alg».proof.Proof.Gen.ReferenceIdeal
import proofs.«127082_j39934605918508_1_alg».proof.Proof.Gen.Pre_finite_inputs
import Idealize.ShloMosaic.Adequacy
import Idealize.ShloMosaic.Init
import proofs.«127082_j39934605918508_1_alg».proof.Proof.HadDefs
import proofs.«127082_j39934605918508_1_alg».proof.Proof.HadMath
import proofs.«127082_j39934605918508_1_alg».proof.Proof.KernSpec
import proofs.«127082_j39934605918508_1_alg».proof.Proof.KernFlat
import proofs.«127082_j39934605918508_1_alg».proof.Proof.KernHad
import proofs.«127082_j39934605918508_1_alg».proof.Proof.KernValue
import proofs.«127082_j39934605918508_1_alg».proof.Proof.FiniteFlat
import proofs.«127082_j39934605918508_1_alg».proof.Proof.RefRun

noncomputable section

namespace Cert.Proof.Claims

open Idealize.ShloMosaic Idealize.ShloMosaic.TcCoe Idealize.SL.Sem Cert.Had

/-- The kernel as printed runs and leaves its argument in place. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- So does the reference. -/
theorem frame_ri : Cert.frame_ReferenceIdeal := fun m ρ _ => Cert.ReferenceIdeal.HandRun.run_frame m ρ

/-- The ideal reading rewrote no operation. -/
theorem preserves : Cert.preserves_Kernel_KernelIdeal := trivial

/-- On finite inputs both programs end with the row-wise Walsh–Hadamard transform over 4096 entries, divided by 64:
    the kernel as the two-sided product with the 64×64 Sylvester–Hadamard matrix, the reference as twelve butterfly
    stages; both hold `wht 12 g · (1/64)` at the row-major position of every index, `g` the input's flat contents. -/
theorem algebraic : Cert.algebraic_KernelIdeal_ReferenceIdeal := by
  intro m ρ m' ρ' hpre hagree
  have hex : ∀ c : Dev Cert.KernelIdeal.nD, ∃ g : ℕ → ℝ,
      FlatIs (S := Cert.Pre_finite_inputs.S2x4096x4096)
        (m ((c.tc : Thread Cert.KernelIdeal.nD Cert.KernelIdeal.τ).loc Cert.KernelIdeal.main_arg0)) g :=
    fun c => flat_of_pre _ (hpre c)
  choose g hg using hex
  -- the kernel's result is flat with the transform of `g c`
  have hk : ∀ c : Dev Cert.KernelIdeal.nD,
      FlatIs (S := Cert.KernelIdeal.S2x4096x4096)
        (shapeCast Cert.KernelIdeal.S2x4096x4096
          (Gk (Cert.KernelIdeal.Gen.V m c Cert.KernelIdeal.main_v0) (Cert.KernelIdeal.Gen.V m c Cert.KernelIdeal.main_v5))
          Cert.KernelIdeal.Facts₀.shapeCasts_S8192x64x64_S2x4096x4096)
        (fun n => bfly 2048 (bfly 1024 (bfly 512 (bfly 256 (bfly 128 (bfly 64 (bfly 32 (bfly 16 (bfly 8 (bfly 4 (bfly 2
          (bfly 1 (g c)))))))))))) n * (1 / 64 : ℝ)) := fun c => by
    have hX : FlatIs (S := Cert.KernelIdeal.S8192x64x64) (Cert.KernelIdeal.Gen.V m c Cert.KernelIdeal.main_v0) (g c) := by
      rw [Cert.KernelIdeal.HadMat.xmat m c]
      exact (hg c).shapeCast _
    have h := (Gk_flat _ _ (g c) hX (Cert.KernelIdeal.HadMat.hmat m c)).shapeCast
      Cert.KernelIdeal.Facts₀.shapeCasts_S8192x64x64_S2x4096x4096
    rw [wht12] at h
    exact h
  refine ⟨fun c => shapeCast Cert.KernelIdeal.S2x4096x4096
      (Gk (Cert.KernelIdeal.Gen.V m c Cert.KernelIdeal.main_v0) (Cert.KernelIdeal.Gen.V m c Cert.KernelIdeal.main_v5))
      Cert.KernelIdeal.Facts₀.shapeCasts_S8192x64x64_S2x4096x4096, Cert.KernelIdeal.KVal.run_value m ρ, ?_⟩
  refine (θ_run Cert.ReferenceIdeal.defs _ _).mono (fun r h c => ⟨FlatIs.ext (h c).1 (hk c), (h c).2⟩)
    (Cert.ReferenceIdeal.HandRun.run_flat m' ρ' g (fun c k => (congrFun (hagree c) k).trans (hg c k)))

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
